-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x5 : Shape := ⟨2, ![500000, 5]⟩
abbrev S2x16000000 : Shape := ⟨2, ![2, 16000000]⟩
abbrev S5x5 : Shape := ⟨2, ![5, 5]⟩
abbrev S5 : Shape := ⟨1, ![5]⟩
abbrev S5x8 : Shape := ⟨2, ![5, 8]⟩
abbrev S8 : Shape := ⟨1, ![8]⟩
abbrev S_ : Shape := ⟨0, ![]⟩

class Facts : Prop where
  bcast_S_S500000x5 : S_.BroadcastsInDim S500000x5 (![] : Fin 0 → Fin S500000x5.rank)
  reducesTo_S500000x5_S_d0_1 : S500000x5.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_
  bcast_S_S5x8 : S_.BroadcastsInDim S5x8 (![] : Fin 0 → Fin S5x8.rank)
  reducesTo_S5x8_S_d0_1 : S5x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S5x8 1) : IVec S_ 1 :=
  let main_c_5 : IVec S_ 1 := constantI S_ 1 1#1
  let main_v17 : IVec S_ 1 := (fun x v => Host.reduce IntOp.andi x v reducesTo_S5x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S500000x5 .f32) (main_arg1 : IVec S2x16000000 32) (main_arg2 : FVec F S5x5 .f32) (main_arg3 : FVec F S5 .f32) (main_arg4 : FVec F S5x8 .f32) (main_arg5 : FVec F S8 .f32) : IVec S_ 1 :=
  let main_v0 : FVec F S500000x5 .f32 := Host.absf main_arg0
  let main_cst : FVec F S_ .f32 := constant S_ .f32 0x7F800000#32
  let main_v1 : FVec F S500000x5 .f32 := broadcastInDim S500000x5 ![] bcast_S_S500000x5 main_cst
  let main_v2 : IVec S500000x5 1 := cmpf .olt main_v0 main_v1
  let main_c : IVec S_ 1 := constantI S_ 1 1#1
  let main_v3 : IVec S_ 1 := (fun x v => Host.reduce IntOp.andi x v reducesTo_S500000x5_S_d0_1 h_S_) main_v2 main_c
  let main_v4 : FVec F S5x5 .f32 := Host.absf main_arg2
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  let main_v9 : FVec F S5 .f32 := Host.absf main_arg3
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x8 .f32 := Host.absf main_arg4
  let main_cst_4 : FVec F S_ .f32 := constant S_ .f32 0x7F800000#32
  let main_v15 : FVec F S5x8 .f32 := broadcastInDim S5x8 ![] bcast_S_S5x8 main_cst_4
  let main_v16 : IVec S5x8 1 := cmpf .olt main_v14 main_v15
  fn_part1 (F := F) main_arg5 main_v13 main_v16
-- ==== Kernel.lean ====
abbrev S500000x5 : Shape := ⟨2, ![500000, 5]⟩
abbrev S2x16000000 : Shape := ⟨2, ![2, 16000000]⟩
abbrev S5x5 : Shape := ⟨2, ![5, 5]⟩
abbrev S5 : Shape := ⟨1, ![5]⟩
abbrev S5x8 : Shape := ⟨2, ![5, 8]⟩
abbrev S8 : Shape := ⟨1, ![8]⟩
abbrev S1x16000000 : Shape := ⟨2, ![1, 16000000]⟩
abbrev S16000000 : Shape := ⟨1, ![16000000]⟩
abbrev S500000 : Shape := ⟨1, ![500000]⟩
abbrev S16500000 : Shape := ⟨1, ![16500000]⟩
abbrev S_ : Shape := ⟨0, ![]⟩
abbrev S16500000x1 : Shape := ⟨2, ![16500000, 1]⟩
abbrev S500000x1 : Shape := ⟨2, ![500000, 1]⟩
abbrev S5000x5 : Shape := ⟨2, ![5000, 5]⟩
abbrev S5000x1 : Shape := ⟨2, ![5000, 1]⟩
abbrev S16500000x5 : Shape := ⟨2, ![16500000, 5]⟩
abbrev S1x5 : Shape := ⟨2, ![1, 5]⟩
abbrev S500000x8 : Shape := ⟨2, ![500000, 8]⟩
abbrev S5000x8 : Shape := ⟨2, ![5000, 8]⟩
abbrev S16500000x8 : Shape := ⟨2, ![16500000, 8]⟩
abbrev S1x8 : Shape := ⟨2, ![1, 8]⟩
abbrev S5000 : Shape := ⟨1, ![5000]⟩

abbrev nBuf : Space → Nat
  | .hbm => 59
  | .vmem => 22
  | .smem => 0
  | _ => 0

abbrev bufTy : (tb : Table) → Fin (tcTables nBuf tb) → BufTy
  | .hbm, ⟨0, _⟩ => ⟨S500000x5, .f32⟩
  | .hbm, ⟨1, _⟩ => ⟨S2x16000000, .i32⟩
  | .hbm, ⟨2, _⟩ => ⟨S5x5, .f32⟩
  | .hbm, ⟨3, _⟩ => ⟨S5, .f32⟩
  | .hbm, ⟨4, _⟩ => ⟨S5x8, .f32⟩
  | .hbm, ⟨5, _⟩ => ⟨S8, .f32⟩
  | .hbm, ⟨6, _⟩ => ⟨S1x16000000, .i32⟩
  | .hbm, ⟨7, _⟩ => ⟨S16000000, .i32⟩
  | .hbm, ⟨8, _⟩ => ⟨S1x16000000, .i32⟩
  | .hbm, ⟨9, _⟩ => ⟨S16000000, .i32⟩
  | .hbm, ⟨10, _⟩ => ⟨S500000, .i32⟩
  | .hbm, ⟨11, _⟩ => ⟨S16500000, .i32⟩
  | .hbm, ⟨12, _⟩ => ⟨S16500000, .i32⟩
  | .hbm, ⟨13, _⟩ => ⟨S_, .f32⟩
  | .hbm, ⟨14, _⟩ => ⟨S16500000, .f32⟩
  | .hbm, ⟨15, _⟩ => ⟨S_, .f32⟩
  | .hbm, ⟨16, _⟩ => ⟨S500000, .f32⟩
  | .hbm, ⟨17, _⟩ => ⟨S16500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S500000, .f32⟩
  | .hbm, ⟨23, _⟩ => ⟨S_, .f32⟩
  | .hbm, ⟨24, _⟩ => ⟨S_, .f32⟩
  | .hbm, ⟨25, _⟩ => ⟨S500000, .f32⟩
  | .hbm, ⟨26, _⟩ => ⟨S500000, .f32⟩
  | .hbm, ⟨27, _⟩ => ⟨S500000x1, .f32⟩
  | .hbm, ⟨28, _⟩ => ⟨S500000x5, .f32⟩
  | .hbm, ⟨29, _⟩ => ⟨S_, .i32⟩
  | .hbm, ⟨30, _⟩ => ⟨S16500000, .i32⟩
  | .hbm, ⟨31, _⟩ => ⟨S16500000, .i1⟩
  | .hbm, ⟨32, _⟩ => ⟨S_, .i32⟩
  | .hbm, ⟨33, _⟩ => ⟨S16500000, .i32⟩
  | .hbm, ⟨34, _⟩ => ⟨S16500000, .i32⟩
  | .hbm, ⟨35, _⟩ => ⟨S16500000, .i32⟩
  | .hbm, ⟨36, _⟩ => ⟨S16500000x1, .i32⟩
  | .hbm, ⟨37, _⟩ => ⟨S16500000x5, .f32⟩
  | .hbm, ⟨38, _⟩ => ⟨S_, .f32⟩
  | .hbm, ⟨39, _⟩ => ⟨S500000x5, .f32⟩
  | .hbm, ⟨40, _⟩ => ⟨S16500000x1, .i32⟩
  | .hbm, ⟨41, _⟩ => ⟨S500000x5, .f32⟩
  | .hbm, ⟨42, _⟩ => ⟨S1x5, .f32⟩
  | .hbm, ⟨43, _⟩ => ⟨S500000x8, .f32⟩
  | .hbm, ⟨44, _⟩ => ⟨S_, .i32⟩
  | .hbm, ⟨45, _⟩ => ⟨S16500000, .i32⟩
  | .hbm, ⟨46, _⟩ => ⟨S16500000, .i1⟩
  | .hbm, ⟨47, _⟩ => ⟨S_, .i32⟩
  | .hbm, ⟨48, _⟩ => ⟨S16500000, .i32⟩
  | .hbm, ⟨49, _⟩ => ⟨S16500000, .i32⟩
  | .hbm, ⟨50, _⟩ => ⟨S16500000, .i32⟩
  | .hbm, ⟨51, _⟩ => ⟨S16500000x1, .i32⟩
  | .hbm, ⟨52, _⟩ => ⟨S16500000x8, .f32⟩
  | .hbm, ⟨53, _⟩ => ⟨S_, .f32⟩
  | .hbm, ⟨54, _⟩ => ⟨S500000x8, .f32⟩
  | .hbm, ⟨55, _⟩ => ⟨S16500000x1, .i32⟩
  | .hbm, ⟨56, _⟩ => ⟨S500000x8, .f32⟩
  | .hbm, ⟨57, _⟩ => ⟨S1x8, .f32⟩
  | .hbm, ⟨58, _⟩ => ⟨S500000x8, .f32⟩
  | .local _ .vmem, ⟨0, _⟩ => ⟨S5000x5, .f32⟩
  | .local _ .vmem, ⟨1, _⟩ => ⟨S5000x5, .f32⟩
  | .local _ .vmem, ⟨2, _⟩ => ⟨S5000x1, .f32⟩
  | .local _ .vmem, ⟨3, _⟩ => ⟨S5000x1, .f32⟩
  | .local _ .vmem, ⟨4, _⟩ => ⟨S5x5, .f32⟩
  | .local _ .vmem, ⟨5, _⟩ => ⟨S5000x5, .f32⟩
  | .local _ .vmem, ⟨6, _⟩ => ⟨S5000x5, .f32⟩
  | .local _ .vmem, ⟨7, _⟩ => ⟨S5000x5, .f32⟩
  | .local _ .vmem, ⟨8, _⟩ => ⟨S5000x5, .f32⟩
  | .local _ .vmem, ⟨9, _⟩ => ⟨S5000x1, .f32⟩
  | .local _ .vmem, ⟨10, _⟩ => ⟨S5000x1, .f32⟩
  | .local _ .vmem, ⟨11, _⟩ => ⟨S1x5, .f32⟩
  | .local _ .vmem, ⟨12, _⟩ => ⟨S5x8, .f32⟩
  | .local _ .vmem, ⟨13, _⟩ => ⟨S5000x8, .f32⟩
  | .local _ .vmem, ⟨14, _⟩ => ⟨S5000x8, .f32⟩
  | .local _ .vmem, ⟨15, _⟩ => ⟨S5000x8, .f32⟩
  | .local _ .vmem, ⟨16, _⟩ => ⟨S5000x8, .f32⟩
  | .local _ .vmem, ⟨17, _⟩ => ⟨S5000x1, .f32⟩
  | .local _ .vmem, ⟨18, _⟩ => ⟨S5000x1, .f32⟩
  | .local _ .vmem, ⟨19, _⟩ => ⟨S1x8, .f32⟩
  | .local _ .vmem, ⟨20, _⟩ => ⟨S5000x8, .f32⟩
  | .local _ .vmem, ⟨21, _⟩ => ⟨S5000x8, .f32⟩
  | _, _ => ⟨S500000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S500000_S16500000_d0 : Shape.Concatenates [S16000000, S500000] S16500000 0
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  shapeCasts_S500000_S500000x1 : S500000.ShapeCasts S500000x1
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x5_S5x5_0_0 : ∀ a, (![0, 0] : Fin 2 → Nat) a + S5x5.size a ≤ S5x5.size a
  h_S5x5 : 0 < S5x5.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x5 : S5000x1.Broadcasts S5000x5
  bcast_S_S500000x5 : S_.BroadcastsInDim S500000x5 (![] : Fin 0 → Fin S500000x5.rank)
  shapeCasts_S5_S1x5 : S5.ShapeCasts S1x5
  shapeCasts_S5000x5_S5000x5 : S5000x5.ShapeCasts S5000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5x8_S5x8_0_0 : ∀ a, (![0, 0] : Fin 2 → Nat) a + S5x8.size a ≤ S5x8.size a
  h_S5x8 : 0 < S5x8.numel
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  bcast_S_S500000x8 : S_.BroadcastsInDim S500000x8 (![] : Fin 0 → Fin S500000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  scatter_S500000_S16500000x1_S16500000_n_0_0_1_wf : ScatterDims.WF S500000 S16500000x1 S16500000 [] [0] [0] 1
  dot_S5000x5_S5x5_S5000x5_1_0_0_1_n_n_wf : DotDims.WF S5000x5 S5x5 S5000x5 [1] [0] [0] [1] [] []
  gather_S500000x5_S16500000x1_S16500000x5_1_0_n_n_0_1_15_wf : GatherDims.WF S500000x5 S16500000x1 S16500000x5 [1] [0] [] [0] [] 1 ![1, 5]
  scatter_S500000x5_S16500000x1_S16500000x5_1_0_0_1_wf : ScatterDims.WF S500000x5 S16500000x1 S16500000x5 [1] [0] [0] 1
  dot_S5000x5_S5x8_S5000x8_1_0_0_1_n_n_wf : DotDims.WF S5000x5 S5x8 S5000x8 [1] [0] [0] [1] [] []
  gather_S500000x8_S16500000x1_S16500000x8_1_0_n_n_0_1_18_wf : GatherDims.WF S500000x8 S16500000x1 S16500000x8 [1] [0] [] [0] [] 1 ![1, 8]
  scatter_S500000x8_S16500000x1_S16500000x8_1_0_0_1_wf : ScatterDims.WF S500000x8 S16500000x1 S16500000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S500000x5.size a
  hwx0_0 : ∀ i : grid0.Coords, EltTy.bits .f32 = 32 ∨ (Rect.block (s := S500000x5) S5000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S500000x1.size a
  hwx0_1 : ∀ i : grid0.Coords, EltTy.bits .f32 = 32 ∨ (Rect.block (s := S500000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x5.size a ≤ S5x5.size a
  hwx0_2 : ∀ i : grid0.Coords, EltTy.bits .f32 = 32 ∨ (Rect.block (s := S5x5) S5x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x5.size a ≤ S500000x5.size a
  hwx0_3 : ∀ i : grid0.Coords, EltTy.bits .f32 = 32 ∨ (Rect.block (s := S500000x5) S5000x5.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x5.size a ≤ S500000x5.size a
  hwx1_0 : ∀ i : grid1.Coords, EltTy.bits .f32 = 32 ∨ (Rect.block (s := S500000x5) S5000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S500000x1.size a
  hwx1_1 : ∀ i : grid1.Coords, EltTy.bits .f32 = 32 ∨ (Rect.block (s := S500000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x5.size a ≤ S1x5.size a
  hwx1_2 : ∀ i : grid1.Coords, EltTy.bits .f32 = 32 ∨ (Rect.block (s := S1x5) S1x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x8.size a ≤ S5x8.size a
  hwx1_3 : ∀ i : grid1.Coords, EltTy.bits .f32 = 32 ∨ (Rect.block (s := S5x8) S5x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x8.size a ≤ S500000x8.size a
  hwx1_4 : ∀ i : grid1.Coords, EltTy.bits .f32 = 32 ∨ (Rect.block (s := S500000x8) S5000x8.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S500000x8.size a
  hwx2_0 : ∀ i : grid2.Coords, EltTy.bits .f32 = 32 ∨ (Rect.block (s := S500000x8) S5000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S500000x1.size a
  hwx2_1 : ∀ i : grid2.Coords, EltTy.bits .f32 = 32 ∨ (Rect.block (s := S500000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x8.size a ≤ S500000x8.size a
  hwx2_3 : ∀ i : grid2.Coords, EltTy.bits .f32 = 32 ∨ (Rect.block (s := S500000x8) S5000x8.size (cc2_transform_3 i) (hinb2_3 i)).WholeWords (EltTy.packing .f32)

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def dot_S5000x5_S5x5_S5000x5_1_0_0_1_n_n : DotDims S5000x5 S5x5 S5000x5 where
  lhsContracting := [1]
  rhsContracting := [0]
  lhsNonContracting := [0]
  rhsNonContracting := [1]
  lhsBatch := []
  rhsBatch := []
  wf := dot_S5000x5_S5x5_S5000x5_1_0_0_1_n_n_wf
def gather_S500000x5_S16500000x1_S16500000x5_1_0_n_n_0_1_15 : GatherDims S500000x5 S16500000x1 S16500000x5 where
  offsetDims := [1]
  collapsedSliceDims := [0]
  operandBatchingDims := []
  startIndicesBatchingDims := []
  startIndexMap := [0]
  indexVectorDim := 1
  sliceSizes := ![1, 5]
  wf := gather_S500000x5_S16500000x1_S16500000x5_1_0_n_n_0_1_15_wf
def scatter_S500000x5_S16500000x1_S16500000x5_1_0_0_1 : ScatterDims S500000x5 S16500000x1 S16500000x5 where
  updateWindowDims := [1]
  insertedWindowDims := [0]
  scatterDimsToOperandDims := [0]
  indexVectorDim := 1
  wf := scatter_S500000x5_S16500000x1_S16500000x5_1_0_0_1_wf
def dot_S5000x5_S5x8_S5000x8_1_0_0_1_n_n : DotDims S5000x5 S5x8 S5000x8 where
  lhsContracting := [1]
  rhsContracting := [0]
  lhsNonContracting := [0]
  rhsNonContracting := [1]
  lhsBatch := []
  rhsBatch := []
  wf := dot_S5000x5_S5x8_S5000x8_1_0_0_1_n_n_wf
def gather_S500000x8_S16500000x1_S16500000x8_1_0_n_n_0_1_18 : GatherDims S500000x8 S16500000x1 S16500000x8 where
  offsetDims := [1]
  collapsedSliceDims := [0]
  operandBatchingDims := []
  startIndicesBatchingDims := []
  startIndexMap := [0]
  indexVectorDim := 1
  sliceSizes := ![1, 8]
  wf := gather_S500000x8_S16500000x1_S16500000x8_1_0_n_n_0_1_18_wf
def scatter_S500000x8_S16500000x1_S16500000x8_1_0_0_1 : ScatterDims S500000x8 S16500000x1 S16500000x8 where
  updateWindowDims := [1]
  insertedWindowDims := [0]
  scatterDimsToOperandDims := [0]
  indexVectorDim := 1
  wf := scatter_S500000x8_S16500000x1_S16500000x8_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x5.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S5x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S500000x5 : Shape := ⟨2, ![500000, 5]⟩
abbrev S2x16000000 : Shape := ⟨2, ![2, 16000000]⟩
abbrev S5x5 : Shape := ⟨2, ![5, 5]⟩
abbrev S5 : Shape := ⟨1, ![5]⟩
abbrev S5x8 : Shape := ⟨2, ![5, 8]⟩
abbrev S8 : Shape := ⟨1, ![8]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S16500000x5 : Shape := ⟨2, ![16500000, 5]⟩
abbrev S1x5 : Shape := ⟨2, ![1, 5]⟩
abbrev S500000x8 : Shape := ⟨2, ![500000, 8]⟩
abbrev S16500000x8 : Shape := ⟨2, ![16500000, 8]⟩
abbrev S1x8 : Shape := ⟨2, ![1, 8]⟩
abbrev S500000x1 : Shape := ⟨2, ![500000, 1]⟩

abbrev nBuf : Space → Nat
  | .hbm => 104
  | .vmem => 0
  | .smem => 0
  | _ => 0

abbrev bufTy : (tb : Table) → Fin (tcTables nBuf tb) → BufTy
  | .hbm, ⟨0, _⟩ => ⟨S500000x5, .f32⟩
  | .hbm, ⟨1, _⟩ => ⟨S2x16000000, .i32⟩
  | .hbm, ⟨2, _⟩ => ⟨S5x5, .f32⟩
  | .hbm, ⟨3, _⟩ => ⟨S5, .f32⟩
  | .hbm, ⟨4, _⟩ => ⟨S5x8, .f32⟩
  | .hbm, ⟨5, _⟩ => ⟨S8, .f32⟩
  | .hbm, ⟨6, _⟩ => ⟨S500000, .i32⟩
  | .hbm, ⟨7, _⟩ => ⟨S1x16000000, .i32⟩
  | .hbm, ⟨8, _⟩ => ⟨S16000000, .i32⟩
  | .hbm, ⟨9, _⟩ => ⟨S16500000, .i32⟩
  | .hbm, ⟨10, _⟩ => ⟨S1x16000000, .i32⟩
  | .hbm, ⟨11, _⟩ => ⟨S16000000, .i32⟩
  | .hbm, ⟨12, _⟩ => ⟨S16500000, .i32⟩
  | .hbm, ⟨13, _⟩ => ⟨S_, .f32⟩
  | .hbm, ⟨14, _⟩ => ⟨S16500000, .f32⟩
  | .hbm, ⟨15, _⟩ => ⟨S_, .f32⟩
  | .hbm, ⟨16, _⟩ => ⟨S500000, .f32⟩
  | .hbm, ⟨17, _⟩ => ⟨S16500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S500000, .f32⟩
  | .hbm, ⟨23, _⟩ => ⟨S_, .f32⟩
  | .hbm, ⟨24, _⟩ => ⟨S_, .f32⟩
  | .hbm, ⟨25, _⟩ => ⟨S500000, .f32⟩
  | .hbm, ⟨26, _⟩ => ⟨S500000, .f32⟩
  | .hbm, ⟨27, _⟩ => ⟨S_, .i32⟩
  | .hbm, ⟨28, _⟩ => ⟨S16500000, .i32⟩
  | .hbm, ⟨29, _⟩ => ⟨S16500000, .i1⟩
  | .hbm, ⟨30, _⟩ => ⟨S_, .i32⟩
  | .hbm, ⟨31, _⟩ => ⟨S16500000, .i32⟩
  | .hbm, ⟨32, _⟩ => ⟨S16500000, .i32⟩
  | .hbm, ⟨33, _⟩ => ⟨S16500000, .i32⟩
  | .hbm, ⟨34, _⟩ => ⟨S16500000x1, .i32⟩
  | .hbm, ⟨35, _⟩ => ⟨S16500000, .f32⟩
  | .hbm, ⟨36, _⟩ => ⟨S_, .i32⟩
  | .hbm, ⟨37, _⟩ => ⟨S16500000, .i32⟩
  | .hbm, ⟨38, _⟩ => ⟨S16500000, .i1⟩
  | .hbm, ⟨39, _⟩ => ⟨S_, .i32⟩
  | .hbm, ⟨40, _⟩ => ⟨S16500000, .i32⟩
  | .hbm, ⟨41, _⟩ => ⟨S16500000, .i32⟩
  | .hbm, ⟨42, _⟩ => ⟨S16500000, .i32⟩
  | .hbm, ⟨43, _⟩ => ⟨S16500000x1, .i32⟩
  | .hbm, ⟨44, _⟩ => ⟨S16500000, .f32⟩
  | .hbm, ⟨45, _⟩ => ⟨S16500000, .f32⟩
  | .hbm, ⟨46, _⟩ => ⟨S500000x5, .f32⟩
  | .hbm, ⟨47, _⟩ => ⟨S_, .i32⟩
  | .hbm, ⟨48, _⟩ => ⟨S16500000, .i32⟩
  | .hbm, ⟨49, _⟩ => ⟨S16500000, .i1⟩
  | .hbm, ⟨50, _⟩ => ⟨S_, .i32⟩
  | .hbm, ⟨51, _⟩ => ⟨S16500000, .i32⟩
  | .hbm, ⟨52, _⟩ => ⟨S16500000, .i32⟩
  | .hbm, ⟨53, _⟩ => ⟨S16500000, .i32⟩
  | .hbm, ⟨54, _⟩ => ⟨S16500000x1, .i32⟩
  | .hbm, ⟨55, _⟩ => ⟨S16500000x5, .f32⟩
  | .hbm, ⟨56, _⟩ => ⟨S16500000x1, .f32⟩
  | .hbm, ⟨57, _⟩ => ⟨S16500000x5, .f32⟩
  | .hbm, ⟨58, _⟩ => ⟨S16500000x5, .f32⟩
  | .hbm, ⟨59, _⟩ => ⟨S_, .f32⟩
  | .hbm, ⟨60, _⟩ => ⟨S500000x5, .f32⟩
  | .hbm, ⟨61, _⟩ => ⟨S16500000x1, .i32⟩
  | .hbm, ⟨62, _⟩ => ⟨S500000x5, .f32⟩
  | .hbm, ⟨63, _⟩ => ⟨S1x5, .f32⟩
  | .hbm, ⟨64, _⟩ => ⟨S500000x5, .f32⟩
  | .hbm, ⟨65, _⟩ => ⟨S500000x5, .f32⟩
  | .hbm, ⟨66, _⟩ => ⟨S_, .f32⟩
  | .hbm, ⟨67, _⟩ => ⟨S500000x5, .f32⟩
  | .hbm, ⟨68, _⟩ => ⟨S500000x5, .f32⟩
  | .hbm, ⟨69, _⟩ => ⟨S500000x8, .f32⟩
  | .hbm, ⟨70, _⟩ => ⟨S_, .i32⟩
  | .hbm, ⟨71, _⟩ => ⟨S16500000, .i32⟩
  | .hbm, ⟨72, _⟩ => ⟨S16500000, .i1⟩
  | .hbm, ⟨73, _⟩ => ⟨S_, .i32⟩
  | .hbm, ⟨74, _⟩ => ⟨S16500000, .i32⟩
  | .hbm, ⟨75, _⟩ => ⟨S16500000, .i32⟩
  | .hbm, ⟨76, _⟩ => ⟨S16500000, .i32⟩
  | .hbm, ⟨77, _⟩ => ⟨S16500000x1, .i32⟩
  | .hbm, ⟨78, _⟩ => ⟨S16500000x8, .f32⟩
  | .hbm, ⟨79, _⟩ => ⟨S16500000x1, .f32⟩
  | .hbm, ⟨80, _⟩ => ⟨S16500000x8, .f32⟩
  | .hbm, ⟨81, _⟩ => ⟨S16500000x8, .f32⟩
  | .hbm, ⟨82, _⟩ => ⟨S_, .f32⟩
  | .hbm, ⟨83, _⟩ => ⟨S500000x8, .f32⟩
  | .hbm, ⟨84, _⟩ => ⟨S16500000x1, .i32⟩
  | .hbm, ⟨85, _⟩ => ⟨S500000x8, .f32⟩
  | .hbm, ⟨86, _⟩ => ⟨S1x8, .f32⟩
  | .hbm, ⟨87, _⟩ => ⟨S500000x8, .f32⟩
  | .hbm, ⟨88, _⟩ => ⟨S500000x8, .f32⟩
  | .hbm, ⟨89, _⟩ => ⟨S_, .f32⟩
  | .hbm, ⟨90, _⟩ => ⟨S500000, .f32⟩
  | .hbm, ⟨91, _⟩ => ⟨S_, .f32⟩
  | .hbm, ⟨92, _⟩ => ⟨S500000, .f32⟩
  | .hbm, ⟨93, _⟩ => ⟨S500000, .f32⟩
  | .hbm, ⟨94, _⟩ => ⟨S500000x1, .f32⟩
  | .hbm, ⟨95, _⟩ => ⟨S500000x8, .f32⟩
  | .hbm, ⟨96, _⟩ => ⟨S500000x8, .f32⟩
  | .hbm, ⟨97, _⟩ => ⟨S500000x8, .f32⟩
  | .hbm, ⟨98, _⟩ => ⟨S_, .f32⟩
  | .hbm, ⟨99, _⟩ => ⟨S500000, .f32⟩
  | .hbm, ⟨100, _⟩ => ⟨S500000x1, .f32⟩
  | .hbm, ⟨101, _⟩ => ⟨S500000x1, .f32⟩
  | .hbm, ⟨102, _⟩ => ⟨S500000x8, .f32⟩
  | .hbm, ⟨103, _⟩ => ⟨S500000x8, .f32⟩
  | _, _ => ⟨S500000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  bcast_S16500000x1_S16500000x5_0_1 : S16500000x1.BroadcastsInDim S16500000x5 (![0, 1] : Fin 2 → Fin S16500000x5.rank)
  bcast_S_S500000x5 : S_.BroadcastsInDim S500000x5 (![] : Fin 0 → Fin S500000x5.rank)
  bcast_S5_S1x5_1 : S5.BroadcastsInDim S1x5 (![1] : Fin 1 → Fin S1x5.rank)
  bcast_S1x5_S500000x5_0_1 : S1x5.BroadcastsInDim S500000x5 (![0, 1] : Fin 2 → Fin S500000x5.rank)
  bcast_S16500000x1_S16500000x8_0_1 : S16500000x1.BroadcastsInDim S16500000x8 (![0, 1] : Fin 2 → Fin S16500000x8.rank)
  bcast_S_S500000x8 : S_.BroadcastsInDim S500000x8 (![] : Fin 0 → Fin S500000x8.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  reducesTo_S500000x8_S500000_d1 : S500000x8.ReducesTo [1] S500000
  h_S_ : 0 < S_.numel
  bcast_S500000_S500000x1_0 : S500000.BroadcastsInDim S500000x1 (![0] : Fin 1 → Fin S500000x1.rank)
  bcast_S500000x1_S500000x8_0_1 : S500000x1.BroadcastsInDim S500000x8 (![0, 1] : Fin 2 → Fin S500000x8.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S500000x5_S5x5_S500000x5_1_0_0_1_n_n_wf : DotDims.WF S500000x5 S5x5 S500000x5 [1] [0] [0] [1] [] []
  gather_S500000x5_S16500000x1_S16500000x5_1_0_n_n_0_1_15_wf : GatherDims.WF S500000x5 S16500000x1 S16500000x5 [1] [0] [] [0] [] 1 ![1, 5]
  scatter_S500000x5_S16500000x1_S16500000x5_1_0_0_1_wf : ScatterDims.WF S500000x5 S16500000x1 S16500000x5 [1] [0] [0] 1
  dot_S500000x5_S5x8_S500000x8_1_0_0_1_n_n_wf : DotDims.WF S500000x5 S5x8 S500000x8 [1] [0] [0] [1] [] []
  gather_S500000x8_S16500000x1_S16500000x8_1_0_n_n_0_1_18_wf : GatherDims.WF S500000x8 S16500000x1 S16500000x8 [1] [0] [] [0] [] 1 ![1, 8]
  scatter_S500000x8_S16500000x1_S16500000x8_1_0_0_1_wf : ScatterDims.WF S500000x8 S16500000x1 S16500000x8 [1] [0] [0] 1

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S500000x5_S5x5_S500000x5_1_0_0_1_n_n : DotDims S500000x5 S5x5 S500000x5 where
  lhsContracting := [1]
  rhsContracting := [0]
  lhsNonContracting := [0]
  rhsNonContracting := [1]
  lhsBatch := []
  rhsBatch := []
  wf := dot_S500000x5_S5x5_S500000x5_1_0_0_1_n_n_wf
def gather_S500000x5_S16500000x1_S16500000x5_1_0_n_n_0_1_15 : GatherDims S500000x5 S16500000x1 S16500000x5 where
  offsetDims := [1]
  collapsedSliceDims := [0]
  operandBatchingDims := []
  startIndicesBatchingDims := []
  startIndexMap := [0]
  indexVectorDim := 1
  sliceSizes := ![1, 5]
  wf := gather_S500000x5_S16500000x1_S16500000x5_1_0_n_n_0_1_15_wf
def scatter_S500000x5_S16500000x1_S16500000x5_1_0_0_1 : ScatterDims S500000x5 S16500000x1 S16500000x5 where
  updateWindowDims := [1]
  insertedWindowDims := [0]
  scatterDimsToOperandDims := [0]
  indexVectorDim := 1
  wf := scatter_S500000x5_S16500000x1_S16500000x5_1_0_0_1_wf
def dot_S500000x5_S5x8_S500000x8_1_0_0_1_n_n : DotDims S500000x5 S5x8 S500000x8 where
  lhsContracting := [1]
  rhsContracting := [0]
  lhsNonContracting := [0]
  rhsNonContracting := [1]
  lhsBatch := []
  rhsBatch := []
  wf := dot_S500000x5_S5x8_S500000x8_1_0_0_1_n_n_wf
def gather_S500000x8_S16500000x1_S16500000x8_1_0_n_n_0_1_18 : GatherDims S500000x8 S16500000x1 S16500000x8 where
  offsetDims := [1]
  collapsedSliceDims := [0]
  operandBatchingDims := []
  startIndicesBatchingDims := []
  startIndexMap := [0]
  indexVectorDim := 1
  sliceSizes := ![1, 8]
  wf := gather_S500000x8_S16500000x1_S16500000x8_1_0_n_n_0_1_18_wf
def scatter_S500000x8_S16500000x1_S16500000x8_1_0_0_1 : ScatterDims S500000x8 S16500000x1 S16500000x8 where
  updateWindowDims := [1]
  insertedWindowDims := [0]
  scatterDimsToOperandDims := [0]
  indexVectorDim := 1
  wf := scatter_S500000x8_S16500000x1_S16500000x8_1_0_0_1_wf

class Facts : Prop extends Facts₀ where

variable [Facts]
-- ==== Proof.KRun.lean ====
/-
  The idealized kernel's run with its result named. The program is three tiled regions among stretches of host
  operations; the contents of the device's buffers at each boundary are a fold from the launch memory (a host stretch
  applies its operations; a region leaves in each of its arrays what its grid points wrote back, and every other buffer
  as it found it). Every weakly fair execution terminates, nothing faulting, with the result buffer holding what that
  fold holds for it at the last boundary, and the six argument arrays as launched.
-/
import proofs.«118445_j34368328302938_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- The run: the result buffer ends at the last boundary's contents for it, the arguments as launched. The last thread
    state holds every unscoped buffer at the last boundary's contents; the result's buffer is one of them, and each
    argument's is read back through the fold to the launch memory. -/
theorem run_out : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.HostStretch.lean ====
/-
  The idealized kernel's host operations, read as values of the launch memory.

  From the edge list `x1` (two rows of 16 000 000 node numbers) the program builds, once, the vectors of source and
  target nodes with the 500 000 self-loops appended (`srcVec`, `dstVec`), the degree of every node as a sum of ones over
  the edges into it (`degVec`), and the normalising factor `1/√deg` where the degree is positive, `0` elsewhere
  (`dinvVec`; as a column `dinvCol`). Around each lookup it re-reads the source vector (a negative number counted from
  the end, `srcCol`) and the target vector (`dstCol`) as columns. None of these buffers is written again: at every later
  boundary of the run they hold these values, and each region's output is looked up through `srcCol` and summed through
  `dstCol` into the next region's input.
-/
import proofs.«118445_j34368328302938_2_alg».proof.Proof.Gen.KernelIdeal.Frame
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-! ## The values built from the edge list -/

/-- The source node of every edge: row 0 of the edge list, then the self-loops `0, 1, …, 499 999`. -/
def srcVec (x1 : (⟨S2x16000000, .i32⟩ : BufTy).Contents (Elt F)) : (⟨S16500000, .i32⟩ : BufTy).Contents (Elt F) :=
  concatenate S16500000 0 [⟨S16000000, shapeCast S16000000 (extractStridedSlice S1x16000000 ![0, 0] x1 slices_S2x16000000_S1x16000000_0_0) shapeCasts_S1x16000000_S16000000⟩, ⟨S500000, iotaInDim S500000 32 0⟩] concatenates_S16000000_S500000_S16500000_d0

/-- The target node of every edge: row 1 of the edge list, then the self-loops. -/
def dstVec (x1 : (⟨S2x16000000, .i32⟩ : BufTy).Contents (Elt F)) : (⟨S16500000, .i32⟩ : BufTy).Contents (Elt F) :=
  concatenate S16500000 0 [⟨S16000000, shapeCast S16000000 (extractStridedSlice S1x16000000 ![1, 0] x1 slices_S2x16000000_S1x16000000_1_0) shapeCasts_S1x16000000_S16000000⟩, ⟨S500000, iotaInDim S500000 32 0⟩] concatenates_S16000000_S500000_S16500000_d0

/-- A vector of node numbers as a column of indices. -/
def asCol (v : (⟨S16500000, .i32⟩ : BufTy).Contents (Elt F)) : (⟨S16500000x1, .i32⟩ : BufTy).Contents (Elt F) :=
  broadcastInDim S16500000x1 ![0] bcast_S16500000_S16500000x1_0 v

/-- A vector of node numbers as a column of lookup indices, a negative number counted from the end (500 000 added). -/
def wrapCol (v : (⟨S16500000, .i32⟩ : BufTy).Contents (Elt F)) : (⟨S16500000x1, .i32⟩ : BufTy).Contents (Elt F) :=
  broadcastInDim S16500000x1 ![0] bcast_S16500000_S16500000x1_0
    (select (cmpi .slt v (broadcastInDim S16500000 ![] bcast_S_S16500000 (constantI S_ 32 0#32)))
      (addi v (broadcastInDim S16500000 ![] bcast_S_S16500000 (constantI S_ 32 500000#32)))
      v)

/-- The target nodes as a column of scatter indices. -/
def dstCol (x1 : (⟨S2x16000000, .i32⟩ : BufTy).Contents (Elt F)) : (⟨S16500000x1, .i32⟩ : BufTy).Contents (Elt F) :=
  asCol (F := F) (dstVec (F := F) x1)

/-- The source nodes as a column of lookup indices. -/
def srcCol (x1 : (⟨S2x16000000, .i32⟩ : BufTy).Contents (Elt F)) : (⟨S16500000x1, .i32⟩ : BufTy).Contents (Elt F) :=
  wrapCol (F := F) (srcVec (F := F) x1)

/-- The degree of every node: a sum of ones over the edges into it, from zero. -/
def degVec (x1 : (⟨S2x16000000, .i32⟩ : BufTy).Contents (Elt F)) : (⟨S500000, .f32⟩ : BufTy).Contents (Elt F) :=
  Host.scatterAdd scatter_S500000_S16500000x1_S16500000_n_0_0_1
    (broadcastInDim S500000 ![] bcast_S_S500000 (constant (F := F) S_ .f32 0x00000000#32))
    (dstCol (F := F) x1)
    (broadcastInDim S16500000 ![] bcast_S_S16500000 (constant (F := F) S_ .f32 0x3F800000#32))

/-- The normalising factor of every node: `1/√deg` where the degree is positive, `0` elsewhere. -/
def dinvVec (x1 : (⟨S2x16000000, .i32⟩ : BufTy).Contents (Elt F)) : (⟨S500000, .f32⟩ : BufTy).Contents (Elt F) :=
  select (cmpf .ogt (degVec (F := F) x1) (broadcastInDim S500000 ![] bcast_S_S500000 (constant (F := F) S_ .f32 0x00000000#32)))
    (Host.rsqrt (degVec (F := F) x1))
    (broadcastInDim S500000 ![] bcast_S_S500000 (constant (F := F) S_ .f32 0x00000000#32))

/-- The factor as a `[500000, 1]` column. -/
def dinvCol (x1 : (⟨S2x16000000, .i32⟩ : BufTy).Contents (Elt F)) : (⟨S500000x1, .f32⟩ : BufTy).Contents (Elt F) :=
  shapeCast S500000x1 (dinvVec (F := F) x1) shapeCasts_S500000_S500000x1

/-- Rows of `h` looked up through the column `s` and summed, from zero, into the rows the column `t` names (five columns). -/
def lookupSum5 (h : (⟨S500000x5, .f32⟩ : BufTy).Contents (Elt F)) (s t : (⟨S16500000x1, .i32⟩ : BufTy).Contents (Elt F)) :
    (⟨S500000x5, .f32⟩ : BufTy).Contents (Elt F) :=
  Host.scatterAdd scatter_S500000x5_S16500000x1_S16500000x5_1_0_0_1
    (broadcastInDim S500000x5 ![] bcast_S_S500000x5 (constant (F := F) S_ .f32 0x00000000#32)) t
    (Host.gather gather_S500000x5_S16500000x1_S16500000x5_1_0_n_n_0_1_15 h s)

/-- The same for eight columns. -/
def lookupSum8 (h : (⟨S500000x8, .f32⟩ : BufTy).Contents (Elt F)) (s t : (⟨S16500000x1, .i32⟩ : BufTy).Contents (Elt F)) :
    (⟨S500000x8, .f32⟩ : BufTy).Contents (Elt F) :=
  Host.scatterAdd scatter_S500000x8_S16500000x1_S16500000x8_1_0_0_1
    (broadcastInDim S500000x8 ![] bcast_S_S500000x8 (constant (F := F) S_ .f32 0x00000000#32)) t
    (Host.gather gather_S500000x8_S16500000x1_S16500000x8_1_0_n_n_0_1_18 h s)

variable (m : (ℓ : Loc nD τ sig) → Buf (Elt F) ℓ) (ρ : Dev nD → PrngReg)

/-! ## Region 0's entry -/

set_option maxHeartbeats 4000000 in
theorem W3_v5 (c : Dev nD) : W3 m ρ c (Proc.devRef .tc main_v5) = srcVec (F := F) (m ((c.tc : Thread nD τ).loc main_arg1)) := by
  show StableHlo.after hostOps0_2 (W2 m ρ c) (Proc.devRef .tc main_v5) = _
  after_results
  rfl

set_option maxHeartbeats 4000000 in
theorem W3_v6 (c : Dev nD) : W3 m ρ c (Proc.devRef .tc main_v6) = dstVec (F := F) (m ((c.tc : Thread nD τ).loc main_arg1)) := by
  show StableHlo.after hostOps0_2 (W2 m ρ c) (Proc.devRef .tc main_v6) = _
  after_results
  rfl

set_option maxHeartbeats 8000000 in
theorem W3_v15 (c : Dev nD) : W3 m ρ c (Proc.devRef .tc main_v15) = dinvCol (F := F) (m ((c.tc : Thread nD τ).loc main_arg1)) := by
  show StableHlo.after hostOps0_2 (W2 m ρ c) (Proc.devRef .tc main_v15) = _
  after_results
  rfl

set_option maxHeartbeats 4000000 in
theorem W3_arg0 (c : Dev nD) : W3 m ρ c (Proc.devRef .tc main_arg0) = m ((c.tc : Thread nD τ).loc main_arg0) := by
  show StableHlo.after hostOps0_2 (W2 m ρ c) (Proc.devRef .tc main_arg0) = _
  after_results <;> rfl

set_option maxHeartbeats 4000000 in
theorem W3_arg2 (c : Dev nD) : W3 m ρ c (Proc.devRef .tc main_arg2) = m ((c.tc : Thread nD τ).loc main_arg2) := by
  show StableHlo.after hostOps0_2 (W2 m ρ c) (Proc.devRef .tc main_arg2) = _
  after_results <;> rfl

set_option maxHeartbeats 4000000 in
theorem W3_arg3 (c : Dev nD) : W3 m ρ c (Proc.devRef .tc main_arg3) = m ((c.tc : Thread nD τ).loc main_arg3) := by
  show StableHlo.after hostOps0_2 (W2 m ρ c) (Proc.devRef .tc main_arg3) = _
  after_results <;> rfl

set_option maxHeartbeats 4000000 in
theorem W3_arg4 (c : Dev nD) : W3 m ρ c (Proc.devRef .tc main_arg4) = m ((c.tc : Thread nD τ).loc main_arg4) := by
  show StableHlo.after hostOps0_2 (W2 m ρ c) (Proc.devRef .tc main_arg4) = _
  after_results <;> rfl

set_option maxHeartbeats 4000000 in
theorem W3_arg5 (c : Dev nD) : W3 m ρ c (Proc.devRef .tc main_arg5) = m ((c.tc : Thread nD τ).loc main_arg5) := by
  show StableHlo.after hostOps0_2 (W2 m ρ c) (Proc.devRef .tc main_arg5) = _
  after_results <;> rfl

end Cert.KernelIdeal.HostValue

end
-- ==== Proof.HostBoundaries.lean ====
/-
  The idealized kernel's buffers at the later boundaries of its run.

  A region leaves in each of its output arrays what its grid points wrote back and every other buffer as it found it; a
  host stretch applies its operations. So: region 0's output array holds its write-backs; the stretch after it looks that
  array up through the source column, sums it through the target column into region 1's first input, and re-lays the first
  bias as a row; region 1's output is treated the same way on the way into region 2; the edge vectors, the factor column
  and the argument arrays are carried through unchanged.
-/
import proofs.«118445_j34368328302938_2_alg».proof.Proof.HostStretch

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Region 0's exit, and region 1's entry -/

/-- Region 0 leaves in its output array what its grid points wrote back. -/
theorem W4_v16 (c : Dev nD) : W4 m ρ c (Proc.devRef .tc main_v16) = (dat0 (V3 m ρ) c).arrAt 3 cfg0.N := W4_arr m ρ c 3

theorem W4_v5 (c : Dev nD) : W4 m ρ c (Proc.devRef .tc main_v5) = W3 m ρ c (Proc.devRef .tc main_v5) := W4_of_ne m ρ c main_v5 (by decide)
theorem W4_v6 (c : Dev nD) : W4 m ρ c (Proc.devRef .tc main_v6) = W3 m ρ c (Proc.devRef .tc main_v6) := W4_of_ne m ρ c main_v6 (by decide)
theorem W4_arg3 (c : Dev nD) : W4 m ρ c (Proc.devRef .tc main_arg3) = W3 m ρ c (Proc.devRef .tc main_arg3) := W4_of_ne m ρ c main_arg3 (by decide)
theorem W4_arg4 (c : Dev nD) : W4 m ρ c (Proc.devRef .tc main_arg4) = W3 m ρ c (Proc.devRef .tc main_arg4) := W4_of_ne m ρ c main_arg4 (by decide)
theorem W4_arg5 (c : Dev nD) : W4 m ρ c (Proc.devRef .tc main_arg5) = W3 m ρ c (Proc.devRef .tc main_arg5) := W4_of_ne m ρ c main_arg5 (by decide)

set_option maxHeartbeats 4000000 in
/-- Region 1's first input: region 0's output looked up through the source column and summed through the target column. -/
theorem W5_v26 (c : Dev nD) : W5 m ρ c (Proc.devRef .tc main_v26)
    = lookupSum5 (F := F) (W4 m ρ c (Proc.devRef .tc main_v16)) (wrapCol (F := F) (W4 m ρ c (Proc.devRef .tc main_v5))) (asCol (F := F) (W4 m ρ c (Proc.devRef .tc main_v6))) := by
  show StableHlo.after hostOps1 (W4 m ρ c) (Proc.devRef .tc main_v26) = _
  after_results <;> rfl

set_option maxHeartbeats 4000000 in
theorem W5_v27 (c : Dev nD) : W5 m ρ c (Proc.devRef .tc main_v27)
    = (shapeCast S1x5 (W4 m ρ c (Proc.devRef .tc main_arg3) : (⟨S5, .f32⟩ : BufTy).Contents (Elt F)) shapeCasts_S5_S1x5 : (⟨S1x5, .f32⟩ : BufTy).Contents (Elt F)) := by
  show StableHlo.after hostOps1 (W4 m ρ c) (Proc.devRef .tc main_v27) = _
  after_results <;> rfl

set_option maxHeartbeats 4000000 in
theorem W5_keep (c : Dev nD) :
    W5 m ρ c (Proc.devRef .tc main_v15) = W4 m ρ c (Proc.devRef .tc main_v15)
    ∧ W5 m ρ c (Proc.devRef .tc main_v5) = W4 m ρ c (Proc.devRef .tc main_v5)
    ∧ W5 m ρ c (Proc.devRef .tc main_v6) = W4 m ρ c (Proc.devRef .tc main_v6)
    ∧ W5 m ρ c (Proc.devRef .tc main_arg4) = W4 m ρ c (Proc.devRef .tc main_arg4)
    ∧ W5 m ρ c (Proc.devRef .tc main_arg5) = W4 m ρ c (Proc.devRef .tc main_arg5) := by
  refine ⟨?_, ?_, ?_, ?_, ?_⟩
  · show StableHlo.after hostOps1 (W4 m ρ c) (Proc.devRef .tc main_v15) = _
    after_results <;> rfl
  · show StableHlo.after hostOps1 (W4 m ρ c) (Proc.devRef .tc main_v5) = _
    after_results <;> rfl
  · show StableHlo.after hostOps1 (W4 m ρ c) (Proc.devRef .tc main_v6) = _
    after_results <;> rfl
  · show StableHlo.after hostOps1 (W4 m ρ c) (Proc.devRef .tc main_arg4) = _
    after_results <;> rfl
  · show StableHlo.after hostOps1 (W4 m ρ c) (Proc.devRef .tc main_arg5) = _
    after_results <;> rfl

/-- The factor column is an input array of region 0, which leaves it as it found it. -/
theorem W4_v15 (c : Dev nD) : W4 m ρ c (Proc.devRef .tc main_v15) = W3 m ρ c (Proc.devRef .tc main_v15) :=
  (W4_arr m ρ c 1).trans (((dat0 (V3 m ρ) c).arrAt_in 1 rfl _).trans (A_eq0 (V3 m ρ) c 1))

/-! ## Region 1's exit, and region 2's entry -/

theorem W6_v28 (c : Dev nD) : W6 m ρ c (Proc.devRef .tc main_v28) = (dat1 (V5 m ρ) c).arrAt 4 cfg1.N := W6_arr m ρ c 4

theorem W6_v5 (c : Dev nD) : W6 m ρ c (Proc.devRef .tc main_v5) = W5 m ρ c (Proc.devRef .tc main_v5) := W6_of_ne m ρ c main_v5 (by decide)
theorem W6_v6 (c : Dev nD) : W6 m ρ c (Proc.devRef .tc main_v6) = W5 m ρ c (Proc.devRef .tc main_v6) := W6_of_ne m ρ c main_v6 (by decide)
theorem W6_arg5 (c : Dev nD) : W6 m ρ c (Proc.devRef .tc main_arg5) = W5 m ρ c (Proc.devRef .tc main_arg5) := W6_of_ne m ρ c main_arg5 (by decide)
/-- The factor column is an input array of region 1 too. -/
theorem W6_v15 (c : Dev nD) : W6 m ρ c (Proc.devRef .tc main_v15) = W5 m ρ c (Proc.devRef .tc main_v15) :=
  (W6_arr m ρ c 1).trans (((dat1 (V5 m ρ) c).arrAt_in 1 rfl _).trans (A_eq1 (V5 m ρ) c 1))

set_option maxHeartbeats 4000000 in
/-- Region 2's first input: region 1's output looked up through the source column and summed through the target column. -/
theorem W7_v38 (c : Dev nD) : W7 m ρ c (Proc.devRef .tc main_v38)
    = lookupSum8 (F := F) (W6 m ρ c (Proc.devRef .tc main_v28)) (wrapCol (F := F) (W6 m ρ c (Proc.devRef .tc main_v5))) (asCol (F := F) (W6 m ρ c (Proc.devRef .tc main_v6))) := by
  show StableHlo.after hostOps2 (W6 m ρ c) (Proc.devRef .tc main_v38) = _
  after_results <;> rfl

set_option maxHeartbeats 4000000 in
theorem W7_v39 (c : Dev nD) : W7 m ρ c (Proc.devRef .tc main_v39)
    = (shapeCast S1x8 (W6 m ρ c (Proc.devRef .tc main_arg5) : (⟨S8, .f32⟩ : BufTy).Contents (Elt F)) shapeCasts_S8_S1x8 : (⟨S1x8, .f32⟩ : BufTy).Contents (Elt F)) := by
  show StableHlo.after hostOps2 (W6 m ρ c) (Proc.devRef .tc main_v39) = _
  after_results <;> rfl

set_option maxHeartbeats 4000000 in
theorem W7_v15 (c : Dev nD) : W7 m ρ c (Proc.devRef .tc main_v15) = W6 m ρ c (Proc.devRef .tc main_v15) := by
  show StableHlo.after hostOps2 (W6 m ρ c) (Proc.devRef .tc main_v15) = _
  after_results <;> rfl

/-! ## Region 2's exit -/

theorem W8_v40 (c : Dev nD) : W8 m ρ c (Proc.devRef .tc main_v40) = (dat2 (V7 m ρ) c).arrAt 3 cfg2.N := W8_arr m ρ c 3

end Cert.KernelIdeal.HostValue

end
-- ==== Proof.Spec.lean ====
/-
  A two-layer graph convolution with symmetric degree normalisation, as functions of arrays over the extended reals.

  Nodes carry feature rows; an edge `e` reads the row of its source node and adds into the row of its target node. With
  `d n` the normalising factor of node `n`, a layer sends along `e` the source's transformed row weighted by
  `d (src e) · d (dst e)`. Two arrangements of one layer are stated here:

  * the per-edge arrangement: every message is weighted by `d (src e) · d (dst e)` and the weighted messages into a node are summed;
  * the per-node arrangement: rows are scaled by `d` BEFORE they are looked up (`stage0`, `stage1`: the dense transform of a
    row times the row's own factor), the unweighted messages into a node are summed (`gatherSum`), and the sum is scaled by the
    target's factor afterwards (inside `stage1`, `stage2`).

  The dense stages act row by row, so each is stated for any number `n` of rows: the same function describes a tile of rows
  and the whole array. The last stage ends in a row-wise log-softmax.
-/
import Mathlib.Data.EReal.Operations
import Idealize.ShloMosaic.PureOps.Ideal
import Idealize.ShloMosaic.Lib.ValueIdx

open scoped BigOperators

noncomputable section

namespace Cert.Gcn

open Idealize.ShloMosaic Idealize.ShloMosaic.ValueIdx

/-- An `[a, b]` array of extended reals, read at an index. -/
abbrev Mat (a b : ℕ) := (⟨2, ![a, b]⟩ : Shape).Idx → EReal
/-- An `[a]` vector of extended reals, read at an index. -/
abbrev Vct (a : ℕ) := (⟨1, ![a]⟩ : Shape).Idx → EReal

/-- The row coordinate of a matrix index, as a number below the row count. -/
abbrev row {a b : ℕ} (i : (⟨2, ![a, b]⟩ : Shape).Idx) : Fin a := ⟨(i 0).val, idx2_lt0 i⟩
/-- The column coordinate of a matrix index, as a number below the column count. -/
abbrev col {a b : ℕ} (i : (⟨2, ![a, b]⟩ : Shape).Idx) : Fin b := ⟨(i 1).val, idx2_lt1 i⟩

theorem row_ix2 {a b : ℕ} (p : Fin a) (q : Fin b) : row (ix2 p q) = p := rfl
theorem col_ix2 {a b : ℕ} (p : Fin a) (q : Fin b) : col (ix2 p q) = q := rfl
theorem ix2_row_col {a b : ℕ} (i : (⟨2, ![a, b]⟩ : Shape).Idx) : ix2 (row i) (col i) = i := (eq_ix2 i).symm

/-! ## The dense stages, row by row -/

/-- First stage: the row `x(r, ·)` through the `5 × 5` matrix `w`, times the row's factor `d(r, 0)`. -/
def stage0 {n : ℕ} (x : Mat n 5) (d : Mat n 1) (w : Mat 5 5) : Mat n 5 := fun i =>
  (∑ k : Fin 5, x (ix2 (row i) k) * w (ix2 k (col i))) * d (ix2 (row i) 0)

/-- The hidden activation of a row: the summed messages `a(r, ·)` scaled by the row's factor, plus the bias, cut at `0`. -/
def hidden {n : ℕ} (a : Mat n 5) (d : Mat n 1) (b : Mat 1 5) (r : Fin n) (k : Fin 5) : EReal :=
  max (d (ix2 r 0) * a (ix2 r k) + b (ix2 0 k)) 0

/-- Second stage: the hidden activation of the row through the `5 × 8` matrix `w`, times the row's factor. -/
def stage1 {n : ℕ} (a : Mat n 5) (d : Mat n 1) (b : Mat 1 5) (w : Mat 5 8) : Mat n 8 := fun i =>
  (∑ k : Fin 5, hidden a d b (row i) k * w (ix2 k (col i))) * d (ix2 (row i) 0)

/-- The logits of a row: the summed messages scaled by the row's factor, plus the bias. -/
def logits {n : ℕ} (a : Mat n 8) (d : Mat n 1) (b : Mat 1 8) (r : Fin n) (k : Fin 8) : EReal :=
  d (ix2 r 0) * a (ix2 r k) + b (ix2 0 k)

/-- The maximum of eight extended reals, folded from the word for `-∞`. -/
def rowMax (z : Fin 8 → EReal) : EReal :=
  (Finset.univ : Finset (Fin 8)).fold max (Ideal.ofBits .f32 0xFF800000#32) z

/-- Log-softmax of eight logits at position `c`: shift by the maximum, subtract the log of the sum of exponentials. -/
def logSoftmax (z : Fin 8 → EReal) (c : Fin 8) : EReal :=
  (z c - rowMax z) - Ideal.log (∑ k : Fin 8, Ideal.exp (z k - rowMax z))

/-- Last stage: the log-softmax of the row's logits. -/
def stage2 {n : ℕ} (a : Mat n 8) (d : Mat n 1) (b : Mat 1 8) : Mat n 8 := fun i =>
  logSoftmax (logits a d b (row i)) (col i)

/-! ## Edges -/

/-- A column of `16 500 000` 32-bit node numbers, one per edge (the last `500 000` edges are the self-loops). -/
abbrev EdgeCol := IVec (⟨2, ![16500000, 1]⟩ : Shape) 32

/-- The node whose row a lookup through the column `s` reads for edge `e`: the entry read as a signed integer and
    clamped into `[0, 499 999]`. -/
def lookupRow (s : EdgeCol) (e : Fin 16500000) : Fin 500000 :=
  ⟨min (s (ix2 e (0 : Fin 1))).toInt.toNat (500000 - 1), by omega⟩

/-- The edges whose entry in the column `t`, read as a signed integer, is the node `n`: the edges a scatter through `t`
    adds into row `n` (an entry outside `[0, 499 999]` names no row). -/
def edgesInto (t : EdgeCol) (n : Fin 500000) : Finset (Fin 16500000) :=
  Finset.univ.filter (fun e : Fin 16500000 => (t (ix2 e (0 : Fin 1))).toInt = (n.val : Int))

/-- The rows of `h` looked up through `s` and summed, from `0`, into the rows named by `t`. -/
def gatherSum {f : ℕ} (h : Mat 500000 f) (s t : EdgeCol) : Mat 500000 f := fun i =>
  0 + ∑ e ∈ edgesInto t (row i), h (ix2 (lookupRow s e) (col i))

/-- The same with every message weighted by a factor `nrm e` of its edge. -/
def gatherSumW {f : ℕ} (h : Mat 500000 f) (s t : EdgeCol) (nrm : Fin 16500000 → EReal) : Mat 500000 f := fun i =>
  0 + ∑ e ∈ edgesInto t (row i), h (ix2 (lookupRow s e) (col i)) * nrm e

/-! ## The two arrangements of the whole network -/

/-- The per-node arrangement: scale, look up and sum, scale again; three dense stages around two lookups. -/
def perNode (x : Mat 500000 5) (w1 : Mat 5 5) (b1 : Mat 1 5) (w2 : Mat 5 8) (b2 : Mat 1 8) (d : Mat 500000 1)
    (s t : EdgeCol) : Mat 500000 8 :=
  stage2 (gatherSum (stage1 (gatherSum (stage0 x d w1) s t) d b1 w2) s t) d b2

/-- The plain dense transform of the rows of `x` by a matrix with `f` columns. -/
def dense {n k f : ℕ} (x : Mat n k) (w : Mat k f) : Mat n f := fun i =>
  ∑ j : Fin k, x (ix2 (row i) j) * w (ix2 j (col i))

/-- The per-edge arrangement: every message weighted by `nrm e`; a layer is transform, weighted lookup-and-sum, bias. -/
def perEdge (x : Mat 500000 5) (w1 : Mat 5 5) (b1 : Vct 5) (w2 : Mat 5 8) (b2 : Vct 8) (nrm : Fin 16500000 → EReal)
    (s t : EdgeCol) : Mat 500000 8 := fun i =>
  logSoftmax (fun c => gatherSumW (dense (fun j : (⟨2, ![500000, 5]⟩ : Shape).Idx =>
      max (gatherSumW (dense x w1) s t nrm j + b1 (ix1 (col j))) 0) w2) s t nrm (ix2 (row i) c) + b2 (ix1 c)) (col i)

end Cert.Gcn

end
-- ==== Proof.LibGatherRows.lean ====
/-
  Looking whole rows of a matrix up at a column of indices, read at one position.

  `x[idx]` for a matrix `x : [N, D]` and an integer vector `idx : [R]` is lowered to a gather whose start indices are the
  vector written as a column `[R, 1]` (the index vector lies along axis 1), with the operand's row axis collapsed, its
  column axis the result's offset axis, and a slice of one whole row. Result entry `(t, j)` is `x` at the row
  `idx[t, 0]` — read as a signed integer and clamped into `[0, N - 1]`, as the gather clamps every start index — and at
  the column `j`. This is the rank-2 companion of the library's reading of a gather of a flat array
  (`ValueIdx.gather_take_apply`), proved the same way, one operand axis at a time.
-/
import Idealize.ShloMosaic.Lib.ValueIdx

noncomputable section

namespace Cert.LibGatherRows

open Idealize.ShloMosaic Idealize.ShloMosaic.ValueIdx

variable {α : Type}

/-- The dimension numbers of that gather for an operand `[N, D]`, start indices `[R, 1]` and a result `[R, D]`. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices position `[t, 0]` of result position `(t, j)`. -/
abbrev rowIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The gather read at `(t, j)`: the operand at the row `idx[t, 0]`, read signed and clamped into `[0, N - 1]`, and at
    the column `j`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ =>
    show (rowDims N D R wf).start y idx 0 + (rowDims N D R wf).batchCoord y 0 + (rowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx y ⟨List.idxOf (0 : Fin 2) (rowDims N D R wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N D R wf).start y idx 1 + (rowDims N D R wf).batchCoord y 1 + (rowDims N D R wf).offCoord y 1 = (y 1).val
    have h1 : (1 : Fin 2) ∉ (rowDims N D R wf).startIndexMap := show (1 : Fin 2) ∉ [(0 : Fin 2)] from by decide
    have hk : (1 : Fin 2) ∈ (rowDims N D R wf).sKept :=
      (GatherDims.mem_sKept _ _).mpr ⟨show (1 : Fin 2) ∉ [(0 : Fin 2)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows

end
-- ==== Proof.LibScatterRows.lean ====
/-
  The accumulating scatter at the extended reals, read at one index, for the two dimension-number patterns of a
  segment sum, every extent a variable.

  ROWS: operand `[N, H]`, scatter indices `[E, 1]`, updates `[E, H]`, the updates' window axis `1`, the operand's
  inserted axis `0`, the scatter index naming operand axis `0`, the index vector on axis `1`. Update `(e, c)` lands
  at row `idx[e, 0]` (read signed), column `c`, and is dropped when that row is outside `[0, N)`
  (`rows_resultIdx?_iff`); so the result at `(n, c)` is the operand's element plus the sum of `upd (e, c)` over the
  `e` whose index is `n` (`scatterRows_apply`).

  VECTOR: operand `[N]`, scatter indices `[E, 1]`, updates `[E]`, no window axis. Update `e` lands at `idx[e, 0]`
  (`vec_resultIdx?_iff`); the result at `n` is the operand's element plus the sum of `upd e` over the same set of
  `e` (`scatterVec_apply`).

  Both rest on one general fact: an update lands at `i` exactly when start plus window coordinate is `i`'s
  coordinate on every operand axis (`resultIdx?_eq_some_iff`).
-/
import Idealize.ShloMosaic.PureOps.Ideal
import Idealize.ShloMosaic.Lib.ValueIdx

open scoped BigOperators
open Idealize.ShloMosaic Idealize.ShloMosaic.ValueIdx

noncomputable section

namespace Cert.LibScatterRows

/-- An update lands at operand index `i` exactly when, on every operand axis, its window's start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      simp only
      omega
    · intro hi
      funext a
      apply Fin.ext
      have h1 := h a
      have h2 := hi a
      simp only
      omega
  · rename_i h
    constructor
    · intro hn; exact absurd hn (by simp)
    · intro hi
      exfalso
      apply h
      intro a
      have h2 := hi a
      have h3 := (i a).isLt
      omega

variable (N E H : Nat)

/-- The row scatter's dimension numbers. -/
abbrev rowDims (hwf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ := ⟨[1], [0], [0], 1, hwf⟩

/-- A dependent index read at an axis equal to `a` has the value read at `a`. -/
theorem idx_val_congr {s : Shape} (j : s.Idx) {a b : Fin s.rank} (h : a = b) : (j a).val = (j b).val := by
  subst h; rfl

/-- A row update reads its scatter index at its own row, component `0`. -/
theorem rows_siIdx (hwf) (e : Fin E) (c' : Fin H) (c) :
    (rowDims N E H hwf).siIdx (ix2 e c') c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix2 e c') rfl
  | ⟨1, _⟩ =>
    apply Fin.ext
    simp only [ScatterDims.siIdx]
    rw [dif_pos trivial]
    have := c.isLt
    simp only [List.length_singleton] at this
    show c.val = 0
    omega

/-- On the row axis a row update's window starts at its scatter index, read signed. -/
theorem rows_start0 {w : Nat} (hwf) (e : Fin E) (c' : Fin H) (idx : IVec ⟨2, ![E, 1]⟩ w) :
    (rowDims N E H hwf).start (ix2 e c') idx (0 : Fin 2) = (idx (ix2 e (0 : Fin 1))).toInt := by
  unfold ScatterDims.start
  rw [dif_pos (show (0 : Fin 2) ∈ [(0 : Fin 2)] by decide)]
  rw [rows_siIdx]

/-- On the column axis a row update's window starts at `0`. -/
theorem rows_start1 {w : Nat} (hwf) (e : Fin E) (c' : Fin H) (idx : IVec ⟨2, ![E, 1]⟩ w) :
    (rowDims N E H hwf).start (ix2 e c') idx (1 : Fin 2) = 0 := by
  unfold ScatterDims.start
  rw [dif_neg (show (1 : Fin 2) ∉ [(0 : Fin 2)] by decide)]

/-- A row update has no window coordinate on the (inserted) row axis. -/
theorem rows_window0 (hwf) (e : Fin E) (c' : Fin H) :
    (rowDims N E H hwf).window (ix2 e c') (0 : Fin 2) = 0 := by
  unfold ScatterDims.window
  have h : (0 : Fin 2) ∉ (rowDims N E H hwf).sKept := (show (0 : Fin 2) ∉ [(1 : Fin 2)] by decide)
  rw [dif_neg h]

/-- A row update's window coordinate on the column axis is its own column. -/
theorem rows_window1 (hwf) (e : Fin E) (c' : Fin H) :
    (rowDims N E H hwf).window (ix2 e c') (1 : Fin 2) = c'.val := by
  unfold ScatterDims.window
  have h : (1 : Fin 2) ∈ (rowDims N E H hwf).sKept := (show (1 : Fin 2) ∈ [(1 : Fin 2)] by decide)
  rw [dif_pos h]
  exact idx_val_congr (ix2 e c') rfl

/-- A row update lands at row `n`, column `c` exactly when its scatter index, read signed, is `n` and its own
    column is `c`. -/
theorem rows_resultIdx?_iff {w : Nat} (hwf) (idx : IVec ⟨2, ![E, 1]⟩ w) (e : Fin E) (c' c : Fin H) (n : Fin N) :
    (rowDims N E H hwf).resultIdx? (ix2 e c') idx = some (ix2 n c)
      ↔ (idx (ix2 e (0 : Fin 1))).toInt = (n.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    change _ = (n.val : Int) at h0
    change _ = (c.val : Int) at h1
    exact ⟨by omega, Fin.ext (by omega)⟩
  · rintro ⟨h0, rfl⟩ a
    match a with
    | ⟨0, _⟩ =>
      show (rowDims N E H hwf).start (ix2 e c') idx (0 : Fin 2) + ((rowDims N E H hwf).window (ix2 e c') (0 : Fin 2) : Int)
        = (n.val : Int)
      rw [rows_start0, rows_window0]; omega
    | ⟨1, _⟩ =>
      show (rowDims N E H hwf).start (ix2 e c') idx (1 : Fin 2) + ((rowDims N E H hwf).window (ix2 e c') (1 : Fin 2) : Int)
        = (c'.val : Int)
      rw [rows_start1, rows_window1]; omega

/-- The row scatter read at row `n`, column `c`: the operand's element plus the sum, over the updates whose scatter
    index (read signed) is `n`, of their column-`c` elements. -/
theorem scatterRows_apply {w : Nat} (hwf : ScatterDims.WF ⟨2, ![N, H]⟩ ⟨2, ![E, 1]⟩ ⟨2, ![E, H]⟩ [1] [0] [0] 1)
    (x : (⟨2, ![N, H]⟩ : Shape).Idx → EReal) (idx : IVec ⟨2, ![E, 1]⟩ w) (upd : (⟨2, ![E, H]⟩ : Shape).Idx → EReal)
    (n : Fin N) (c : Fin H) :
    Ideal.hostScatterAdd (⟨[1], [0], [0], 1, hwf⟩ : ScatterDims ⟨2, ![N, H]⟩ ⟨2, ![E, 1]⟩ ⟨2, ![E, H]⟩) x idx upd (ix2 n c)
      = x (ix2 n c) + ∑ e ∈ Finset.univ.filter (fun e : Fin E => (idx (ix2 e (0 : Fin 1))).toInt = (n.val : Int)),
          upd (ix2 e c) := by
  show Ideal.hostScatterAdd (rowDims N E H hwf) x idx upd (ix2 n c) = _
  unfold Ideal.hostScatterAdd
  congr 1
  rw [Finset.sum_filter, sum_idx2, Finset.sum_filter]
  refine Finset.sum_congr rfl (fun e _ => ?_)
  by_cases h : (idx (ix2 e (0 : Fin 1))).toInt = (n.val : Int)
  · rw [if_pos h, Finset.sum_eq_single c]
    · rw [if_pos ((rows_resultIdx?_iff N E H hwf idx e c c n).2 ⟨h, rfl⟩)]
    · intro c' _ hc'
      rw [if_neg (fun hh => hc' ((rows_resultIdx?_iff N E H hwf idx e c' c n).1 hh).2)]
    · intro hc; exact absurd (Finset.mem_univ c) hc
  · rw [if_neg h]
    refine Finset.sum_eq_zero (fun c' _ => ?_)
    rw [if_neg (fun hh => h ((rows_resultIdx?_iff N E H hwf idx e c' c n).1 hh).1)]

/-- The vector scatter's dimension numbers. -/
abbrev vecDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, hwf⟩

/-- A vector update reads its scatter index at its own position, component `0`. -/
theorem vec_siIdx (hwf) (e : Fin E) (c) :
    (vecDims N E hwf).siIdx (ix1 e) c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix1 e) rfl
  | ⟨1, _⟩ =>
    apply Fin.ext
    simp only [ScatterDims.siIdx]
    rw [dif_pos trivial]
    have := c.isLt
    simp only [List.length_singleton] at this
    show c.val = 0
    omega

/-- A vector update's window starts at its scatter index, read signed. -/
theorem vec_start0 {w : Nat} (hwf) (e : Fin E) (idx : IVec ⟨2, ![E, 1]⟩ w) :
    (vecDims N E hwf).start (ix1 e) idx (0 : Fin 1) = (idx (ix2 e (0 : Fin 1))).toInt := by
  unfold ScatterDims.start
  rw [dif_pos (show (0 : Fin 1) ∈ [(0 : Fin 1)] by decide)]
  rw [vec_siIdx]

/-- A vector update has no window coordinate on the one (inserted) axis. -/
theorem vec_window0 (hwf) (e : Fin E) :
    (vecDims N E hwf).window (ix1 e) (0 : Fin 1) = 0 := by
  unfold ScatterDims.window
  have h : (0 : Fin 1) ∉ (vecDims N E hwf).sKept := (show (0 : Fin 1) ∉ ([] : List (Fin 1)) by decide)
  rw [dif_neg h]

/-- A vector update lands at position `n` exactly when its scatter index, read signed, is `n`. -/
theorem vec_resultIdx?_iff {w : Nat} (hwf) (idx : IVec ⟨2, ![E, 1]⟩ w) (e : Fin E) (n : Fin N) :
    (vecDims N E hwf).resultIdx? (ix1 e) idx = some (ix1 n)
      ↔ (idx (ix2 e (0 : Fin 1))).toInt = (n.val : Int) := by
  rw [resultIdx?_eq_some_iff]
  constructor
  · intro h
    have h0 := h (0 : Fin 1)
    rw [vec_start0, vec_window0] at h0
    change _ = (n.val : Int) at h0
    omega
  · intro h0 a
    match a with
    | ⟨0, _⟩ =>
      show (vecDims N E hwf).start (ix1 e) idx (0 : Fin 1) + ((vecDims N E hwf).window (ix1 e) (0 : Fin 1) : Int)
        = (n.val : Int)
      rw [vec_start0, vec_window0]; omega

/-- A sum over a rank-1 index set is the sum over its coordinate. -/
theorem sum_idx1 {M : Type*} [AddCommMonoid M] {n0 : Nat} (f : (⟨1, ![n0]⟩ : Shape).Idx → M) :
    ∑ i, f i = ∑ a : Fin n0, f (ix1 a) := by
  refine Fintype.sum_equiv ⟨fun i => i 0, fun a => ix1 a, fun i => (eq_ix1 i).symm, fun _ => rfl⟩ _ _ (fun i => ?_)
  exact congrArg f (eq_ix1 i)

/-- The vector scatter read at position `n`: the operand's element plus the sum of the updates whose scatter index
    (read signed) is `n`. -/
theorem scatterVec_apply {w : Nat} (hwf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (⟨[], [0], [0], 1, hwf⟩ : ScatterDims ⟨1, ![N]⟩ ⟨2, ![E, 1]⟩ ⟨1, ![E]⟩) x idx upd (ix1 n)
      = x (ix1 n) + ∑ e ∈ Finset.univ.filter (fun e : Fin E => (idx (ix2 e (0 : Fin 1))).toInt = (n.val : Int)),
          upd (ix1 e) := by
  show Ideal.hostScatterAdd (vecDims N E hwf) x idx upd (ix1 n) = _
  unfold Ideal.hostScatterAdd
  congr 1
  rw [Finset.sum_filter, sum_idx1, Finset.sum_filter]
  refine Finset.sum_congr rfl (fun e _ => ?_)
  by_cases h : (idx (ix2 e (0 : Fin 1))).toInt = (n.val : Int)
  · rw [if_pos h, if_pos ((vec_resultIdx?_iff N E hwf idx e n).2 h)]
  · rw [if_neg h, if_neg (fun hh => h ((vec_resultIdx?_iff N E hwf idx e n).1 hh))]

end Cert.LibScatterRows
-- ==== Proof.GatherSum.lean ====
/-
  The host's lookup-and-sum between two regions is the sum, over the edges into a node, of the looked-up rows.

  A row lookup (a gather of whole rows at a column of indices) reads, for edge `e`, the row named by the index read as a
  signed integer and clamped into the array; a scatter-add into zeros through a column of indices adds, into row `n`, the
  updates of the edges whose index, read signed, is `n`. Read at `(n, c)` the composition is `0` plus the sum over those
  edges of the entry `c` of the row each of them looked up.
-/
import proofs.«118445_j34368328302938_2_alg».proof.Proof.HostStretch
import proofs.«118445_j34368328302938_2_alg».proof.Proof.Spec
import proofs.«118445_j34368328302938_2_alg».proof.Proof.LibGatherRows
import proofs.«118445_j34368328302938_2_alg».proof.Proof.LibScatterRows
import Idealize.ShloMosaic.PureOps.Ideal.Laws
import Idealize.ShloMosaic.Lib.Pipeline.Value

set_option maxRecDepth 16384
open scoped BigOperators

noncomputable section

namespace Cert.KernelIdeal.HostValue

open Idealize.ShloMosaic Idealize.ShloMosaic.ValueIdx
open Cert.KernelIdeal

/-- The index position `[e, 0]` of result position `(e, c)`. -/
theorem rowIdx_ix2 {R D : ℕ} (e : Fin R) (c : Fin D) : LibGatherRows.rowIdx (ix2 e c) = ix2 e (0 : Fin 1) := by
  funext a
  match a with
  | ⟨0, _⟩ => rfl
  | ⟨1, _⟩ => rfl

/-- A zero-filled array reads `0` everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = 0 := by
  rw [broadcastInDim_apply (![] : Fin 0 → Fin t.rank) h _ i ix0 (fun ax => ax.elim0)]
  exact Ideal.ofBits_zero_f32

set_option maxHeartbeats 400000 in
/-- The row lookup read at `(e, c)`. -/
theorem gather5_apply (h : FVec Ideal S500000x5 .f32) (s : IVec S16500000x1 32) (e : Fin 16500000) (c : Fin 5) :
    Host.gather gather_S500000x5_S16500000x1_S16500000x5_1_0_n_n_0_1_15 h s (ix2 e c) = h (ix2 (Cert.Gcn.lookupRow s e) c) := by
  show Host.gather (LibGatherRows.rowDims 500000 5 16500000 Facts₀.gather_S500000x5_S16500000x1_S16500000x5_1_0_n_n_0_1_15_wf) h s (ix2 e c) = _
  refine (LibGatherRows.gather_rows_apply (by omega) _ h s (ix2 e c)).trans ?_
  refine congrArg h (congrArg₂ (ix2 (n0 := 500000) (n1 := 5)) (Fin.ext ?_) rfl)
  show min (s (LibGatherRows.rowIdx (ix2 e c))).toInt.toNat (500000 - 1) = min (s (ix2 e (0 : Fin 1))).toInt.toNat (500000 - 1)
  rw [rowIdx_ix2]

set_option maxHeartbeats 400000 in
/-- The scatter-add read at `(n, c)`. -/
theorem scatter5_apply (x : FVec Ideal S500000x5 .f32) (t : IVec S16500000x1 32) (u : FVec Ideal S16500000x5 .f32)
    (n : Fin 500000) (c : Fin 5) :
    Host.scatterAdd (F := Ideal) (φ := .f32) scatter_S500000x5_S16500000x1_S16500000x5_1_0_0_1 x t u (ix2 n c)
      = x (ix2 n c) + ∑ e ∈ Cert.Gcn.edgesInto t n, u (ix2 e c) := by
  show Ideal.hostScatterAdd (⟨[1], [0], [0], 1, Facts₀.scatter_S500000x5_S16500000x1_S16500000x5_1_0_0_1_wf⟩ :
      ScatterDims ⟨2, ![500000, 5]⟩ ⟨2, ![16500000, 1]⟩ ⟨2, ![16500000, 5]⟩) x t u (ix2 n c) = _
  exact LibScatterRows.scatterRows_apply 500000 16500000 5 _ x t u n c

set_option maxHeartbeats 400000 in
theorem lookupSum5_eq (h : FVec Ideal S500000x5 .f32) (s t : IVec S16500000x1 32) :
    lookupSum5 (F := Ideal) h s t = Cert.Gcn.gatherSum (f := 5) h s t := by
  funext i
  obtain ⟨n, c, rfl⟩ : ∃ (n : Fin 500000) (c : Fin 5), i = ix2 n c := ⟨i 0, i 1, eq_ix2 i⟩
  show Host.scatterAdd (F := Ideal) (φ := .f32) scatter_S500000x5_S16500000x1_S16500000x5_1_0_0_1
      (broadcastInDim S500000x5 ![] Gen.bcast_S_S500000x5 (constant (F := Ideal) S_ .f32 0x00000000#32)) t
      (Host.gather gather_S500000x5_S16500000x1_S16500000x5_1_0_n_n_0_1_15 h s) (ix2 n c)
    = 0 + ∑ e ∈ Cert.Gcn.edgesInto t n, h (ix2 (Cert.Gcn.lookupRow s e) c)
  rw [scatter5_apply, zeros_apply]
  exact congrArg (0 + ·) (Finset.sum_congr rfl fun e _ => gather5_apply h s e c)

set_option maxHeartbeats 400000 in
/-- The row lookup read at `(e, c)`. -/
theorem gather8_apply (h : FVec Ideal S500000x8 .f32) (s : IVec S16500000x1 32) (e : Fin 16500000) (c : Fin 8) :
    Host.gather gather_S500000x8_S16500000x1_S16500000x8_1_0_n_n_0_1_18 h s (ix2 e c) = h (ix2 (Cert.Gcn.lookupRow s e) c) := by
  show Host.gather (LibGatherRows.rowDims 500000 8 16500000 Facts₀.gather_S500000x8_S16500000x1_S16500000x8_1_0_n_n_0_1_18_wf) h s (ix2 e c) = _
  refine (LibGatherRows.gather_rows_apply (by omega) _ h s (ix2 e c)).trans ?_
  refine congrArg h (congrArg₂ (ix2 (n0 := 500000) (n1 := 8)) (Fin.ext ?_) rfl)
  show min (s (LibGatherRows.rowIdx (ix2 e c))).toInt.toNat (500000 - 1) = min (s (ix2 e (0 : Fin 1))).toInt.toNat (500000 - 1)
  rw [rowIdx_ix2]

set_option maxHeartbeats 400000 in
/-- The scatter-add read at `(n, c)`. -/
theorem scatter8_apply (x : FVec Ideal S500000x8 .f32) (t : IVec S16500000x1 32) (u : FVec Ideal S16500000x8 .f32)
    (n : Fin 500000) (c : Fin 8) :
    Host.scatterAdd (F := Ideal) (φ := .f32) scatter_S500000x8_S16500000x1_S16500000x8_1_0_0_1 x t u (ix2 n c)
      = x (ix2 n c) + ∑ e ∈ Cert.Gcn.edgesInto t n, u (ix2 e c) := by
  show Ideal.hostScatterAdd (⟨[1], [0], [0], 1, Facts₀.scatter_S500000x8_S16500000x1_S16500000x8_1_0_0_1_wf⟩ :
      ScatterDims ⟨2, ![500000, 8]⟩ ⟨2, ![16500000, 1]⟩ ⟨2, ![16500000, 8]⟩) x t u (ix2 n c) = _
  exact LibScatterRows.scatterRows_apply 500000 16500000 8 _ x t u n c

set_option maxHeartbeats 400000 in
theorem lookupSum8_eq (h : FVec Ideal S500000x8 .f32) (s t : IVec S16500000x1 32) :
    lookupSum8 (F := Ideal) h s t = Cert.Gcn.gatherSum (f := 8) h s t := by
  funext i
  obtain ⟨n, c, rfl⟩ : ∃ (n : Fin 500000) (c : Fin 8), i = ix2 n c := ⟨i 0, i 1, eq_ix2 i⟩
  show Host.scatterAdd (F := Ideal) (φ := .f32) scatter_S500000x8_S16500000x1_S16500000x8_1_0_0_1
      (broadcastInDim S500000x8 ![] Gen.bcast_S_S500000x8 (constant (F := Ideal) S_ .f32 0x00000000#32)) t
      (Host.gather gather_S500000x8_S16500000x1_S16500000x8_1_0_n_n_0_1_18 h s) (ix2 n c)
    = 0 + ∑ e ∈ Cert.Gcn.edgesInto t n, h (ix2 (Cert.Gcn.lookupRow s e) c)
  rw [scatter8_apply, zeros_apply]
  exact congrArg (0 + ·) (Finset.sum_congr rfl fun e _ => gather8_apply h s e c)

end Cert.KernelIdeal.HostValue

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Region0.lean ====
/-
  The first dense stage, tile by tile.

  The first region walks the 500 000 rows of the feature array in 100 tiles of 5000 rows. For each tile it multiplies the
  tile's rows by the 5 × 5 matrix and then scales every row by that row's own factor. Because the stage acts on each row
  by itself, what a tile's body stores is the same function, stated for 5000 rows, of the tile's rows; the tile of the
  output sits at the same rows as the tiles of the inputs; and the 100 tiles cover the output array. So after the region
  the output array holds the stage of the whole input arrays, whatever those arrays were when the region was entered.
-/
import proofs.«118445_j34368328302938_2_alg».proof.Proof.Gen.KernelIdeal.Frame
import proofs.«118445_j34368328302938_2_alg».proof.Proof.Spec
import proofs.«118445_j34368328302938_2_alg».proof.Proof.LibPlainDot
import proofs.«118445_j34368328302938_2_alg».proof.Proof.LibColumn
import Idealize.ShloMosaic.Lib.Pipeline.Value
import Idealize.ShloMosaic.Lib.ValueLayout

noncomputable section

open Idealize.ShloMosaic Idealize.ShloMosaic.TcCoe Idealize.ShloMosaic.ValueIdx Idealize.SL.Sem
open Idealize.ShloMosaic.Pipeline (Dat)
open scoped BigOperators

namespace Cert.KernelIdeal.RegionValue

open Cert.KernelIdeal Cert.KernelIdeal.Gen

/-! ## The arithmetic of one tile -/

/-- The printed contraction record is the plain one: rows of the left operand against columns of the right. -/
theorem dot0_eq : dot_S5000x5_S5x5_S5000x5_1_0_0_1_n_n = DotDims.plain 5000 5 5 := rfl

/-- What the body stores for a tile of 5000 rows, entry by entry: the tile's rows through the 5 × 5 matrix, each row
    then multiplied by its own factor. A change of float format is the identity on the extended reals, the accumulator is
    zero, the cast of the factor column to its own shape changes nothing, and the column is repeated along the five
    output columns. -/
theorem pay0_apply (x : Vec Ideal S5000x5 .f32) (w : Vec Ideal S5x5 .f32) (d : Vec Ideal S5000x1 .f32) (p : Fin 5000) (q : Fin 5) :
    k0_pay1 (F := Ideal) x w d (ix2 p q) = Cert.Gcn.stage0 (n := 5000) x d w (ix2 p q) := by
  unfold k0_pay1 Cert.Gcn.stage0
  refine congr (congrArg HMul.hMul ?_) ?_
  · rw [dot0_eq]
    exact (Cert.LibPlainDot.matmul_plain 5000 5 5 none _ _ (ix2 p q)).trans (Finset.sum_congr rfl fun k _ => rfl)
  · exact (Cert.LibColumn.broadcastTo_a1_ab_apply _ broadcasts_S5000x1_S5000x5 p q).trans
      (congrFun (shapeCast_self d shapeCasts_S5000x1_S5000x1) (ix2 p 0))

/-- The stage acts row by row: if a tile's rows are rows `o + p` of the whole arrays, the stage of the tile at row `p`
    is the stage of the whole arrays at row `o + p`. -/
theorem stage0_rows (x : Cert.Gcn.Mat 500000 5) (d : Cert.Gcn.Mat 500000 1) (w : Cert.Gcn.Mat 5 5)
    (xb : Cert.Gcn.Mat 5000 5) (db : Cert.Gcn.Mat 5000 1) (o : ℕ) (ho : ∀ p : Fin 5000, o + p.val < 500000)
    (hx : ∀ (p : Fin 5000) (k : Fin 5), xb (ix2 p k) = x (ix2 ⟨o + p.val, ho p⟩ k))
    (hd : ∀ p : Fin 5000, db (ix2 p 0) = d (ix2 ⟨o + p.val, ho p⟩ 0)) (p : Fin 5000) (q : Fin 5) :
    Cert.Gcn.stage0 xb db w (ix2 p q) = Cert.Gcn.stage0 x d w (ix2 ⟨o + p.val, ho p⟩ q) := by
  show (∑ k : Fin 5, xb (ix2 p k) * w (ix2 k q)) * db (ix2 p 0)
    = (∑ k : Fin 5, x (ix2 ⟨o + p.val, ho p⟩ k) * w (ix2 k q)) * d (ix2 ⟨o + p.val, ho p⟩ 0)
  rw [hd p]
  exact congrArg (· * d (ix2 ⟨o + p.val, ho p⟩ 0)) (Finset.sum_congr rfl fun k _ => by rw [hx p k])

/-! ## From tiles to the array -/

section
variable (V : (c : Dev nD) → (b : Ref sig .tc) → Buf (Elt Ideal) ((c : Thread nD τ).loc b))

theorem zeros0 : (![0, 0] : Fin 2 → Nat) = fun _ => 0 := funext fun a => by fin_cases a <;> rfl

/-- The printed index maps, decided once over the grid: at point `t` the row-tiled windows (the features, the factor
    column, the output) are at block `t` of their first axis and block 0 of their second; the matrix is always at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's tile at point `t` holds rows `5000 t … 5000 t + 4999` of the feature array. -/
theorem iblk0_0_apply (c : Dev nD) (t : Fin cfg0.N) (y : S5000x5.Idx) (i : S500000x5.Idx)
    (h0 : (i 0).val = 5000 * t.val + (y 0).val) (h1 : (i 1).val = (y 1).val) :
    (iblk0 V c 0 t : Vec Ideal S5000x5 .f32) y = (V c (Pipeline.arrRef spec0 0) : S500000x5.Idx → EReal) i := by
  obtain ⟨e0, e1, -⟩ := idx_facts0 t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 5 + 1 * (y 1).val = (i 1).val; rw [e1, h1]; omega

/-- The factor window's tile at point `t` holds rows `5000 t … 5000 t + 4999` of the factor column. -/
theorem iblk0_1_apply (c : Dev nD) (t : Fin cfg0.N) (y : S5000x1.Idx) (i : S500000x1.Idx)
    (h0 : (i 0).val = 5000 * t.val + (y 0).val) (h1 : (i 1).val = (y 1).val) :
    (iblk0 V c 1 t : Vec Ideal S5000x1 .f32) y = (V c (Pipeline.arrRef spec0 1) : S500000x1.Idx → EReal) i := by
  obtain ⟨-, -, e0, e1, -⟩ := idx_facts0 t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 1 + 1 * (y 1).val = (i 1).val; rw [e1, h1]; omega

/-- The matrix window's tile is the whole matrix at every point. -/
theorem iblk0_2_eq (c : Dev nD) (t : Fin cfg0.N) :
    (iblk0 V c 2 t : Vec Ideal S5x5 .f32) = (V c (Pipeline.arrRef spec0 2) : S5x5.Idx → EReal) := by
  obtain ⟨-, -, -, -, e0, e1, -⟩ := idx_facts0 t
  unfold iblk0
  funext y
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 5 + 1 * (y 0).val = (y 0).val; rw [e0]; omega
  | ⟨1, _⟩ => show win0_2.index t (1 : Fin 2) * 5 + 1 * (y 1).val = (y 1).val; rw [e1]; omega

/-- The first stage of the whole arrays as the region finds them. -/
abbrev G0 (c : Dev nD) : S500000x5.Idx → EReal :=
  Cert.Gcn.stage0 (V c (Pipeline.arrRef spec0 0) : S500000x5.Idx → EReal) (V c (Pipeline.arrRef spec0 1) : S500000x1.Idx → EReal)
    (V c (Pipeline.arrRef spec0 2) : S5x5.Idx → EReal)

/-- What point `t` writes back is tile `t` of the first stage of the whole arrays: the body's one store covers its
    staging buffer, its loads read the three tiles whole, and the output's tile sits at the same rows as the input tiles. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero zeros0]
  simp only [View.ld_unit_zero (S := S5000x5) zeros0, View.ld_unit_zero (S := S5x5) zeros0, View.ld_unit_zero (S := S5000x1) zeros0]
  obtain ⟨-, -, -, -, -, -, e0, e1⟩ := idx_facts0 t
  have hN : cfg0.N = 100 := N_0
  have ht : t.val < 100 := hN ▸ t.isLt
  funext j
  have hj0 : (j 0).val < 5000 := (j 0).isLt
  have hj1 : (j 1).val < 5 := (j 1).isLt
  have ho : ∀ p : Fin 5000, 5000 * t.val + p.val < 500000 := fun p => by have := p.isLt; omega
  have ej : (cfg0.win 3).xinj (grid0.coords t) j = (ix2 (⟨(j 0).val, hj0⟩ : Fin 5000) (⟨(j 1).val, hj1⟩ : Fin 5) : S5000x5.Idx) :=
    funext fun a => Fin.ext (by match a with | ⟨0, _⟩ => rfl | ⟨1, _⟩ => rfl)
  have ei : ((cfg0.win 3).blk t).view.emb j
      = (ix2 (⟨5000 * t.val + (j 0).val, ho ⟨(j 0).val, hj0⟩⟩ : Fin 500000) (⟨(j 1).val, hj1⟩ : Fin 5) : S500000x5.Idx) :=
    funext fun a => Fin.ext (by
      match a with
      | ⟨0, _⟩ => show win0_3.index t (0 : Fin 2) * 5000 + 1 * (j 0).val = 5000 * t.val + (j 0).val; rw [e0]; omega
      | ⟨1, _⟩ => show win0_3.index t (1 : Fin 2) * 5 + 1 * (j 1).val = (j 1).val; rw [e1]; omega)
  rw [View.read_apply]
  show k0_pay1 (F := Ideal) (iblk0 V c 0 t) (iblk0 V c 2 t) (iblk0 V c 1 t) ((cfg0.win 3).xinj (grid0.coords t) j)
    = G0 V c (((cfg0.win 3).blk t).view.emb j)
  rw [ej, ei, iblk0_2_eq V c t, pay0_apply]
  exact stage0_rows _ _ _ _ _ (5000 * t.val) ho
    (fun p k => iblk0_0_apply V c t (ix2 p k) (ix2 ⟨5000 * t.val + p.val, ho p⟩ k) rfl rfl)
    (fun p => iblk0_1_apply V c t (ix2 p 0) (ix2 ⟨5000 * t.val + p.val, ho p⟩ 0) rfl rfl) _ _

/-- An index of the output array is in point `t`'s tile iff each coordinate is in the tile's range on its axis. -/
theorem mem_blk0 (t : Fin cfg0.N) (i : S500000x5.Idx) :
    i ∈ ((cfg0.win 3).blk t).view.set ↔ ∀ a : Fin 2, win0_3.index t a * S5000x5.size a ≤ (i a).val
      ∧ (i a).val < win0_3.index t a * S5000x5.size a + S5000x5.size a := by
  show i ∈ ((View.whole main_v16).slice (win0_3.rect t)).set ↔ _
  rw [View.set_slice_whole, Rect.mem_set_unit]
  exact Iff.rfl

/-- Row `r` of the output is written by point `r / 5000`: the tiles cover the array. -/
theorem cover0 (i : S500000x5.Idx) : ∃ t : Fin cfg0.N, (cfg0.win 3).flush t = true ∧ i ∈ ((cfg0.win 3).blk t).view.set := by
  have hi0 : (i 0).val < 500000 := (i 0).isLt
  have hi1 : (i 1).val < 5 := (i 1).isLt
  have hN : cfg0.N = 100 := N_0
  refine ⟨⟨(i 0).val / 5000, by rw [hN]; omega⟩, flush0_3 _, ?_⟩
  obtain ⟨-, -, -, -, -, -, e0, e1⟩ := idx_facts0 ⟨(i 0).val / 5000, by rw [hN]; omega⟩
  rw [mem_blk0]
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 5 ≤ (i 1).val ∧ (i 1).val < win0_3.index _ (1 : Fin 2) * 5 + 5
    rw [e1]; omega

/-- THE VALUE OF REGION 0: after its hundred points the output array holds the first stage of the arrays the region was
    entered with — the features, the factor column and the 5 × 5 matrix. -/
theorem region0_value (c : Dev nD) :
    (dat0 (F := Ideal) V c).arrAt 3 cfg0.N
      = Cert.Gcn.stage0 (V c (Pipeline.arrRef spec0 0) : S500000x5.Idx → EReal) (V c (Pipeline.arrRef spec0 1) : S500000x1.Idx → EReal)
          (V c (Pipeline.arrRef spec0 2) : S5x5.Idx → EReal) :=
  (dat0 (F := Ideal) V c).arrAt_eq_of_cover 3 (G0 V c) (fun t _ => flushed0_eq V c t) cover0

end

end Cert.KernelIdeal.RegionValue

end
-- ==== Proof.Region1.lean ====
/-
  The second dense stage, tile by tile.

  The second region walks the 500 000 rows of the summed first-layer messages in 100 tiles of 5000 rows. For each row it
  scales the summed messages by the row's factor, adds the bias, cuts the result at zero, multiplies the cut row by the
  5 × 8 matrix and scales the product by the row's factor again. Because the stage acts on each row by itself, what a
  tile's body stores is the same function, stated for 5000 rows, of the tile's rows; the tile of the output sits at the
  same rows as the tiles of the inputs; and the 100 tiles cover the output array. So after the region the output array
  holds the stage of the whole input arrays, whatever those arrays were when the region was entered.
-/
import proofs.«118445_j34368328302938_2_alg».proof.Proof.Gen.KernelIdeal.Frame
import proofs.«118445_j34368328302938_2_alg».proof.Proof.Spec
import proofs.«118445_j34368328302938_2_alg».proof.Proof.LibPlainDot
import proofs.«118445_j34368328302938_2_alg».proof.Proof.LibColumn
import Idealize.ShloMosaic.Lib.Pipeline.Value
import Idealize.ShloMosaic.Lib.ValueLayout

noncomputable section

open Idealize.ShloMosaic Idealize.ShloMosaic.TcCoe Idealize.ShloMosaic.ValueIdx Idealize.SL.Sem
open Idealize.ShloMosaic.Pipeline (Dat)
open scoped BigOperators

namespace Cert.KernelIdeal.RegionValue

open Cert.KernelIdeal Cert.KernelIdeal.Gen

/-! ## The arithmetic of one tile -/

/-- The printed contraction record is the plain one: rows of the left operand against columns of the right. -/
theorem dot1_eq : dot_S5000x5_S5x8_S5000x8_1_0_0_1_n_n = DotDims.plain 5000 5 8 := rfl

/-- What the body stores for a tile of 5000 rows, entry by entry: each row of summed messages is scaled by the row's
    factor, the bias row is added, the result is cut at zero, the cut rows go through the 5 × 8 matrix, and every row is
    scaled by its factor once more. The casts of an array to its own shape change nothing, the factor column is repeated
    along the columns and the bias row along the rows, the zero word is the number zero, and a change of float format is
    the identity on the extended reals. -/
theorem pay1_apply (d : Vec Ideal S5000x1 .f32) (a : Vec Ideal S5000x5 .f32) (b : Vec Ideal S1x5 .f32) (w : Vec Ideal S5x8 .f32)
    (p : Fin 5000) (q : Fin 8) :
    k1_pay1 (F := Ideal) d a b w (ix2 p q) = Cert.Gcn.stage1 (n := 5000) a d b w (ix2 p q) := by
  unfold k1_pay1 Cert.Gcn.stage1
  refine congr (congrArg HMul.hMul ?_) ?_
  · rw [dot1_eq]
    refine (Cert.LibPlainDot.matmul_plain 5000 5 8 none _ _ (ix2 p q)).trans (Finset.sum_congr rfl fun k _ => ?_)
    refine congrArg (· * w (ix2 k q)) ?_
    show max (broadcastTo S5000x5 (shapeCast S5000x1 d shapeCasts_S5000x1_S5000x1) broadcasts_S5000x1_S5000x5 (ix2 p k)
          * shapeCast S5000x5 a shapeCasts_S5000x5_S5000x5 (ix2 p k)
        + broadcastTo S5000x5 (shapeCast S1x5 b shapeCasts_S1x5_S1x5) broadcasts_S1x5_S5000x5 (ix2 p k))
        (Ideal.ofBits .f32 0x00000000#32)
      = max (d (ix2 p 0) * a (ix2 p k) + b (ix2 0 k)) 0
    rw [Cert.LibColumn.broadcastTo_a1_ab_apply, broadcastTo_1b_ab_apply, shapeCast_self, shapeCast_self, shapeCast_self,
      Ideal.ofBits_zero_f32]
  · exact (Cert.LibColumn.broadcastTo_a1_ab_apply _ broadcasts_S5000x1_S5000x8 p q).trans
      (congrFun (shapeCast_self d shapeCasts_S5000x1_S5000x1) (ix2 p 0))

/-- The stage acts row by row: if a tile's rows are rows `o + p` of the whole arrays, the stage of the tile at row `p`
    is the stage of the whole arrays at row `o + p`. -/
theorem stage1_rows (a : Cert.Gcn.Mat 500000 5) (d : Cert.Gcn.Mat 500000 1) (b : Cert.Gcn.Mat 1 5) (w : Cert.Gcn.Mat 5 8)
    (ab : Cert.Gcn.Mat 5000 5) (db : Cert.Gcn.Mat 5000 1) (o : ℕ) (ho : ∀ p : Fin 5000, o + p.val < 500000)
    (ha : ∀ (p : Fin 5000) (k : Fin 5), ab (ix2 p k) = a (ix2 ⟨o + p.val, ho p⟩ k))
    (hd : ∀ p : Fin 5000, db (ix2 p 0) = d (ix2 ⟨o + p.val, ho p⟩ 0)) (p : Fin 5000) (q : Fin 8) :
    Cert.Gcn.stage1 ab db b w (ix2 p q) = Cert.Gcn.stage1 a d b w (ix2 ⟨o + p.val, ho p⟩ q) := by
  show (∑ k : Fin 5, max (db (ix2 p 0) * ab (ix2 p k) + b (ix2 0 k)) 0 * w (ix2 k q)) * db (ix2 p 0)
    = (∑ k : Fin 5, max (d (ix2 ⟨o + p.val, ho p⟩ 0) * a (ix2 ⟨o + p.val, ho p⟩ k) + b (ix2 0 k)) 0 * w (ix2 k q))
      * d (ix2 ⟨o + p.val, ho p⟩ 0)
  rw [hd p]
  exact congrArg (· * d (ix2 ⟨o + p.val, ho p⟩ 0)) (Finset.sum_congr rfl fun k _ => by rw [ha p k])

/-! ## From tiles to the array -/

section
variable (V : (c : Dev nD) → (b : Ref sig .tc) → Buf (Elt Ideal) ((c : Thread nD τ).loc b))

theorem zeros1 : (![0, 0] : Fin 2 → Nat) = fun _ => 0 := funext fun a => by fin_cases a <;> rfl

/-- The printed index maps, decided once over the grid: at point `t` the row-tiled windows (the summed messages, the
    factor column, the output) are at block `t` of their first axis and block 0 of their second; the bias row and the
    matrix are always at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The message window's tile at point `t` holds rows `5000 t … 5000 t + 4999` of the summed messages. -/
theorem iblk1_0_apply (c : Dev nD) (t : Fin cfg1.N) (y : S5000x5.Idx) (i : S500000x5.Idx)
    (h0 : (i 0).val = 5000 * t.val + (y 0).val) (h1 : (i 1).val = (y 1).val) :
    (iblk1 V c 0 t : Vec Ideal S5000x5 .f32) y = (V c (Pipeline.arrRef spec1 0) : S500000x5.Idx → EReal) i := by
  obtain ⟨e0, e1, -⟩ := idx_facts1 t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 5 + 1 * (y 1).val = (i 1).val; rw [e1, h1]; omega

/-- The factor window's tile at point `t` holds rows `5000 t … 5000 t + 4999` of the factor column. -/
theorem iblk1_1_apply (c : Dev nD) (t : Fin cfg1.N) (y : S5000x1.Idx) (i : S500000x1.Idx)
    (h0 : (i 0).val = 5000 * t.val + (y 0).val) (h1 : (i 1).val = (y 1).val) :
    (iblk1 V c 1 t : Vec Ideal S5000x1 .f32) y = (V c (Pipeline.arrRef spec1 1) : S500000x1.Idx → EReal) i := by
  obtain ⟨-, -, e0, e1, -⟩ := idx_facts1 t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 1 + 1 * (y 1).val = (i 1).val; rw [e1, h1]; omega

/-- The bias window's tile is the whole bias row at every point. -/
theorem iblk1_2_eq (c : Dev nD) (t : Fin cfg1.N) :
    (iblk1 V c 2 t : Vec Ideal S1x5 .f32) = (V c (Pipeline.arrRef spec1 2) : S1x5.Idx → EReal) := by
  obtain ⟨-, -, -, -, e0, e1, -⟩ := idx_facts1 t
  unfold iblk1
  funext y
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 1 + 1 * (y 0).val = (y 0).val; rw [e0]; omega
  | ⟨1, _⟩ => show win1_2.index t (1 : Fin 2) * 5 + 1 * (y 1).val = (y 1).val; rw [e1]; omega

/-- The matrix window's tile is the whole matrix at every point. -/
theorem iblk1_3_eq (c : Dev nD) (t : Fin cfg1.N) :
    (iblk1 V c 3 t : Vec Ideal S5x8 .f32) = (V c (Pipeline.arrRef spec1 3) : S5x8.Idx → EReal) := by
  obtain ⟨-, -, -, -, -, -, e0, e1, -⟩ := idx_facts1 t
  unfold iblk1
  funext y
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 2) * 5 + 1 * (y 0).val = (y 0).val; rw [e0]; omega
  | ⟨1, _⟩ => show win1_3.index t (1 : Fin 2) * 8 + 1 * (y 1).val = (y 1).val; rw [e1]; omega

/-- The second stage of the whole arrays as the region finds them. -/
abbrev G1 (c : Dev nD) : S500000x8.Idx → EReal :=
  Cert.Gcn.stage1 (V c (Pipeline.arrRef spec1 0) : S500000x5.Idx → EReal) (V c (Pipeline.arrRef spec1 1) : S500000x1.Idx → EReal)
    (V c (Pipeline.arrRef spec1 2) : S1x5.Idx → EReal) (V c (Pipeline.arrRef spec1 3) : S5x8.Idx → EReal)

/-- What point `t` writes back is tile `t` of the second stage of the whole arrays: the body's one store covers its
    staging buffer, its loads read the four tiles whole, and the output's tile sits at the same rows as the input tiles. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero zeros1]
  simp only [View.ld_unit_zero (S := S5000x5) zeros1, View.ld_unit_zero (S := S5000x1) zeros1,
    View.ld_unit_zero (S := S1x5) zeros1, View.ld_unit_zero (S := S5x8) zeros1]
  obtain ⟨-, -, -, -, -, -, -, -, e0, e1⟩ := idx_facts1 t
  have hN : cfg1.N = 100 := N_1
  have ht : t.val < 100 := hN ▸ t.isLt
  funext j
  have hj0 : (j 0).val < 5000 := (j 0).isLt
  have hj1 : (j 1).val < 8 := (j 1).isLt
  have ho : ∀ p : Fin 5000, 5000 * t.val + p.val < 500000 := fun p => by have := p.isLt; omega
  have ej : (cfg1.win 4).xinj (grid1.coords t) j = (ix2 (⟨(j 0).val, hj0⟩ : Fin 5000) (⟨(j 1).val, hj1⟩ : Fin 8) : S5000x8.Idx) :=
    funext fun a => Fin.ext (by match a with | ⟨0, _⟩ => rfl | ⟨1, _⟩ => rfl)
  have ei : ((cfg1.win 4).blk t).view.emb j
      = (ix2 (⟨5000 * t.val + (j 0).val, ho ⟨(j 0).val, hj0⟩⟩ : Fin 500000) (⟨(j 1).val, hj1⟩ : Fin 8) : S500000x8.Idx) :=
    funext fun a => Fin.ext (by
      match a with
      | ⟨0, _⟩ => show win1_4.index t (0 : Fin 2) * 5000 + 1 * (j 0).val = 5000 * t.val + (j 0).val; rw [e0]; omega
      | ⟨1, _⟩ => show win1_4.index t (1 : Fin 2) * 8 + 1 * (j 1).val = (j 1).val; rw [e1]; omega)
  rw [View.read_apply]
  show k1_pay1 (F := Ideal) (iblk1 V c 1 t) (iblk1 V c 0 t) (iblk1 V c 2 t) (iblk1 V c 3 t) ((cfg1.win 4).xinj (grid1.coords t) j)
    = G1 V c (((cfg1.win 4).blk t).view.emb j)
  rw [ej, ei, iblk1_2_eq V c t, iblk1_3_eq V c t, pay1_apply]
  exact stage1_rows _ _ _ _ _ _ (5000 * t.val) ho
    (fun p k => iblk1_0_apply V c t (ix2 p k) (ix2 ⟨5000 * t.val + p.val, ho p⟩ k) rfl rfl)
    (fun p => iblk1_1_apply V c t (ix2 p 0) (ix2 ⟨5000 * t.val + p.val, ho p⟩ 0) rfl rfl) _ _

/-- An index of the output array is in point `t`'s tile iff each coordinate is in the tile's range on its axis. -/
theorem mem_blk1 (t : Fin cfg1.N) (i : S500000x8.Idx) :
    i ∈ ((cfg1.win 4).blk t).view.set ↔ ∀ a : Fin 2, win1_4.index t a * S5000x8.size a ≤ (i a).val
      ∧ (i a).val < win1_4.index t a * S5000x8.size a + S5000x8.size a := by
  show i ∈ ((View.whole main_v28).slice (win1_4.rect t)).set ↔ _
  rw [View.set_slice_whole, Rect.mem_set_unit]
  exact Iff.rfl

/-- Row `r` of the output is written by point `r / 5000`: the tiles cover the array. -/
theorem cover1 (i : S500000x8.Idx) : ∃ t : Fin cfg1.N, (cfg1.win 4).flush t = true ∧ i ∈ ((cfg1.win 4).blk t).view.set := by
  have hi0 : (i 0).val < 500000 := (i 0).isLt
  have hi1 : (i 1).val < 8 := (i 1).isLt
  have hN : cfg1.N = 100 := N_1
  refine ⟨⟨(i 0).val / 5000, by rw [hN]; omega⟩, flush1_4 _, ?_⟩
  obtain ⟨-, -, -, -, -, -, -, -, e0, e1⟩ := idx_facts1 ⟨(i 0).val / 5000, by rw [hN]; omega⟩
  rw [mem_blk1]
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 8 ≤ (i 1).val ∧ (i 1).val < win1_4.index _ (1 : Fin 2) * 8 + 8
    rw [e1]; omega

/-- THE VALUE OF REGION 1: after its hundred points the output array holds the second stage of the arrays the region was
    entered with — the summed messages, the factor column, the bias row and the 5 × 8 matrix. -/
theorem region1_value (c : Dev nD) :
    (dat1 (F := Ideal) V c).arrAt 4 cfg1.N
      = Cert.Gcn.stage1 (V c (Pipeline.arrRef spec1 0) : S500000x5.Idx → EReal) (V c (Pipeline.arrRef spec1 1) : S500000x1.Idx → EReal)
          (V c (Pipeline.arrRef spec1 2) : S1x5.Idx → EReal) (V c (Pipeline.arrRef spec1 3) : S5x8.Idx → EReal) :=
  (dat1 (F := Ideal) V c).arrAt_eq_of_cover 4 (G1 V c) (fun t _ => flushed1_eq V c t) cover1

end

end Cert.KernelIdeal.RegionValue

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.Region2.lean ====
/-
  The last dense stage, tile by tile.

  The third region walks the 500 000 rows of the summed second-layer messages in 100 tiles of 5000 rows. For each row it
  scales the summed messages by the row's factor and adds the bias — the row's eight logits —, takes the row's maximum,
  shifts the logits by it, and subtracts the logarithm of the sum of the exponentials of the shifted logits: the row's
  log-softmax. Because the stage acts on each row by itself, what a tile's body stores is the same function, stated for
  5000 rows, of the tile's rows; the tile of the output sits at the same rows as the tiles of the inputs; and the 100
  tiles cover the output array. So after the region the output array holds the stage of the whole input arrays, whatever
  those arrays were when the region was entered.
-/
import proofs.«118445_j34368328302938_2_alg».proof.Proof.Gen.KernelIdeal.Frame
import proofs.«118445_j34368328302938_2_alg».proof.Proof.Spec
import proofs.«118445_j34368328302938_2_alg».proof.Proof.LibColumn
import proofs.«118445_j34368328302938_2_alg».proof.Proof.LibRowReduce
import Idealize.ShloMosaic.Lib.Pipeline.Value
import Idealize.ShloMosaic.Lib.ValueLayout

noncomputable section

open Idealize.ShloMosaic Idealize.ShloMosaic.TcCoe Idealize.ShloMosaic.ValueIdx Idealize.SL.Sem
open Idealize.ShloMosaic.Pipeline (Dat)
open scoped BigOperators

namespace Cert.KernelIdeal.RegionValue

open Cert.KernelIdeal Cert.KernelIdeal.Gen

/-! ## The arithmetic of one tile -/

/-- The logits of a tile: each row of summed messages scaled by the row's factor, plus the bias row. -/
def tileLogits (d : Vec Ideal S5000x1 .f32) (a : Vec Ideal S5000x8 .f32) (b : Vec Ideal S1x8 .f32) : FVec Ideal S5000x8 .f32 :=
  addf (mulf (broadcastTo S5000x8 (shapeCast S5000x1 d shapeCasts_S5000x1_S5000x1) broadcasts_S5000x1_S5000x8)
      (shapeCast S5000x8 a shapeCasts_S5000x8_S5000x8))
    (broadcastTo S5000x8 (shapeCast S1x8 b shapeCasts_S1x8_S1x8) broadcasts_S1x8_S5000x8)

/-- Entry by entry: the casts of an array to its own shape change nothing, the factor column is repeated along the
    columns and the bias row along the rows. -/
theorem tileLogits_apply (d : Vec Ideal S5000x1 .f32) (a : Vec Ideal S5000x8 .f32) (b : Vec Ideal S1x8 .f32) (p : Fin 5000) (k : Fin 8) :
    tileLogits d a b (ix2 p k) = Cert.Gcn.logits a d b p k := by
  show broadcastTo S5000x8 (shapeCast S5000x1 d shapeCasts_S5000x1_S5000x1) broadcasts_S5000x1_S5000x8 (ix2 p k)
        * shapeCast S5000x8 a shapeCasts_S5000x8_S5000x8 (ix2 p k)
      + broadcastTo S5000x8 (shapeCast S1x8 b shapeCasts_S1x8_S1x8) broadcasts_S1x8_S5000x8 (ix2 p k)
    = d (ix2 p 0) * a (ix2 p k) + b (ix2 0 k)
  rw [Cert.LibColumn.broadcastTo_a1_ab_apply, broadcastTo_1b_ab_apply, shapeCast_self, shapeCast_self, shapeCast_self]

/-- The maximum of every row of a tile, as a column repeated along the eight columns. -/
def maxCol (z : FVec Ideal S5000x8 .f32) : FVec Ideal S5000x8 .f32 :=
  broadcastTo S5000x8 (shapeCast S5000x1
    (multiReduction .maximumf [1] S5000 z 0xFF800000#32 reduces_S5000x8_S5000 (.inl rfl) rfl) shapeCasts_S5000_S5000x1)
    broadcasts_S5000x1_S5000x8

/-- Entry by entry it is the row's maximum: the fold of `max` over the row from the word for `-∞`. -/
theorem maxCol_apply (z : FVec Ideal S5000x8 .f32) (p : Fin 5000) (q : Fin 8) :
    maxCol z (ix2 p q) = Cert.Gcn.rowMax (fun k => z (ix2 p k)) :=
  (Cert.LibColumn.broadcastTo_a1_ab_apply _ broadcasts_S5000x1_S5000x8 p q).trans
    ((Cert.LibColumn.shapeCast_a_a1_apply _ shapeCasts_S5000_S5000x1 p (0 : Fin 1)).trans
      (Cert.LibRowReduce.rowMax_apply z 0xFF800000#32 reduces_S5000x8_S5000 (.inl rfl) rfl p))

/-- The logarithm of the sum of the exponentials of every row of a tile, as a column repeated along the eight columns. -/
def logSumCol (y : FVec Ideal S5000x8 .f32) : FVec Ideal S5000x8 .f32 :=
  broadcastTo S5000x8 (log (shapeCast S5000x1
    (multiReduction .add [1] S5000 (exp y) 0x00000000#32 reduces_S5000x8_S5000 (.inl rfl) rfl) shapeCasts_S5000_S5000x1))
    broadcasts_S5000x1_S5000x8

/-- Entry by entry: the row's exponentials summed, then the logarithm. -/
theorem logSumCol_apply (y : FVec Ideal S5000x8 .f32) (p : Fin 5000) (q : Fin 8) :
    logSumCol y (ix2 p q) = Ideal.log (∑ k : Fin 8, Ideal.exp (y (ix2 p k))) :=
  (Cert.LibColumn.broadcastTo_a1_ab_apply _ broadcasts_S5000x1_S5000x8 p q).trans
    (congrArg Ideal.log ((Cert.LibColumn.shapeCast_a_a1_apply _ shapeCasts_S5000_S5000x1 p (0 : Fin 1)).trans
      (Cert.LibRowReduce.rowSum_apply (exp y) 0x00000000#32 reduces_S5000x8_S5000 (.inl rfl) rfl p)))

/-- The body's stored value, in these words: the logits shifted by their row maxima, minus the log of the row sums of the
    exponentials of the shifted logits. -/
theorem pay2_unfold (d : Vec Ideal S5000x1 .f32) (a : Vec Ideal S5000x8 .f32) (b : Vec Ideal S1x8 .f32) :
    k2_pay1 (F := Ideal) d a b
      = subf (subf (tileLogits d a b) (maxCol (tileLogits d a b)))
          (logSumCol (subf (tileLogits d a b) (maxCol (tileLogits d a b)))) := rfl

/-- What the body stores for a tile of 5000 rows, entry by entry: the log-softmax of the row's logits. -/
theorem pay2_apply (d : Vec Ideal S5000x1 .f32) (a : Vec Ideal S5000x8 .f32) (b : Vec Ideal S1x8 .f32) (p : Fin 5000) (q : Fin 8) :
    k2_pay1 (F := Ideal) d a b (ix2 p q) = Cert.Gcn.stage2 (n := 5000) a d b (ix2 p q) := by
  have hz : (fun k => tileLogits d a b (ix2 p k)) = Cert.Gcn.logits a d b p := funext fun k => tileLogits_apply d a b p k
  rw [pay2_unfold]
  show (tileLogits d a b (ix2 p q) - maxCol (tileLogits d a b) (ix2 p q))
      - logSumCol (subf (tileLogits d a b) (maxCol (tileLogits d a b))) (ix2 p q)
    = (Cert.Gcn.logits a d b p q - Cert.Gcn.rowMax (Cert.Gcn.logits a d b p))
      - Ideal.log (∑ k : Fin 8, Ideal.exp (Cert.Gcn.logits a d b p k - Cert.Gcn.rowMax (Cert.Gcn.logits a d b p)))
  rw [logSumCol_apply, maxCol_apply, hz, tileLogits_apply]
  refine congrArg (fun s => (Cert.Gcn.logits a d b p q - Cert.Gcn.rowMax (Cert.Gcn.logits a d b p)) - Ideal.log s)
    (Finset.sum_congr rfl fun k _ => ?_)
  show Ideal.exp (tileLogits d a b (ix2 p k) - maxCol (tileLogits d a b) (ix2 p k)) = _
  rw [maxCol_apply, hz, tileLogits_apply]

/-- The stage acts row by row: if a tile's rows are rows `o + p` of the whole arrays, the stage of the tile at row `p`
    is the stage of the whole arrays at row `o + p`. -/
theorem stage2_rows (a : Cert.Gcn.Mat 500000 8) (d : Cert.Gcn.Mat 500000 1) (b : Cert.Gcn.Mat 1 8)
    (ab : Cert.Gcn.Mat 5000 8) (db : Cert.Gcn.Mat 5000 1) (o : ℕ) (ho : ∀ p : Fin 5000, o + p.val < 500000)
    (ha : ∀ (p : Fin 5000) (k : Fin 8), ab (ix2 p k) = a (ix2 ⟨o + p.val, ho p⟩ k))
    (hd : ∀ p : Fin 5000, db (ix2 p 0) = d (ix2 ⟨o + p.val, ho p⟩ 0)) (p : Fin 5000) (q : Fin 8) :
    Cert.Gcn.stage2 ab db b (ix2 p q) = Cert.Gcn.stage2 a d b (ix2 ⟨o + p.val, ho p⟩ q) := by
  have hl : Cert.Gcn.logits ab db b p = Cert.Gcn.logits a d b ⟨o + p.val, ho p⟩ := funext fun k => by
    show db (ix2 p 0) * ab (ix2 p k) + b (ix2 0 k)
      = d (ix2 ⟨o + p.val, ho p⟩ 0) * a (ix2 ⟨o + p.val, ho p⟩ k) + b (ix2 0 k)
    rw [hd p, ha p k]
  show Cert.Gcn.logSoftmax (Cert.Gcn.logits ab db b p) q = Cert.Gcn.logSoftmax (Cert.Gcn.logits a d b ⟨o + p.val, ho p⟩) q
  rw [hl]

/-! ## From tiles to the array -/

section
variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided once over the grid: at point `t` the row-tiled windows (the summed messages, the
    factor column, the output) are at block `t` of their first axis and block 0 of their second; the bias row is always
    at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The message window's tile at point `t` holds rows `5000 t … 5000 t + 4999` of the summed messages. -/
theorem iblk2_0_apply (c : Dev nD) (t : Fin cfg2.N) (y : S5000x8.Idx) (i : S500000x8.Idx)
    (h0 : (i 0).val = 5000 * t.val + (y 0).val) (h1 : (i 1).val = (y 1).val) :
    (iblk2 V c 0 t : Vec Ideal S5000x8 .f32) y = (V c (Pipeline.arrRef spec2 0) : S500000x8.Idx → EReal) i := by
  obtain ⟨e0, e1, -⟩ := idx_facts2 t
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 8 + 1 * (y 1).val = (i 1).val; rw [e1, h1]; omega

/-- The factor window's tile at point `t` holds rows `5000 t … 5000 t + 4999` of the factor column. -/
theorem iblk2_1_apply (c : Dev nD) (t : Fin cfg2.N) (y : S5000x1.Idx) (i : S500000x1.Idx)
    (h0 : (i 0).val = 5000 * t.val + (y 0).val) (h1 : (i 1).val = (y 1).val) :
    (iblk2 V c 1 t : Vec Ideal S5000x1 .f32) y = (V c (Pipeline.arrRef spec2 1) : S500000x1.Idx → EReal) i := by
  obtain ⟨-, -, e0, e1, -⟩ := idx_facts2 t
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 5000 + 1 * (y 0).val = (i 0).val; rw [e0, h0]; omega
  | ⟨1, _⟩ => show win2_1.index t (1 : Fin 2) * 1 + 1 * (y 1).val = (i 1).val; rw [e1, h1]; omega

/-- The bias window's tile is the whole bias row at every point. -/
theorem iblk2_2_eq (c : Dev nD) (t : Fin cfg2.N) :
    (iblk2 V c 2 t : Vec Ideal S1x8 .f32) = (V c (Pipeline.arrRef spec2 2) : S1x8.Idx → EReal) := by
  obtain ⟨-, -, -, -, e0, e1, -⟩ := idx_facts2 t
  unfold iblk2
  funext y
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 1 + 1 * (y 0).val = (y 0).val; rw [e0]; omega
  | ⟨1, _⟩ => show win2_2.index t (1 : Fin 2) * 8 + 1 * (y 1).val = (y 1).val; rw [e1]; omega

/-- The last stage of the whole arrays as the region finds them. -/
abbrev G2 (c : Dev nD) : S500000x8.Idx → EReal :=
  Cert.Gcn.stage2 (V c (Pipeline.arrRef spec2 0) : S500000x8.Idx → EReal) (V c (Pipeline.arrRef spec2 1) : S500000x1.Idx → EReal)
    (V c (Pipeline.arrRef spec2 2) : S1x8.Idx → EReal)

/-- What point `t` writes back is tile `t` of the last stage of the whole arrays: the body's one store covers its
    staging buffer, its loads read the three tiles whole, and the output's tile sits at the same rows as the input tiles. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero zeros2]
  simp only [View.ld_unit_zero (S := S5000x8) zeros2, View.ld_unit_zero (S := S5000x1) zeros2,
    View.ld_unit_zero (S := S1x8) zeros2]
  obtain ⟨-, -, -, -, -, -, e0, e1⟩ := idx_facts2 t
  have hN : cfg2.N = 100 := N_2
  have ht : t.val < 100 := hN ▸ t.isLt
  funext j
  have hj0 : (j 0).val < 5000 := (j 0).isLt
  have hj1 : (j 1).val < 8 := (j 1).isLt
  have ho : ∀ p : Fin 5000, 5000 * t.val + p.val < 500000 := fun p => by have := p.isLt; omega
  have ej : (cfg2.win 3).xinj (grid2.coords t) j = (ix2 (⟨(j 0).val, hj0⟩ : Fin 5000) (⟨(j 1).val, hj1⟩ : Fin 8) : S5000x8.Idx) :=
    funext fun a => Fin.ext (by match a with | ⟨0, _⟩ => rfl | ⟨1, _⟩ => rfl)
  have ei : ((cfg2.win 3).blk t).view.emb j
      = (ix2 (⟨5000 * t.val + (j 0).val, ho ⟨(j 0).val, hj0⟩⟩ : Fin 500000) (⟨(j 1).val, hj1⟩ : Fin 8) : S500000x8.Idx) :=
    funext fun a => Fin.ext (by
      match a with
      | ⟨0, _⟩ => show win2_3.index t (0 : Fin 2) * 5000 + 1 * (j 0).val = 5000 * t.val + (j 0).val; rw [e0]; omega
      | ⟨1, _⟩ => show win2_3.index t (1 : Fin 2) * 8 + 1 * (j 1).val = (j 1).val; rw [e1]; omega)
  rw [View.read_apply]
  show k2_pay1 (F := Ideal) (iblk2 V c 1 t) (iblk2 V c 0 t) (iblk2 V c 2 t) ((cfg2.win 3).xinj (grid2.coords t) j)
    = G2 V c (((cfg2.win 3).blk t).view.emb j)
  rw [ej, ei, iblk2_2_eq V c t, pay2_apply]
  exact stage2_rows _ _ _ _ _ (5000 * t.val) ho
    (fun p k => iblk2_0_apply V c t (ix2 p k) (ix2 ⟨5000 * t.val + p.val, ho p⟩ k) rfl rfl)
    (fun p => iblk2_1_apply V c t (ix2 p 0) (ix2 ⟨5000 * t.val + p.val, ho p⟩ 0) rfl rfl) _ _

/-- An index of the output array is in point `t`'s tile iff each coordinate is in the tile's range on its axis. -/
theorem mem_blk2 (t : Fin cfg2.N) (i : S500000x8.Idx) :
    i ∈ ((cfg2.win 3).blk t).view.set ↔ ∀ a : Fin 2, win2_3.index t a * S5000x8.size a ≤ (i a).val
      ∧ (i a).val < win2_3.index t a * S5000x8.size a + S5000x8.size a := by
  show i ∈ ((View.whole main_v40).slice (win2_3.rect t)).set ↔ _
  rw [View.set_slice_whole, Rect.mem_set_unit]
  exact Iff.rfl

/-- Row `r` of the output is written by point `r / 5000`: the tiles cover the array. -/
theorem cover2 (i : S500000x8.Idx) : ∃ t : Fin cfg2.N, (cfg2.win 3).flush t = true ∧ i ∈ ((cfg2.win 3).blk t).view.set := by
  have hi0 : (i 0).val < 500000 := (i 0).isLt
  have hi1 : (i 1).val < 8 := (i 1).isLt
  have hN : cfg2.N = 100 := N_2
  refine ⟨⟨(i 0).val / 5000, by rw [hN]; omega⟩, flush2_3 _, ?_⟩
  obtain ⟨-, -, -, -, -, -, e0, e1⟩ := idx_facts2 ⟨(i 0).val / 5000, by rw [hN]; omega⟩
  rw [mem_blk2]
  intro a
  match a with
  | ⟨0, _⟩ =>
    show win2_3.index _ (0 : Fin 2) * 5000 ≤ (i 0).val ∧ (i 0).val < win2_3.index _ (0 : Fin 2) * 5000 + 5000
    rw [e0]; show (i 0).val / 5000 * 5000 ≤ (i 0).val ∧ (i 0).val < (i 0).val / 5000 * 5000 + 5000; omega
  | ⟨1, _⟩ =>
    show win2_3.index _ (1 : Fin 2) * 8 ≤ (i 1).val ∧ (i 1).val < win2_3.index _ (1 : Fin 2) * 8 + 8
    rw [e1]; omega

/-- THE VALUE OF REGION 2: after its hundred points the output array holds the last stage — the row-wise log-softmax of
    the logits — of the arrays the region was entered with: the summed messages, the factor column and the bias row. -/
theorem region2_value (c : Dev nD) :
    (dat2 (F := Ideal) V c).arrAt 3 cfg2.N
      = Cert.Gcn.stage2 (V c (Pipeline.arrRef spec2 0) : S500000x8.Idx → EReal) (V c (Pipeline.arrRef spec2 1) : S500000x1.Idx → EReal)
          (V c (Pipeline.arrRef spec2 2) : S1x8.Idx → EReal) :=
  (dat2 (F := Ideal) V c).arrAt_eq_of_cover 3 (G2 V c) (fun t _ => flushed2_eq V c t) cover2

end

end Cert.KernelIdeal.RegionValue

end
-- ==== Proof.KValue.lean ====
/-
  The idealized kernel's result is the per-node arrangement of the graph convolution.

  Region by region: region 0 turns the features and the factor column into the pre-scaled first transform; the host
  looks it up through the source column and sums it through the target column; region 1 scales the sums by the target's
  factor, adds the bias, cuts at zero, transforms and pre-scales again; the host looks up and sums again; region 2
  scales, adds the second bias and takes the row-wise log-softmax. Each region's output array is its stage of its input
  arrays, each host stretch's output is the lookup-and-sum, and the rest is carried through: composed, the result buffer
  holds `perNode` of the six arguments.
-/
import proofs.«118445_j34368328302938_2_alg».proof.Proof.HostBoundaries
import proofs.«118445_j34368328302938_2_alg».proof.Proof.GatherSum
import proofs.«118445_j34368328302938_2_alg».proof.Proof.Region0
import proofs.«118445_j34368328302938_2_alg».proof.Proof.Region1
import proofs.«118445_j34368328302938_2_alg».proof.Proof.Region2

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.HostValue

variable (m : (ℓ : Loc nD τ sig) → Buf (Elt Ideal) ℓ) (ρ : Dev nD → PrngReg)

/-- The six arguments and the values built from the edge list, by name. -/
abbrev xArg (c : Dev nD) : S500000x5.Idx → EReal := m ((c.tc : Thread nD τ).loc main_arg0)
abbrev eArg (c : Dev nD) : (⟨S2x16000000, .i32⟩ : BufTy).Contents (Elt Ideal) := m ((c.tc : Thread nD τ).loc main_arg1)
abbrev w1Arg (c : Dev nD) : S5x5.Idx → EReal := m ((c.tc : Thread nD τ).loc main_arg2)
abbrev b1Row (c : Dev nD) : S1x5.Idx → EReal :=
  shapeCast S1x5 (m ((c.tc : Thread nD τ).loc main_arg3) : (⟨S5, .f32⟩ : BufTy).Contents (Elt Ideal)) shapeCasts_S5_S1x5
abbrev w2Arg (c : Dev nD) : S5x8.Idx → EReal := m ((c.tc : Thread nD τ).loc main_arg4)
abbrev b2Row (c : Dev nD) : S1x8.Idx → EReal :=
  shapeCast S1x8 (m ((c.tc : Thread nD τ).loc main_arg5) : (⟨S8, .f32⟩ : BufTy).Contents (Elt Ideal)) shapeCasts_S8_S1x8
abbrev dCol (c : Dev nD) : S500000x1.Idx → EReal := dinvCol (F := Ideal) (eArg m c)
abbrev sCol (c : Dev nD) : Cert.Gcn.EdgeCol := srcCol (F := Ideal) (eArg m c)
abbrev tCol (c : Dev nD) : Cert.Gcn.EdgeCol := dstCol (F := Ideal) (eArg m c)

/-- Region 0's output: the pre-scaled first transform. -/
theorem out0 (c : Dev nD) : (W4 m ρ c (Proc.devRef .tc main_v16) : S500000x5.Idx → EReal)
    = Cert.Gcn.stage0 (xArg m c) (dCol m c) (w1Arg m c) := by
  rw [W4_v16, RegionValue.region0_value (V3 m ρ) c]
  have h0 : (V3 m ρ c (Pipeline.arrRef spec0 0) : S500000x5.Idx → EReal) = xArg m c := W3_arg0 m ρ c
  have h1 : (V3 m ρ c (Pipeline.arrRef spec0 1) : S500000x1.Idx → EReal) = dCol m c := W3_v15 m ρ c
  have h2 : (V3 m ρ c (Pipeline.arrRef spec0 2) : S5x5.Idx → EReal) = w1Arg m c := W3_arg2 m ρ c
  rw [h0, h1, h2]

/-- The source and target columns at region 1's entry. -/
theorem cols4 (c : Dev nD) :
    wrapCol (F := Ideal) (W4 m ρ c (Proc.devRef .tc main_v5)) = sCol m c
    ∧ asCol (F := Ideal) (W4 m ρ c (Proc.devRef .tc main_v6)) = tCol m c := by
  rw [W4_v5, W3_v5, W4_v6, W3_v6]
  exact ⟨rfl, rfl⟩

/-- Region 1's first input: the lookup-and-sum of region 0's output. -/
theorem in1 (c : Dev nD) : (W5 m ρ c (Proc.devRef .tc main_v26) : S500000x5.Idx → EReal)
    = Cert.Gcn.gatherSum (Cert.Gcn.stage0 (xArg m c) (dCol m c) (w1Arg m c)) (sCol m c) (tCol m c) := by
  rw [W5_v26, (cols4 m ρ c).1, (cols4 m ρ c).2, lookupSum5_eq, out0]

/-- The factor column is carried to every later boundary. -/
theorem d5 (c : Dev nD) : (W5 m ρ c (Proc.devRef .tc main_v15) : S500000x1.Idx → EReal) = dCol m c := by
  rw [(W5_keep m ρ c).1, W4_v15, W3_v15]

/-- Region 1's output: the pre-scaled second transform of the hidden rows. -/
theorem out1 (c : Dev nD) : (W6 m ρ c (Proc.devRef .tc main_v28) : S500000x8.Idx → EReal)
    = Cert.Gcn.stage1 (Cert.Gcn.gatherSum (Cert.Gcn.stage0 (xArg m c) (dCol m c) (w1Arg m c)) (sCol m c) (tCol m c))
        (dCol m c) (b1Row m c) (w2Arg m c) := by
  rw [W6_v28, RegionValue.region1_value (V5 m ρ) c]
  have h0 : (V5 m ρ c (Pipeline.arrRef spec1 0) : S500000x5.Idx → EReal) = _ := in1 m ρ c
  have h1 : (V5 m ρ c (Pipeline.arrRef spec1 1) : S500000x1.Idx → EReal) = dCol m c := d5 m ρ c
  have h2 : (V5 m ρ c (Pipeline.arrRef spec1 2) : S1x5.Idx → EReal) = b1Row m c := by
    show W5 m ρ c (Proc.devRef .tc main_v27) = _
    rw [W5_v27, W4_arg3, W3_arg3]
  have h3 : (V5 m ρ c (Pipeline.arrRef spec1 3) : S5x8.Idx → EReal) = w2Arg m c := by
    show W5 m ρ c (Proc.devRef .tc main_arg4) = _
    rw [(W5_keep m ρ c).2.2.2.1, W4_arg4, W3_arg4]
  rw [h0, h1, h2, h3]

/-- The source and target columns at region 2's entry. -/
theorem cols6 (c : Dev nD) :
    wrapCol (F := Ideal) (W6 m ρ c (Proc.devRef .tc main_v5)) = sCol m c
    ∧ asCol (F := Ideal) (W6 m ρ c (Proc.devRef .tc main_v6)) = tCol m c := by
  rw [W6_v5, (W5_keep m ρ c).2.1, W6_v6, (W5_keep m ρ c).2.2.1]
  exact cols4 m ρ c

/-- The kernel's result buffer at the end of the run. -/
theorem result (c : Dev nD) : (W8 m ρ c (Proc.devRef .tc main_v40) : S500000x8.Idx → EReal)
    = Cert.Gcn.perNode (xArg m c) (w1Arg m c) (b1Row m c) (w2Arg m c) (b2Row m c) (dCol m c) (sCol m c) (tCol m c) := by
  rw [W8_v40, RegionValue.region2_value (V7 m ρ) c]
  have h0 : (V7 m ρ c (Pipeline.arrRef spec2 0) : S500000x8.Idx → EReal)
      = Cert.Gcn.gatherSum (Cert.Gcn.stage1 (Cert.Gcn.gatherSum (Cert.Gcn.stage0 (xArg m c) (dCol m c) (w1Arg m c)) (sCol m c) (tCol m c))
          (dCol m c) (b1Row m c) (w2Arg m c)) (sCol m c) (tCol m c) := by
    show W7 m ρ c (Proc.devRef .tc main_v38) = _
    rw [W7_v38, (cols6 m ρ c).1, (cols6 m ρ c).2, lookupSum8_eq, out1]
  have h1 : (V7 m ρ c (Pipeline.arrRef spec2 1) : S500000x1.Idx → EReal) = dCol m c := by
    show W7 m ρ c (Proc.devRef .tc main_v15) = _
    rw [W7_v15, W6_v15, d5]
  have h2 : (V7 m ρ c (Pipeline.arrRef spec2 2) : S1x8.Idx → EReal) = b2Row m c := by
    show W7 m ρ c (Proc.devRef .tc main_v39) = _
    rw [W7_v39, W6_arg5, (W5_keep m ρ c).2.2.2.2, W4_arg5, W3_arg5]
  rw [h0, h1, h2]
  rfl

end Cert.KernelIdeal.KernelValue

end
-- ==== Proof.LibRunWindows.lean ====
/-
  A long straight line of host operations, taken window by window.

  A printed host program past sixty statements comes as consecutive windows. Each window is a list of operations;
  the whole line is their concatenation. What a fold over the whole line does to the buffers is then read off the
  windows one at a time:

  * folding the operations of `l₁ ++ l₂` over buffer contents is folding `l₁`, then `l₂` (`after_append`);
  * so a buffer that neither window writes is kept by the concatenation (`kept_append`);
  * a property of every operation (its buffers are the TensorCore's; it determines its result) holds of the
    concatenation when it holds of both windows (`forall_mem_append`, `forall_append`).
-/
import Idealize.ShloMosaic.Lib.StableHlo.Run

noncomputable section

namespace Idealize.ShloMosaic.StableHlo

variable {τ : Topo} {sig : RefSig} {Val : EltTy → Type}

/-- Folding over a concatenation: first the first list, then the second. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer kept by two windows, whatever the contents they start from, is kept by their concatenation. -/
theorem kept_append {l₁ l₂ : List (HloOp τ sig Val)} {b : DevRef τ sig}
    (h₁ : ∀ V : Valuation τ sig Val, after l₁ V b = V b) (h₂ : ∀ V : Valuation τ sig Val, after l₂ V b = V b)
    (V : Valuation τ sig Val) : after (l₁ ++ l₂) V b = V b := by
  rw [after_append, h₂, h₁]

/-- A property of every operation of two windows is one of every operation of their concatenation. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op := by
  intro op h
  rcases List.mem_append.mp h with h | h
  · exact h₁ op h
  · exact h₂ op h

/-- The same, for the conjunction over the list that the run's side condition is stated with. -/
theorem forall_append {p : HloOp τ sig Val → Prop} {l₁ l₂ : List (HloOp τ sig Val)}
    (h₁ : l₁.Forall p) (h₂ : l₂.Forall p) : (l₁ ++ l₂).Forall p :=
  List.forall_iff_forall_mem.mpr
    (forall_mem_append (List.forall_iff_forall_mem.mp h₁) (List.forall_iff_forall_mem.mp h₂))

end Idealize.ShloMosaic.StableHlo

end
-- ==== Proof.RefWindows.lean ====
/-
  The reference program's run, window by window.

  The reference's @main is a straight line of 98 host operations. Cut into five consecutive windows — the edge vectors,
  the degrees and the normalising factor; the per-edge weight; the first layer; the second layer; the log-softmax — the
  fold of the whole line over the launch contents is the fold of the windows one after the other. Each window's result is
  read back on its own, from the values the earlier windows left in the buffers it reads (which no later operation
  writes again), as the corresponding stage of the operation-by-operation reading. Hence the run: every weakly fair
  execution terminates with the result buffer at the last stage's value of the six arguments, the arguments unchanged.
-/
import proofs.«118445_j34368328302938_2_alg».proof.Proof.RefRead
import proofs.«118445_j34368328302938_2_alg».proof.Proof.LibRunWindows

set_option maxRecDepth 16384

noncomputable section

namespace Cert.ReferenceIdeal.Windows

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The five windows -/

/-- Operations 1–21: the edge vectors with the self-loops, the degrees, the normalising factor. -/
abbrev opsA : List (HloOp τ sig (Elt F)) :=
  [ nullary main_v0 (iotaInDim S500000 32 0),
    unary main_arg1 main_v1 ((extractStridedSlice S1x16000000 ![0, 0] · slices_S2x16000000_S1x16000000_0_0) : (⟨S2x16000000, .i32⟩ : BufTy).Contents (Elt F) → (⟨S1x16000000, .i32⟩ : BufTy).Contents (Elt F)),
    reshape main_v1 main_v2 rfl shapeCasts_S1x16000000_S16000000,
    binary main_v2 main_v0 main_v3 ((fun a b => concatenate S16500000 0 [⟨S16000000, a⟩, ⟨S500000, b⟩] concatenates_S16000000_S500000_S16500000_d0) : (⟨S16000000, .i32⟩ : BufTy).Contents (Elt F) → (⟨S500000, .i32⟩ : BufTy).Contents (Elt F) → (⟨S16500000, .i32⟩ : BufTy).Contents (Elt F)),
    unary main_arg1 main_v4 ((extractStridedSlice S1x16000000 ![1, 0] · slices_S2x16000000_S1x16000000_1_0) : (⟨S2x16000000, .i32⟩ : BufTy).Contents (Elt F) → (⟨S1x16000000, .i32⟩ : BufTy).Contents (Elt F)),
    reshape main_v4 main_v5 rfl shapeCasts_S1x16000000_S16000000,
    binary main_v5 main_v0 main_v6 ((fun a b => concatenate S16500000 0 [⟨S16000000, a⟩, ⟨S500000, b⟩] concatenates_S16000000_S500000_S16500000_d0) : (⟨S16000000, .i32⟩ : BufTy).Contents (Elt F) → (⟨S500000, .i32⟩ : BufTy).Contents (Elt F) → (⟨S16500000, .i32⟩ : BufTy).Contents (Elt F)),
    nullary main_cst (constant S_ .f32 0x3F800000#32),
    unary main_cst main_v7 (broadcastInDim S16500000 ![] bcast_S_S16500000 : (⟨S_, .f32⟩ : BufTy).Contents (Elt F) → (⟨S16500000, .f32⟩ : BufTy).Contents (Elt F)),
    nullary main_cst_0 (constant S_ .f32 0x00000000#32),
    unary main_cst_0 main_v8 (broadcastInDim S500000 ![] bcast_S_S500000 : (⟨S_, .f32⟩ : BufTy).Contents (Elt F) → (⟨S500000, .f32⟩ : BufTy).Contents (Elt F)),
    unary main_v6 main_v9 (broadcastInDim S16500000x1 ![0] bcast_S16500000_S16500000x1_0 : (⟨S16500000, .i32⟩ : BufTy).Contents (Elt F) → (⟨S16500000x1, .i32⟩ : BufTy).Contents (Elt F)),
    ternary main_v8 main_v9 main_v7 main_v10 ((fun x i u => Host.scatterAdd scatter_S500000_S16500000x1_S16500000_n_0_0_1 x i u) : (⟨S500000, .f32⟩ : BufTy).Contents (Elt F) → (⟨S16500000x1, .i32⟩ : BufTy).Contents (Elt F) → (⟨S16500000, .f32⟩ : BufTy).Contents (Elt F) → (⟨S500000, .f32⟩ : BufTy).Contents (Elt F)),
    nullary main_cst_1 (constant S_ .f32 0x00000000#32),
    unary main_cst_1 main_v11 (broadcastInDim S500000 ![] bcast_S_S500000 : (⟨S_, .f32⟩ : BufTy).Contents (Elt F) → (⟨S500000, .f32⟩ : BufTy).Contents (Elt F)),
    binary main_v10 main_v11 main_v12 (cmpf .ogt : (⟨S500000, .f32⟩ : BufTy).Contents (Elt F) → (⟨S500000, .f32⟩ : BufTy).Contents (Elt F) → (⟨S500000, .i1⟩ : BufTy).Contents (Elt F)),
    unary main_v10 main_v13 (Host.rsqrt : (⟨S500000, .f32⟩ : BufTy).Contents (Elt F) → (⟨S500000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S500000, .f32⟩) main_call0_v1) (broadcastInDim S500000 ![] bcast_S_S500000),
    TRef.ternary (TRef.of (T := ⟨S500000, .i1⟩) main_v12) (TRef.of (T := ⟨S500000, .f32⟩) main_v13) (TRef.of (T := ⟨S500000, .f32⟩) main_call0_v1) (TRef.of (T := ⟨S500000, .f32⟩) main_v14) select ]

/-- Operations 22–40: the two lookups of the factor and the per-edge weight. -/
abbrev opsB : List (HloOp τ sig (Elt F)) :=
  [ nullary main_c (constantI S_ 32 0#32),
    unary main_c main_v15 (broadcastInDim S16500000 ![] bcast_S_S16500000 : (⟨S_, .i32⟩ : BufTy).Contents (Elt F) → (⟨S16500000, .i32⟩ : BufTy).Contents (Elt F)),
    binary main_v3 main_v15 main_v16 (cmpi .slt : (⟨S16500000, .i32⟩ : BufTy).Contents (Elt F) → (⟨S16500000, .i32⟩ : BufTy).Contents (Elt F) → (⟨S16500000, .i1⟩ : BufTy).Contents (Elt F)),
    nullary main_c_3 (constantI S_ 32 500000#32),
    unary main_c_3 main_v17 (broadcastInDim S16500000 ![] bcast_S_S16500000 : (⟨S_, .i32⟩ : BufTy).Contents (Elt F) → (⟨S16500000, .i32⟩ : BufTy).Contents (Elt F)),
    binary main_v3 main_v17 main_v18 (addi : (⟨S16500000, .i32⟩ : BufTy).Contents (Elt F) → (⟨S16500000, .i32⟩ : BufTy).Contents (Elt F) → (⟨S16500000, .i32⟩ : BufTy).Contents (Elt F)),
    ternary main_v16 main_v18 main_v3 main_v19 (select : (⟨S16500000, .i1⟩ : BufTy).Contents (Elt F) → (⟨S16500000, .i32⟩ : BufTy).Contents (Elt F) → (⟨S16500000, .i32⟩ : BufTy).Contents (Elt F) → (⟨S16500000, .i32⟩ : BufTy).Contents (Elt F)),
    unary main_v19 main_v20 (broadcastInDim S16500000x1 ![0] bcast_S16500000_S16500000x1_0 : (⟨S16500000, .i32⟩ : BufTy).Contents (Elt F) → (⟨S16500000x1, .i32⟩ : BufTy).Contents (Elt F)),
    binary main_v14 main_v20 main_v21 ((fun x i => Host.gather gather_S500000_S16500000x1_S16500000_n_0_n_n_0_1_1 x i) : (⟨S500000, .f32⟩ : BufTy).Contents (Elt F) → (⟨S16500000x1, .i32⟩ : BufTy).Contents (Elt F) → (⟨S16500000, .f32⟩ : BufTy).Contents (Elt F)),
    nullary main_c_4 (constantI S_ 32 0#32),
    unary main_c_4 main_v22 (broadcastInDim S16500000 ![] bcast_S_S16500000 : (⟨S_, .i32⟩ : BufTy).Contents (Elt F) → (⟨S16500000, .i32⟩ : BufTy).Contents (Elt F)),
    binary main_v6 main_v22 main_v23 (cmpi .slt : (⟨S16500000, .i32⟩ : BufTy).Contents (Elt F) → (⟨S16500000, .i32⟩ : BufTy).Contents (Elt F) → (⟨S16500000, .i1⟩ : BufTy).Contents (Elt F)),
    nullary main_c_5 (constantI S_ 32 500000#32),
    unary main_c_5 main_v24 (broadcastInDim S16500000 ![] bcast_S_S16500000 : (⟨S_, .i32⟩ : BufTy).Contents (Elt F) → (⟨S16500000, .i32⟩ : BufTy).Contents (Elt F)),
    binary main_v6 main_v24 main_v25 (addi : (⟨S16500000, .i32⟩ : BufTy).Contents (Elt F) → (⟨S16500000, .i32⟩ : BufTy).Contents (Elt F) → (⟨S16500000, .i32⟩ : BufTy).Contents (Elt F)),
    ternary main_v23 main_v25 main_v6 main_v26 (select : (⟨S16500000, .i1⟩ : BufTy).Contents (Elt F) → (⟨S16500000, .i32⟩ : BufTy).Contents (Elt F) → (⟨S16500000, .i32⟩ : BufTy).Contents (Elt F) → (⟨S16500000, .i32⟩ : BufTy).Contents (Elt F)),
    unary main_v26 main_v27 (broadcastInDim S16500000x1 ![0] bcast_S16500000_S16500000x1_0 : (⟨S16500000, .i32⟩ : BufTy).Contents (Elt F) → (⟨S16500000x1, .i32⟩ : BufTy).Contents (Elt F)),
    binary main_v14 main_v27 main_v28 ((fun x i => Host.gather gather_S500000_S16500000x1_S16500000_n_0_n_n_0_1_1 x i) : (⟨S500000, .f32⟩ : BufTy).Contents (Elt F) → (⟨S16500000x1, .i32⟩ : BufTy).Contents (Elt F) → (⟨S16500000, .f32⟩ : BufTy).Contents (Elt F)),
    binary main_v21 main_v28 main_v29 (mulf : (⟨S16500000, .f32⟩ : BufTy).Contents (Elt F) → (⟨S16500000, .f32⟩ : BufTy).Contents (Elt F) → (⟨S16500000, .f32⟩ : BufTy).Contents (Elt F)) ]

/-- Operations 41–63: the first layer (transform, weighted lookup-and-sum, bias, cut at zero). -/
abbrev opsC : List (HloOp τ sig (Elt F)) :=
  [ binary main_arg0 main_arg2 main_v30 ((fun l r => Host.dotGeneral dot_S500000x5_S5x5_S500000x5_1_0_0_1_n_n none l r) : (⟨S500000x5, .f32⟩ : BufTy).Contents (Elt F) → (⟨S5x5, .f32⟩ : BufTy).Contents (Elt F) → (⟨S500000x5, .f32⟩ : BufTy).Contents (Elt F)),
    nullary main_c_6 (constantI S_ 32 0#32),
    unary main_c_6 main_v31 (broadcastInDim S16500000 ![] bcast_S_S16500000 : (⟨S_, .i32⟩ : BufTy).Contents (Elt F) → (⟨S16500000, .i32⟩ : BufTy).Contents (Elt F)),
    binary main_v3 main_v31 main_v32 (cmpi .slt : (⟨S16500000, .i32⟩ : BufTy).Contents (Elt F) → (⟨S16500000, .i32⟩ : BufTy).Contents (Elt F) → (⟨S16500000, .i1⟩ : BufTy).Contents (Elt F)),
    nullary main_c_7 (constantI S_ 32 500000#32),
    unary main_c_7 main_v33 (broadcastInDim S16500000 ![] bcast_S_S16500000 : (⟨S_, .i32⟩ : BufTy).Contents (Elt F) → (⟨S16500000, .i32⟩ : BufTy).Contents (Elt F)),
    binary main_v3 main_v33 main_v34 (addi : (⟨S16500000, .i32⟩ : BufTy).Contents (Elt F) → (⟨S16500000, .i32⟩ : BufTy).Contents (Elt F) → (⟨S16500000, .i32⟩ : BufTy).Contents (Elt F)),
    ternary main_v32 main_v34 main_v3 main_v35 (select : (⟨S16500000, .i1⟩ : BufTy).Contents (Elt F) → (⟨S16500000, .i32⟩ : BufTy).Contents (Elt F) → (⟨S16500000, .i32⟩ : BufTy).Contents (Elt F) → (⟨S16500000, .i32⟩ : BufTy).Contents (Elt F)),
    unary main_v35 main_v36 (broadcastInDim S16500000x1 ![0] bcast_S16500000_S16500000x1_0 : (⟨S16500000, .i32⟩ : BufTy).Contents (Elt F) → (⟨S16500000x1, .i32⟩ : BufTy).Contents (Elt F)),
    binary main_v30 main_v36 main_v37 ((fun x i => Host.gather gather_S500000x5_S16500000x1_S16500000x5_1_0_n_n_0_1_15 x i) : (⟨S500000x5, .f32⟩ : BufTy).Contents (Elt F) → (⟨S16500000x1, .i32⟩ : BufTy).Contents (Elt F) → (⟨S16500000x5, .f32⟩ : BufTy).Contents (Elt F)),
    unary main_v29 main_v38 (broadcastInDim S16500000x1 ![0] bcast_S16500000_S16500000x1_0 : (⟨S16500000, .f32⟩ : BufTy).Contents (Elt F) → (⟨S16500000x1, .f32⟩ : BufTy).Contents (Elt F)),
    unary main_v38 main_v39 (broadcastInDim S16500000x5 ![0, 1] bcast_S16500000x1_S16500000x5_0_1 : (⟨S16500000x1, .f32⟩ : BufTy).Contents (Elt F) → (⟨S16500000x5, .f32⟩ : BufTy).Contents (Elt F)),
    binary main_v37 main_v39 main_v40 (mulf : (⟨S16500000x5, .f32⟩ : BufTy).Contents (Elt F) → (⟨S16500000x5, .f32⟩ : BufTy).Contents (Elt F) → (⟨S16500000x5, .f32⟩ : BufTy).Contents (Elt F)),
    nullary main_cst_8 (constant S_ .f32 0x00000000#32),
    unary main_cst_8 main_v41 (broadcastInDim S500000x5 ![] bcast_S_S500000x5 : (⟨S_, .f32⟩ : BufTy).Contents (Elt F) → (⟨S500000x5, .f32⟩ : BufTy).Contents (Elt F)),
    unary main_v6 main_v42 (broadcastInDim S16500000x1 ![0] bcast_S16500000_S16500000x1_0 : (⟨S16500000, .i32⟩ : BufTy).Contents (Elt F) → (⟨S16500000x1, .i32⟩ : BufTy).Contents (Elt F)),
    ternary main_v41 main_v42 main_v40 main_v43 ((fun x i u => Host.scatterAdd scatter_S500000x5_S16500000x1_S16500000x5_1_0_0_1 x i u) : (⟨S500000x5, .f32⟩ : BufTy).Contents (Elt F) → (⟨S16500000x1, .i32⟩ : BufTy).Contents (Elt F) → (⟨S16500000x5, .f32⟩ : BufTy).Contents (Elt F) → (⟨S500000x5, .f32⟩ : BufTy).Contents (Elt F)),
    unary main_arg3 main_v44 (broadcastInDim S1x5 ![1] bcast_S5_S1x5_1 : (⟨S5, .f32⟩ : BufTy).Contents (Elt F) → (⟨S1x5, .f32⟩ : BufTy).Contents (Elt F)),
    unary main_v44 main_v45 (broadcastInDim S500000x5 ![0, 1] bcast_S1x5_S500000x5_0_1 : (⟨S1x5, .f32⟩ : BufTy).Contents (Elt F) → (⟨S500000x5, .f32⟩ : BufTy).Contents (Elt F)),
    binary main_v43 main_v45 main_v46 (addf : (⟨S500000x5, .f32⟩ : BufTy).Contents (Elt F) → (⟨S500000x5, .f32⟩ : BufTy).Contents (Elt F) → (⟨S500000x5, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x5, .f32⟩) main_call1_v0) (broadcastInDim S500000x5 ![] bcast_S_S500000x5),
    TRef.binary (TRef.of (T := ⟨S500000x5, .f32⟩) main_v46) (TRef.of (T := ⟨S500000x5, .f32⟩) main_call1_v0) (TRef.of (T := ⟨S500000x5, .f32⟩) main_v47) maximumf ]

/-- Operations 64–83: the second layer (transform, weighted lookup-and-sum, bias). -/
abbrev opsD : List (HloOp τ sig (Elt F)) :=
  [ binary main_v47 main_arg4 main_v48 ((fun l r => Host.dotGeneral dot_S500000x5_S5x8_S500000x8_1_0_0_1_n_n none l r) : (⟨S500000x5, .f32⟩ : BufTy).Contents (Elt F) → (⟨S5x8, .f32⟩ : BufTy).Contents (Elt F) → (⟨S500000x8, .f32⟩ : BufTy).Contents (Elt F)),
    nullary main_c_9 (constantI S_ 32 0#32),
    unary main_c_9 main_v49 (broadcastInDim S16500000 ![] bcast_S_S16500000 : (⟨S_, .i32⟩ : BufTy).Contents (Elt F) → (⟨S16500000, .i32⟩ : BufTy).Contents (Elt F)),
    binary main_v3 main_v49 main_v50 (cmpi .slt : (⟨S16500000, .i32⟩ : BufTy).Contents (Elt F) → (⟨S16500000, .i32⟩ : BufTy).Contents (Elt F) → (⟨S16500000, .i1⟩ : BufTy).Contents (Elt F)),
    nullary main_c_10 (constantI S_ 32 500000#32),
    unary main_c_10 main_v51 (broadcastInDim S16500000 ![] bcast_S_S16500000 : (⟨S_, .i32⟩ : BufTy).Contents (Elt F) → (⟨S16500000, .i32⟩ : BufTy).Contents (Elt F)),
    binary main_v3 main_v51 main_v52 (addi : (⟨S16500000, .i32⟩ : BufTy).Contents (Elt F) → (⟨S16500000, .i32⟩ : BufTy).Contents (Elt F) → (⟨S16500000, .i32⟩ : BufTy).Contents (Elt F)),
    ternary main_v50 main_v52 main_v3 main_v53 (select : (⟨S16500000, .i1⟩ : BufTy).Contents (Elt F) → (⟨S16500000, .i32⟩ : BufTy).Contents (Elt F) → (⟨S16500000, .i32⟩ : BufTy).Contents (Elt F) → (⟨S16500000, .i32⟩ : BufTy).Contents (Elt F)),
    unary main_v53 main_v54 (broadcastInDim S16500000x1 ![0] bcast_S16500000_S16500000x1_0 : (⟨S16500000, .i32⟩ : BufTy).Contents (Elt F) → (⟨S16500000x1, .i32⟩ : BufTy).Contents (Elt F)),
    binary main_v48 main_v54 main_v55 ((fun x i => Host.gather gather_S500000x8_S16500000x1_S16500000x8_1_0_n_n_0_1_18 x i) : (⟨S500000x8, .f32⟩ : BufTy).Contents (Elt F) → (⟨S16500000x1, .i32⟩ : BufTy).Contents (Elt F) → (⟨S16500000x8, .f32⟩ : BufTy).Contents (Elt F)),
    unary main_v29 main_v56 (broadcastInDim S16500000x1 ![0] bcast_S16500000_S16500000x1_0 : (⟨S16500000, .f32⟩ : BufTy).Contents (Elt F) → (⟨S16500000x1, .f32⟩ : BufTy).Contents (Elt F)),
    unary main_v56 main_v57 (broadcastInDim S16500000x8 ![0, 1] bcast_S16500000x1_S16500000x8_0_1 : (⟨S16500000x1, .f32⟩ : BufTy).Contents (Elt F) → (⟨S16500000x8, .f32⟩ : BufTy).Contents (Elt F)),
    binary main_v55 main_v57 main_v58 (mulf : (⟨S16500000x8, .f32⟩ : BufTy).Contents (Elt F) → (⟨S16500000x8, .f32⟩ : BufTy).Contents (Elt F) → (⟨S16500000x8, .f32⟩ : BufTy).Contents (Elt F)),
    nullary main_cst_11 (constant S_ .f32 0x00000000#32),
    unary main_cst_11 main_v59 (broadcastInDim S500000x8 ![] bcast_S_S500000x8 : (⟨S_, .f32⟩ : BufTy).Contents (Elt F) → (⟨S500000x8, .f32⟩ : BufTy).Contents (Elt F)),
    unary main_v6 main_v60 (broadcastInDim S16500000x1 ![0] bcast_S16500000_S16500000x1_0 : (⟨S16500000, .i32⟩ : BufTy).Contents (Elt F) → (⟨S16500000x1, .i32⟩ : BufTy).Contents (Elt F)),
    ternary main_v59 main_v60 main_v58 main_v61 ((fun x i u => Host.scatterAdd scatter_S500000x8_S16500000x1_S16500000x8_1_0_0_1 x i u) : (⟨S500000x8, .f32⟩ : BufTy).Contents (Elt F) → (⟨S16500000x1, .i32⟩ : BufTy).Contents (Elt F) → (⟨S16500000x8, .f32⟩ : BufTy).Contents (Elt F) → (⟨S500000x8, .f32⟩ : BufTy).Contents (Elt F)),
    unary main_arg5 main_v62 (broadcastInDim S1x8 ![1] bcast_S8_S1x8_1 : (⟨S8, .f32⟩ : BufTy).Contents (Elt F) → (⟨S1x8, .f32⟩ : BufTy).Contents (Elt F)),
    unary main_v62 main_v63 (broadcastInDim S500000x8 ![0, 1] bcast_S1x8_S500000x8_0_1 : (⟨S1x8, .f32⟩ : BufTy).Contents (Elt F) → (⟨S500000x8, .f32⟩ : BufTy).Contents (Elt F)),
    binary main_v61 main_v63 main_v64 (addf : (⟨S500000x8, .f32⟩ : BufTy).Contents (Elt F) → (⟨S500000x8, .f32⟩ : BufTy).Contents (Elt F) → (⟨S500000x8, .f32⟩ : BufTy).Contents (Elt F)) ]

/-- Operations 84–98: the row-wise log-softmax. -/
abbrev opsE : List (HloOp τ sig (Elt F)) :=
  [ TRef.nullary (TRef.of (T := ⟨S_, .f32⟩) main_call2_cst) (constant S_ .f32 0xFF800000#32),
    TRef.binary (TRef.of (T := ⟨S500000x8, .f32⟩) main_v64) (TRef.of (T := ⟨S_, .f32⟩) main_call2_cst) (TRef.of (T := ⟨S500000, .f32⟩) main_call2_v0) (fun x v => Host.reduce FloatOps.maximumf x v reducesTo_S500000x8_S500000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S500000, .f32⟩) main_call2_v1) (broadcastInDim S500000 ![] bcast_S_S500000),
    TRef.binary (TRef.of (T := ⟨S500000, .f32⟩) main_call2_v1) (TRef.of (T := ⟨S500000, .f32⟩) main_call2_v0) (TRef.of (T := ⟨S500000, .f32⟩) main_call2_v2) maximumf,
    TRef.unary (TRef.of (T := ⟨S500000, .f32⟩) main_call2_v2) (TRef.of (T := ⟨S500000x1, .f32⟩) main_call2_v3) (broadcastInDim S500000x1 ![0] bcast_S500000_S500000x1_0),
    TRef.unary (TRef.of (T := ⟨S500000x1, .f32⟩) main_call2_v3) (TRef.of (T := ⟨S500000x8, .f32⟩) main_call2_v4) (broadcastInDim S500000x8 ![0, 1] bcast_S500000x1_S500000x8_0_1),
    TRef.binary (TRef.of (T := ⟨S500000x8, .f32⟩) main_v64) (TRef.of (T := ⟨S500000x8, .f32⟩) main_call2_v4) (TRef.of (T := ⟨S500000x8, .f32⟩) main_call2_v5) subf,
    TRef.unary (TRef.of (T := ⟨S500000x8, .f32⟩) main_call2_v5) (TRef.of (T := ⟨S500000x8, .f32⟩) main_call2_v6) Host.exp,
    TRef.nullary (TRef.of (T := ⟨S_, .f32⟩) main_call2_cst_1) (constant S_ .f32 0x00000000#32),
    TRef.binary (TRef.of (T := ⟨S500000x8, .f32⟩) main_call2_v6) (TRef.of (T := ⟨S_, .f32⟩) main_call2_cst_1) (TRef.of (T := ⟨S500000, .f32⟩) main_call2_v7) (fun x v => Host.reduceAdd x v reducesTo_S500000x8_S500000_d1 h_S_),
    TRef.unary (TRef.of (T := ⟨S500000, .f32⟩) main_call2_v7) (TRef.of (T := ⟨S500000x1, .f32⟩) main_call2_v8) (broadcastInDim S500000x1 ![0] bcast_S500000_S500000x1_0),
    TRef.unary (TRef.of (T := ⟨S500000x1, .f32⟩) main_call2_v8) (TRef.of (T := ⟨S500000x1, .f32⟩) main_call2_v9) Host.log,
    TRef.unary (TRef.of (T := ⟨S500000x1, .f32⟩) main_call2_v9) (TRef.of (T := ⟨S500000x8, .f32⟩) main_call2_v10) (broadcastInDim S500000x8 ![0, 1] bcast_S500000x1_S500000x8_0_1),
    TRef.binary (TRef.of (T := ⟨S500000x8, .f32⟩) main_call2_v5) (TRef.of (T := ⟨S500000x8, .f32⟩) main_call2_v10) (TRef.of (T := ⟨S500000x8, .f32⟩) main_v65) subf ]

/-- The line is its windows, in order. -/
theorem ops_split : (ops : List (HloOp τ sig (Elt F))) = opsA ++ (opsB ++ (opsC ++ (opsD ++ opsE))) := rfl

/-! ## Window 1 -/

set_option maxHeartbeats 4000000 in
theorem A_v3 (V : Valuation τ sig (Elt F)) : after (opsA (F := F)) V (Proc.devRef .tc main_v3) = val_main_v3 (F := F) (V (Proc.devRef .tc main_arg1)) := by
  after_results <;> rfl

set_option maxHeartbeats 4000000 in
theorem A_v6 (V : Valuation τ sig (Elt F)) : after (opsA (F := F)) V (Proc.devRef .tc main_v6) = val_main_v6 (F := F) (V (Proc.devRef .tc main_arg1)) := by
  after_results <;> rfl

set_option maxHeartbeats 8000000 in
theorem A_v14 (V : Valuation τ sig (Elt F)) : after (opsA (F := F)) V (Proc.devRef .tc main_v14) = val_main_v14 (F := F) (V (Proc.devRef .tc main_arg1)) := by
  after_results <;> rfl

set_option maxHeartbeats 4000000 in
theorem A_keep_arg0 (V : Valuation τ sig (Elt F)) : after (opsA (F := F)) V (Proc.devRef .tc main_arg0) = V (Proc.devRef .tc main_arg0) := by
  after_results <;> rfl

set_option maxHeartbeats 4000000 in
theorem A_keep_arg1 (V : Valuation τ sig (Elt F)) : after (opsA (F := F)) V (Proc.devRef .tc main_arg1) = V (Proc.devRef .tc main_arg1) := by
  after_results <;> rfl

set_option maxHeartbeats 4000000 in
theorem A_keep_arg2 (V : Valuation τ sig (Elt F)) : after (opsA (F := F)) V (Proc.devRef .tc main_arg2) = V (Proc.devRef .tc main_arg2) := by
  after_results <;> rfl

set_option maxHeartbeats 4000000 in
theorem A_keep_arg3 (V : Valuation τ sig (Elt F)) : after (opsA (F := F)) V (Proc.devRef .tc main_arg3) = V (Proc.devRef .tc main_arg3) := by
  after_results <;> rfl

set_option maxHeartbeats 4000000 in
theorem A_keep_arg4 (V : Valuation τ sig (Elt F)) : after (opsA (F := F)) V (Proc.devRef .tc main_arg4) = V (Proc.devRef .tc main_arg4) := by
  after_results <;> rfl

set_option maxHeartbeats 4000000 in
theorem A_keep_arg5 (V : Valuation τ sig (Elt F)) : after (opsA (F := F)) V (Proc.devRef .tc main_arg5) = V (Proc.devRef .tc main_arg5) := by
  after_results <;> rfl

/-! ## Window 2 -/

set_option maxHeartbeats 8000000 in
theorem B_v29 (V : Valuation τ sig (Elt F)) (x1 : (⟨S2x16000000, .i32⟩ : BufTy).Contents (Elt F))
    (h3 : V (Proc.devRef .tc main_v3) = val_main_v3 (F := F) x1) (h6 : V (Proc.devRef .tc main_v6) = val_main_v6 (F := F) x1)
    (h14 : V (Proc.devRef .tc main_v14) = val_main_v14 (F := F) x1) :
    after (opsB (F := F)) V (Proc.devRef .tc main_v29) = val_main_v29 (F := F) x1 := by
  after_results
  rw [h3, h6, h14]
  rfl

set_option maxHeartbeats 4000000 in
theorem B_keep_v3 (V : Valuation τ sig (Elt F)) : after (opsB (F := F)) V (Proc.devRef .tc main_v3) = V (Proc.devRef .tc main_v3) := by
  after_results <;> rfl

set_option maxHeartbeats 4000000 in
theorem B_keep_v6 (V : Valuation τ sig (Elt F)) : after (opsB (F := F)) V (Proc.devRef .tc main_v6) = V (Proc.devRef .tc main_v6) := by
  after_results <;> rfl

set_option maxHeartbeats 4000000 in
theorem B_keep_arg0 (V : Valuation τ sig (Elt F)) : after (opsB (F := F)) V (Proc.devRef .tc main_arg0) = V (Proc.devRef .tc main_arg0) := by
  after_results <;> rfl

set_option maxHeartbeats 4000000 in
theorem B_keep_arg2 (V : Valuation τ sig (Elt F)) : after (opsB (F := F)) V (Proc.devRef .tc main_arg2) = V (Proc.devRef .tc main_arg2) := by
  after_results <;> rfl

set_option maxHeartbeats 4000000 in
theorem B_keep_arg3 (V : Valuation τ sig (Elt F)) : after (opsB (F := F)) V (Proc.devRef .tc main_arg3) = V (Proc.devRef .tc main_arg3) := by
  after_results <;> rfl

set_option maxHeartbeats 4000000 in
theorem B_keep_arg4 (V : Valuation τ sig (Elt F)) : after (opsB (F := F)) V (Proc.devRef .tc main_arg4) = V (Proc.devRef .tc main_arg4) := by
  after_results <;> rfl

set_option maxHeartbeats 4000000 in
theorem B_keep_arg5 (V : Valuation τ sig (Elt F)) : after (opsB (F := F)) V (Proc.devRef .tc main_arg5) = V (Proc.devRef .tc main_arg5) := by
  after_results <;> rfl

/-! ## Window 3 -/

set_option maxHeartbeats 8000000 in
theorem C_v47 (V : Valuation τ sig (Elt F)) (x1 : (⟨S2x16000000, .i32⟩ : BufTy).Contents (Elt F))
    (h3 : V (Proc.devRef .tc main_v3) = val_main_v3 (F := F) x1) (h6 : V (Proc.devRef .tc main_v6) = val_main_v6 (F := F) x1)
    (h29 : V (Proc.devRef .tc main_v29) = val_main_v29 (F := F) x1) :
    after (opsC (F := F)) V (Proc.devRef .tc main_v47) = val_main_v47 (F := F) (V (Proc.devRef .tc main_arg0)) x1 (V (Proc.devRef .tc main_arg2)) (V (Proc.devRef .tc main_arg3)) := by
  after_results
  rw [h3, h6, h29]
  rfl

set_option maxHeartbeats 4000000 in
theorem C_keep_v3 (V : Valuation τ sig (Elt F)) : after (opsC (F := F)) V (Proc.devRef .tc main_v3) = V (Proc.devRef .tc main_v3) := by
  after_results <;> rfl

set_option maxHeartbeats 4000000 in
theorem C_keep_v6 (V : Valuation τ sig (Elt F)) : after (opsC (F := F)) V (Proc.devRef .tc main_v6) = V (Proc.devRef .tc main_v6) := by
  after_results <;> rfl

set_option maxHeartbeats 4000000 in
theorem C_keep_v29 (V : Valuation τ sig (Elt F)) : after (opsC (F := F)) V (Proc.devRef .tc main_v29) = V (Proc.devRef .tc main_v29) := by
  after_results <;> rfl

set_option maxHeartbeats 4000000 in
theorem C_keep_arg4 (V : Valuation τ sig (Elt F)) : after (opsC (F := F)) V (Proc.devRef .tc main_arg4) = V (Proc.devRef .tc main_arg4) := by
  after_results <;> rfl

set_option maxHeartbeats 4000000 in
theorem C_keep_arg5 (V : Valuation τ sig (Elt F)) : after (opsC (F := F)) V (Proc.devRef .tc main_arg5) = V (Proc.devRef .tc main_arg5) := by
  after_results <;> rfl

/-! ## Window 4 -/

set_option maxHeartbeats 8000000 in
theorem D_v64 (V : Valuation τ sig (Elt F)) (x0 : (⟨S500000x5, .f32⟩ : BufTy).Contents (Elt F)) (x1 : (⟨S2x16000000, .i32⟩ : BufTy).Contents (Elt F))
    (x2 : (⟨S5x5, .f32⟩ : BufTy).Contents (Elt F)) (x3 : (⟨S5, .f32⟩ : BufTy).Contents (Elt F))
    (h3 : V (Proc.devRef .tc main_v3) = val_main_v3 (F := F) x1) (h6 : V (Proc.devRef .tc main_v6) = val_main_v6 (F := F) x1)
    (h29 : V (Proc.devRef .tc main_v29) = val_main_v29 (F := F) x1) (h47 : V (Proc.devRef .tc main_v47) = val_main_v47 (F := F) x0 x1 x2 x3) :
    after (opsD (F := F)) V (Proc.devRef .tc main_v64) = val_main_v64 (F := F) x0 x1 x2 x3 (V (Proc.devRef .tc main_arg4)) (V (Proc.devRef .tc main_arg5)) := by
  after_results
  rw [h3, h6, h29, h47]
  rfl

/-! ## Window 5 -/

/-! ## Typed references

The operations of a called function name their buffers together with the buffers' types; contents pass to and from
such a buffer through a transport along the equation of the two types. Writing contents there and reading them back is
the identity, and at a literal buffer each transport alone is the identity. -/

/-- Reading a typed buffer back after writing contents to it gives the contents. -/
theorem ofBuf_toBuf {T : BufTy} (x : TRef sig T) (v : T.Contents (Elt F)) : x.ofBuf (x.toBuf v) = v := by
  simp only [TRef.ofBuf, TRef.toBuf, cast_cast, cast_eq]

/-- At the result buffer the transport is the identity. -/
theorem toBuf_v65 (v : (⟨S500000x8, .f32⟩ : BufTy).Contents (Elt F)) :
    (TRef.of (sig := sig) (T := ⟨S500000x8, .f32⟩) main_v65).toBuf (Val := Elt F) v = v := rfl

set_option maxHeartbeats 8000000 in
theorem E_v65 (V : Valuation τ sig (Elt F)) (x0 : (⟨S500000x5, .f32⟩ : BufTy).Contents (Elt F)) (x1 : (⟨S2x16000000, .i32⟩ : BufTy).Contents (Elt F))
    (x2 : (⟨S5x5, .f32⟩ : BufTy).Contents (Elt F)) (x3 : (⟨S5, .f32⟩ : BufTy).Contents (Elt F))
    (x4 : (⟨S5x8, .f32⟩ : BufTy).Contents (Elt F)) (x5 : (⟨S8, .f32⟩ : BufTy).Contents (Elt F))
    (h64 : V (Proc.devRef .tc main_v64) = val_main_v64 (F := F) x0 x1 x2 x3 x4 x5) :
    after (opsE (F := F)) V (Proc.devRef .tc main_v65) = val_main_v65 (F := F) x0 x1 x2 x3 x4 x5 := by
  -- the hypothesis, as the window's first operations read the buffer: through the (identity) transport
  have h64' : (TRef.of (sig := sig) (T := ⟨S500000x8, .f32⟩) main_v64).ofBuf (Val := Elt F) (V (Proc.devRef .tc main_v64))
      = val_main_v64 (F := F) x0 x1 x2 x3 x4 x5 := h64
  after_results
  simp only [h64', ofBuf_toBuf, toBuf_v65]
  rfl

/-! ## The whole line -/

/-- The result buffer after the whole line: the last stage's value of the six arguments. -/
theorem result_eq (V : Valuation τ sig (Elt F)) :
    after (ops (F := F)) V (Proc.devRef .tc main_v65)
      = val_main_v65 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, after_append, after_append, after_append, after_append]
  have a3 := A_v3 (F := F) V
  have a6 := A_v6 (F := F) V
  have a14 := A_v14 (F := F) V
  have b29 := B_v29 (F := F) (after opsA V) _ a3 a6 a14
  have b3 := (B_keep_v3 (F := F) (after opsA V)).trans a3
  have b6 := (B_keep_v6 (F := F) (after opsA V)).trans a6
  have c47 := C_v47 (F := F) (after opsB (after opsA V)) _ b3 b6 b29
  rw [B_keep_arg0, B_keep_arg2, B_keep_arg3, A_keep_arg0, A_keep_arg2, A_keep_arg3] at c47
  have c3 := (C_keep_v3 (F := F) (after opsB (after opsA V))).trans b3
  have c6 := (C_keep_v6 (F := F) (after opsB (after opsA V))).trans b6
  have c29 := (C_keep_v29 (F := F) (after opsB (after opsA V))).trans b29
  have d64 := D_v64 (F := F) (after opsC (after opsB (after opsA V))) _ _ _ _ c3 c6 c29 c47
  rw [C_keep_arg4, C_keep_arg5, B_keep_arg4, B_keep_arg5, A_keep_arg4, A_keep_arg5] at d64
  exact E_v65 (F := F) _ _ _ _ _ _ _ d64

set_option maxHeartbeats 39200000 in
theorem keep_arg0 (V : Valuation τ sig (Elt F)) : after (ops (F := F)) V (Proc.devRef .tc main_arg0) = V (Proc.devRef .tc main_arg0) := by
  after_results_simp <;> rfl

set_option maxHeartbeats 39200000 in
theorem keep_arg1 (V : Valuation τ sig (Elt F)) : after (ops (F := F)) V (Proc.devRef .tc main_arg1) = V (Proc.devRef .tc main_arg1) := by
  after_results_simp <;> rfl

set_option maxHeartbeats 39200000 in
theorem keep_arg2 (V : Valuation τ sig (Elt F)) : after (ops (F := F)) V (Proc.devRef .tc main_arg2) = V (Proc.devRef .tc main_arg2) := by
  after_results_simp <;> rfl

set_option maxHeartbeats 39200000 in
theorem keep_arg3 (V : Valuation τ sig (Elt F)) : after (ops (F := F)) V (Proc.devRef .tc main_arg3) = V (Proc.devRef .tc main_arg3) := by
  after_results_simp <;> rfl

set_option maxHeartbeats 39200000 in
theorem keep_arg4 (V : Valuation τ sig (Elt F)) : after (ops (F := F)) V (Proc.devRef .tc main_arg4) = V (Proc.devRef .tc main_arg4) := by
  after_results_simp <;> rfl

set_option maxHeartbeats 39200000 in
theorem keep_arg5 (V : Valuation τ sig (Elt F)) : after (ops (F := F)) V (Proc.devRef .tc main_arg5) = V (Proc.devRef .tc main_arg5) := by
  after_results_simp <;> rfl

set_option maxRecDepth 65536 in
set_option maxHeartbeats 39200000 in
/-- On every device, for any float values, from any memory with zero counters: every weakly fair execution of @main
    terminates with the result at the last stage's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq (F := F) (launchContents m c)),
      (h c main_arg0).trans (keep_arg0 (F := F) (launchContents m c)),
      (h c main_arg1).trans (keep_arg1 (F := F) (launchContents m c)),
      (h c main_arg2).trans (keep_arg2 (F := F) (launchContents m c)),
      (h c main_arg3).trans (keep_arg3 (F := F) (launchContents m c)),
      (h c main_arg4).trans (keep_arg4 (F := F) (launchContents m c)),
      (h c main_arg5).trans (keep_arg5 (F := F) (launchContents m c))⟩)
    (run_seq scopedRefs_eq scopedSems_eq defs main (fun _ => ops) main_eq (fun _ => ops_sub) m ρ)

end Cert.ReferenceIdeal.Windows

end
-- ==== Proof.LibGatherColumn.lean ====
/-
  Looking entries of a flat array up at a column of indices, read at one position.

  `x[idx]` for a flat array `x : [N]` and an integer vector `idx : [R]` is lowered to a gather whose start indices are the
  vector written as a column `[R, 1]` (the index vector lies along axis 1), with the operand's one axis collapsed and a
  slice of one entry. Result entry `t` is `x` at the start index `idx[t, 0]`, read as a signed integer and clamped
  into `[0, N - 1]`, as the gather clamps every start index. This is the rank-1 companion of the library's reading of a
  gather at a rank-2 array of start indices (`ValueIdx.gather_take_apply`), proved the same way.
-/
import Idealize.ShloMosaic.Lib.ValueIdx

noncomputable section

namespace Cert.LibGatherColumn

open Idealize.ShloMosaic Idealize.ShloMosaic.ValueIdx

variable {α : Type}

/-- The dimension numbers of that gather for an operand `[N]`, start indices `[R, 1]` and a result `[R]`. -/
abbrev colDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The start-indices position `[t, 0]` of result position `t`. -/
abbrev colIdx {R : Nat} (y : (⟨1, ![R]⟩ : Shape).Idx) : (⟨2, ![R, 1]⟩ : Shape).Idx :=
  fun a => match a with | ⟨0, _⟩ => ⟨(y 0).val, (y 0).isLt⟩ | ⟨1, _⟩ => ⟨0, Nat.one_pos⟩

/-- The gather read at `t`: the operand at the start index `idx[t, 0]`, read signed and clamped into `[0, N - 1]`. -/
theorem gather_col_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (colDims N R wf) x idx y = x (ix1 ⟨min (idx (colIdx y)).toInt.toNat (N - 1), by omega⟩) := by
  unfold Host.gather
  congr 1
  funext a
  obtain rfl : a = 0 := Subsingleton.elim _ _
  refine Fin.ext ?_
  show (colDims N R wf).start y idx 0 + (colDims N R wf).batchCoord y 0 + (colDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx y ⟨List.idxOf (0 : Fin 1) (colDims N R wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

end Cert.LibGatherColumn

end
-- ==== Proof.LibRowMin.lean ====
/-
  Minimum reductions of a matrix, at the ideal values, and sums down its columns.
  * For an [a, b] matrix reduced along its second axis into a vector of length a, a minimum reduction reads, at r, the
    fold of min over k < b of the entries (r, k), started from the accumulator's value.
  * The host's sum along the rows reads, at r, the initial value plus the sum over k < b of the entries (r, k).
  * For an [a, b] matrix reduced along its FIRST axis into a vector of length b: the index of the matrix that lies over
    position c of the vector with k inserted on the reduced axis is (k, c); the host's minimum reduction reads, at c, the
    fold of min over k < a of the entries (k, c), started from the initial value; the host's sum reads, at c, the initial
    value plus the sum over k < a of the entries (k, c).
-/
import Idealize.ShloMosaic.PureOps.Ideal.Laws
import Idealize.ShloMosaic.PureOps.Reduce
import Idealize.ShloMosaic.Lib.ValueIdx

noncomputable section

namespace Cert.LibRowMin

open Idealize.ShloMosaic Idealize.ShloMosaic.ValueIdx

/-- Over position `r` of the reduced vector, with `k` on the reduced (second) axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The minimum along a row: at `r`, the fold of `min` over the row's entries from the accumulator's value. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_eq_fold src acc h hφ hacc (ix1 r)).trans ?_
  refine (h.fold_filter_drop_single FloatOps.minimumf (FloatOps.ofBits φ acc) src (ix1 r)).trans ?_
  exact congrArg (Finset.fold min (Ideal.ofBits φ acc) · (Finset.univ : Finset (Fin b)))
    (funext fun k => congrArg src (lift_row h r k))

/-- The host's sum along a row: at `r`, the initial value plus the sum over the row's entries. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel) (r : Fin a) :
    Host.reduceAdd x init h' hu (ix1 r) = init (Shape.Idx.first hu) + ∑ k : Fin b, x (ix2 r k) :=
  (Ideal.hostReduceAdd_single h' h x (init (Shape.Idx.first hu)) (ix1 r)).trans
    (congrArg (init (Shape.Idx.first hu) + ·) (Finset.sum_congr rfl fun k _ => congrArg x (lift_row h r k)))

/-- The host's minimum down a column: at `c`, the fold of `min` over the column's entries from the initial value. -/
theorem hostColMin_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩) (hu : 0 < u.numel) (c : Fin b) :
    Host.reduce FloatOps.minimumf x init h' hu (ix1 c)
      = (Finset.univ : Finset (Fin a)).fold min (init (Shape.Idx.first hu)) (fun k => x (ix2 k c)) := by
  refine (Host.reduce_eq_fold_single FloatOps.minimumf x init h' h hu (ix1 c)).trans ?_
  exact congrArg (Finset.fold min (init (Shape.Idx.first hu)) · (Finset.univ : Finset (Fin a)))
    (funext fun k => congrArg x (lift_col h c k))

end Cert.LibRowMin

end
-- ==== Proof.RefLogSoftmax.lean ====
/-
  The last ten operations of the reference: a row-wise log-softmax of the [500000, 8] array of logits, as jax writes it.

  With z the eight logits of a row, jax computes M = max(-∞, max over the row from -∞), shifts the row by M,
  exponentiates, sums the row from 0, takes the logarithm and subtracts it from the shifted row. The maximum of a row folded
  from -∞ is already at least -∞, so the outer maximum changes nothing; the sum from 0 is the sum. Entry (n, c) of the
  result is therefore (z c - M) - log (∑ k, exp (z k - M)) with M the fold of max over the row from -∞: the
  specification's logSoftmax of the row.
-/
import proofs.«118445_j34368328302938_2_alg».proof.Proof.RefRead
import proofs.«118445_j34368328302938_2_alg».proof.Proof.Spec
import proofs.«118445_j34368328302938_2_alg».proof.Proof.LibRowMin

open scoped BigOperators

noncomputable section

namespace Cert.ReferenceIdeal.RefLogSoftmax

open Cert.ReferenceIdeal Cert.ReferenceIdeal.Gen Cert.ReferenceIdeal.ReadP Idealize.ShloMosaic Idealize.ShloMosaic.ValueIdx

/-- The host's maximum along a row: at r, the fold of max over the row's entries from the initial value. -/
theorem hostRowMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel) (r : Fin a) :
    Host.reduce FloatOps.maximumf x init h' hu (ix1 r)
      = (Finset.univ : Finset (Fin b)).fold max (init (Shape.Idx.first hu)) (fun k => x (ix2 r k)) := by
  refine (Host.reduce_eq_fold_single FloatOps.maximumf x init h' h hu (ix1 r)).trans ?_
  exact congrArg (Finset.fold max (init (Shape.Idx.first hu)) · (Finset.univ : Finset (Fin b)))
    (funext fun k => congrArg x (Cert.LibRowMin.lift_row h r k))

/-- A maximum folded from -∞ is at least -∞: the maximum with -∞ in front of it changes nothing. -/
theorem max_ninf_rowMax (z : Fin 8 → EReal) :
    max (Ideal.ofBits .f32 0xFF800000#32) (Cert.Gcn.rowMax z) = Cert.Gcn.rowMax z :=
  max_eq_right ((Finset.le_fold_max _).mpr (Or.inl le_rfl))

/-- The row maximum of the logits, read at row n: the specification's rowMax of the row. -/
theorem call2_v0_apply (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) (x4 : (⟨S5x8, .f32⟩ : BufTy).Contents (Elt Ideal)) (x5 : (⟨S8, .f32⟩ : BufTy).Contents (Elt Ideal)) (n : Fin 500000) :
    val_main_call2_v0 (F := Ideal) x0 x1 x2 x3 x4 x5 (ix1 n)
      = Cert.Gcn.rowMax (fun k => val_main_v64 (F := Ideal) x0 x1 x2 x3 x4 x5 (ix2 n k)) := by
  unfold val_main_call2_v0
  generalize val_main_v64 (F := Ideal) x0 x1 x2 x3 x4 x5 = z
  exact hostRowMax_apply z _ reducesTo_S500000x8_S500000_d1 (by decide) h_S_ n

/-- The shift jax subtracts, read at row n: the row maximum. -/
theorem call2_v2_apply (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) (x4 : (⟨S5x8, .f32⟩ : BufTy).Contents (Elt Ideal)) (x5 : (⟨S8, .f32⟩ : BufTy).Contents (Elt Ideal)) (n : Fin 500000) :
    val_main_call2_v2 (F := Ideal) x0 x1 x2 x3 x4 x5 (ix1 n)
      = Cert.Gcn.rowMax (fun k => val_main_v64 (F := Ideal) x0 x1 x2 x3 x4 x5 (ix2 n k)) := by
  rw [val_main_call2_v2_apply, val_main_call2_v1_apply, val_main_call2_cst_0_apply, call2_v0_apply]
  exact max_ninf_rowMax _

/-- The shifted logits at (n, c). -/
theorem call2_v5_apply (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) (x4 : (⟨S5x8, .f32⟩ : BufTy).Contents (Elt Ideal)) (x5 : (⟨S8, .f32⟩ : BufTy).Contents (Elt Ideal)) (n : Fin 500000) (c : Fin 8) :
    val_main_call2_v5 (F := Ideal) x0 x1 x2 x3 x4 x5 (ix2 n c)
      = val_main_v64 (F := Ideal) x0 x1 x2 x3 x4 x5 (ix2 n c)
        - Cert.Gcn.rowMax (fun k => val_main_v64 (F := Ideal) x0 x1 x2 x3 x4 x5 (ix2 n k)) := by
  have e : idx_main_call2_v3 (idx_main_call2_v4 (ix2 n c)) = ix1 n :=
    funext fun a => Fin.ext (by match a with | ⟨0, _⟩ => rfl)
  rw [val_main_call2_v5_apply, val_main_call2_v4_apply, val_main_call2_v3_apply, e, call2_v2_apply]
  rfl

/-- The logarithm of the row's sum of exponentials, read at (n, c). -/
theorem call2_v10_apply (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) (x4 : (⟨S5x8, .f32⟩ : BufTy).Contents (Elt Ideal)) (x5 : (⟨S8, .f32⟩ : BufTy).Contents (Elt Ideal)) (n : Fin 500000) (c : Fin 8) :
    val_main_call2_v10 (F := Ideal) x0 x1 x2 x3 x4 x5 (ix2 n c)
      = Ideal.log (∑ k : Fin 8, Ideal.exp (val_main_v64 (F := Ideal) x0 x1 x2 x3 x4 x5 (ix2 n k)
          - Cert.Gcn.rowMax (fun k => val_main_v64 (F := Ideal) x0 x1 x2 x3 x4 x5 (ix2 n k)))) := by
  have e : idx_main_call2_v8 (idx_main_call2_v10 (ix2 n c)) = ix1 n :=
    funext fun a => Fin.ext (by match a with | ⟨0, _⟩ => rfl)
  have e7 : ∀ k : Fin 8, idx_main_call2_v7 (ix1 n) k = ix2 n k := fun k =>
    funext fun a => Fin.ext (by match a with | ⟨0, _⟩ => rfl | ⟨1, _⟩ => rfl)
  rw [val_main_call2_v10_apply, val_main_call2_v9_apply, val_main_call2_v8_apply, e, val_main_call2_v7_apply,
    val_main_call2_cst_1_apply, Ideal.hostUnary_log_def, Ideal.ofBits_def, Ideal.ofBits_zero_f32, zero_add]
  refine congrArg Ideal.log (Finset.sum_congr rfl fun k _ => ?_)
  rw [e7 k, val_main_call2_v6_apply, call2_v5_apply, Ideal.hostUnary_exp_def]

/-- The reference's result at (n, c): the log-softmax of row n of the logits, at c. -/
theorem v65_apply (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) (x4 : (⟨S5x8, .f32⟩ : BufTy).Contents (Elt Ideal)) (x5 : (⟨S8, .f32⟩ : BufTy).Contents (Elt Ideal)) (n : Fin 500000) (c : Fin 8) :
    val_main_v65 (F := Ideal) x0 x1 x2 x3 x4 x5 (ix2 n c)
      = Cert.Gcn.logSoftmax (fun k => val_main_v64 (F := Ideal) x0 x1 x2 x3 x4 x5 (ix2 n k)) c := by
  rw [val_main_v65_apply, call2_v5_apply, call2_v10_apply]
  rfl

end Cert.ReferenceIdeal.RefLogSoftmax

end
-- ==== Proof.RefValue.lean ====
/-
  The reference program's result as the per-edge arrangement of the graph convolution.

  The reference computes, for every edge e, the weight nrm e = dinv (src e) · dinv (dst e) by two lookups of the flat
  array dinv at the columns of wrapped source and target nodes. A layer then transforms the node rows by a dense
  matrix, looks the transformed row of each edge's source up (a gather of whole rows at the column of wrapped source nodes: the
  row index is the entry read signed and clamped into [0, 499 999]), multiplies it by the edge's weight (the weight
  spread along the row), and adds the weighted rows into the rows named by the column of raw target nodes (a
  scatter-add into zeros: an entry outside [0, 499 999] names no row). At (n, c) that is
  0 + ∑ over the edges e into n of h (src e, c) · nrm e — the specification's gatherSumW. The bias is a vector
  spread along the rows; the first layer ends in a maximum with 0, the second in the row-wise log-softmax.
  The three spellings of the column of wrapped source nodes are one term, and so are the three of the raw target column.
-/
import proofs.«118445_j34368328302938_2_alg».proof.Proof.RefRead
import proofs.«118445_j34368328302938_2_alg».proof.Proof.Spec
import proofs.«118445_j34368328302938_2_alg».proof.Proof.LibScatterRows
import proofs.«118445_j34368328302938_2_alg».proof.Proof.LibGatherRows
import proofs.«118445_j34368328302938_2_alg».proof.Proof.LibGatherColumn
import proofs.«118445_j34368328302938_2_alg».proof.Proof.RefLogSoftmax

open scoped BigOperators

noncomputable section

namespace Cert.ReferenceIdeal.RefValue

open Cert.ReferenceIdeal Cert.ReferenceIdeal.Gen Cert.ReferenceIdeal.ReadP Idealize.ShloMosaic Idealize.ShloMosaic.ValueIdx Cert.Gcn

/-! ## Lookups and the scatter-add, at an index -/

/-- A lookup of the flat array d at the column s, read at edge e: d at the node the column names for e. -/
theorem gather_flat (d : (⟨S500000, .f32⟩ : BufTy).Contents (Elt Ideal)) (s : EdgeCol) (e : Fin 16500000) :
    Host.gather gather_S500000_S16500000x1_S16500000_n_0_n_n_0_1_1 d s (ix1 e) = d (ix1 (lookupRow s e)) := by
  have hc : Cert.LibGatherColumn.colIdx (ix1 e) = ix2 e (0 : Fin 1) :=
    funext fun a => Fin.ext (by match a with | ⟨0, _⟩ => rfl | ⟨1, _⟩ => rfl)
  refine (Cert.LibGatherColumn.gather_col_apply (N := 500000) (R := 16500000) (by omega)
    gather_S500000_S16500000x1_S16500000_n_0_n_n_0_1_1_wf d s (ix1 e)).trans ?_
  refine congrArg d (congrArg (ix1 (n := 500000)) (Fin.ext ?_))
  show min (s (Cert.LibGatherColumn.colIdx (ix1 e))).toInt.toNat (500000 - 1)
    = min (s (ix2 e (0 : Fin 1))).toInt.toNat (500000 - 1)
  rw [hc]

/-- A lookup of whole rows of h (H columns) at the column s, read at (e, c): h at the row the column names for e. -/
theorem gather_rows {H : ℕ}
    (wf : GatherDims.WF ⟨2, ![500000, H]⟩ ⟨2, ![16500000, 1]⟩ ⟨2, ![16500000, H]⟩ [1] [0] [] [0] [] 1 ![1, H])
    (h : Mat 500000 H) (s : EdgeCol) (e : Fin 16500000) (c : Fin H) :
    Host.gather (Cert.LibGatherRows.rowDims 500000 H 16500000 wf) h s (ix2 e c) = h (ix2 (lookupRow s e) c) := by
  have hr : Cert.LibGatherRows.rowIdx (ix2 e c) = ix2 e (0 : Fin 1) :=
    funext fun a => Fin.ext (by match a with | ⟨0, _⟩ => rfl | ⟨1, _⟩ => rfl)
  refine (Cert.LibGatherRows.gather_rows_apply (by omega) wf h s (ix2 e c)).trans ?_
  refine congrArg h (congrArg₂ (ix2 (n0 := 500000) (n1 := H)) (Fin.ext ?_) rfl)
  show min (s (Cert.LibGatherRows.rowIdx (ix2 e c))).toInt.toNat (500000 - 1)
    = min (s (ix2 e (0 : Fin 1))).toInt.toNat (500000 - 1)
  rw [hr]

/-- A scatter-add into zeros, through the column t, of per-edge rows h (src e, ·) · nrm e: at (n, c) the weighted sum over
    the edges into n. -/
theorem scatter_messages {H : ℕ}
    (wf : ScatterDims.WF ⟨2, ![500000, H]⟩ ⟨2, ![16500000, 1]⟩ ⟨2, ![16500000, H]⟩ [1] [0] [0] 1)
    (z : Mat 500000 H) (hz : ∀ i, z i = 0) (t : EdgeCol) (upd : Mat 16500000 H)
    (h : Mat 500000 H) (s : EdgeCol) (nrm : Fin 16500000 → EReal)
    (hupd : ∀ e c, upd (ix2 e c) = h (ix2 (lookupRow s e) c) * nrm e) (n : Fin 500000) (c : Fin H) :
    Ideal.hostScatterAdd (⟨[1], [0], [0], 1, wf⟩ : ScatterDims ⟨2, ![500000, H]⟩ ⟨2, ![16500000, 1]⟩ ⟨2, ![16500000, H]⟩)
        z t upd (ix2 n c)
      = gatherSumW h s t nrm (ix2 n c) := by
  rw [Cert.LibScatterRows.scatterRows_apply 500000 16500000 H wf z t upd n c, hz]
  unfold gatherSumW edgesInto
  refine congrArg (0 + ·) (Finset.sum_congr rfl fun e _ => ?_)
  exact hupd e c

/-- The row lookup of the first layer (5 columns), at the printed dimension numbers. -/
theorem gather_rows5 (h : (⟨S500000x5, .f32⟩ : BufTy).Contents (Elt Ideal)) (s : EdgeCol) (e : Fin 16500000) (c : Fin 5) :
    Host.gather gather_S500000x5_S16500000x1_S16500000x5_1_0_n_n_0_1_15 h s (ix2 e c) = h (ix2 (lookupRow s e) c) :=
  gather_rows gather_S500000x5_S16500000x1_S16500000x5_1_0_n_n_0_1_15_wf h s e c

/-- The row lookup of the second layer (8 columns), at the printed dimension numbers. -/
theorem gather_rows8 (h : (⟨S500000x8, .f32⟩ : BufTy).Contents (Elt Ideal)) (s : EdgeCol) (e : Fin 16500000) (c : Fin 8) :
    Host.gather gather_S500000x8_S16500000x1_S16500000x8_1_0_n_n_0_1_18 h s (ix2 e c) = h (ix2 (lookupRow s e) c) :=
  gather_rows gather_S500000x8_S16500000x1_S16500000x8_1_0_n_n_0_1_18_wf h s e c

/-- The scatter-add of the first layer (5 columns), at the printed dimension numbers. -/
theorem scatter_messages5 (z : (⟨S500000x5, .f32⟩ : BufTy).Contents (Elt Ideal)) (hz : ∀ i, z i = 0) (t : EdgeCol)
    (upd : (⟨S16500000x5, .f32⟩ : BufTy).Contents (Elt Ideal)) (h : Mat 500000 5) (s : EdgeCol) (nrm : Fin 16500000 → EReal)
    (hupd : ∀ e c, upd (ix2 e c) = h (ix2 (lookupRow s e) c) * nrm e) (n : Fin 500000) (c : Fin 5) :
    Host.scatterAdd (F := Ideal) (φ := .f32) scatter_S500000x5_S16500000x1_S16500000x5_1_0_0_1 z t upd (ix2 n c)
      = gatherSumW h s t nrm (ix2 n c) :=
  scatter_messages scatter_S500000x5_S16500000x1_S16500000x5_1_0_0_1_wf z hz t upd h s nrm hupd n c

/-- The scatter-add of the second layer (8 columns), at the printed dimension numbers. -/
theorem scatter_messages8 (z : (⟨S500000x8, .f32⟩ : BufTy).Contents (Elt Ideal)) (hz : ∀ i, z i = 0) (t : EdgeCol)
    (upd : (⟨S16500000x8, .f32⟩ : BufTy).Contents (Elt Ideal)) (h : Mat 500000 8) (s : EdgeCol) (nrm : Fin 16500000 → EReal)
    (hupd : ∀ e c, upd (ix2 e c) = h (ix2 (lookupRow s e) c) * nrm e) (n : Fin 500000) (c : Fin 8) :
    Host.scatterAdd (F := Ideal) (φ := .f32) scatter_S500000x8_S16500000x1_S16500000x8_1_0_0_1 z t upd (ix2 n c)
      = gatherSumW h s t nrm (ix2 n c) :=
  scatter_messages scatter_S500000x8_S16500000x1_S16500000x8_1_0_0_1_wf z hz t upd h s nrm hupd n c

/-- The per-edge arrangement read at (n, c): the log-softmax of row n of the second layer's summed messages plus bias. -/
theorem perEdge_apply (x : Mat 500000 5) (w1 : Mat 5 5) (b1 : Vct 5) (w2 : Mat 5 8) (b2 : Vct 8) (nrm : Fin 16500000 → EReal)
    (s t : EdgeCol) (n : Fin 500000) (c : Fin 8) :
    perEdge x w1 b1 w2 b2 nrm s t (ix2 n c)
      = logSoftmax (fun k => gatherSumW (dense (fun j : (⟨2, ![500000, 5]⟩ : Shape).Idx =>
          max (gatherSumW (dense x w1) s t nrm j + b1 (ix1 (col j))) 0) w2) s t nrm (ix2 n k) + b2 (ix1 k)) c := rfl

/-! ## The per-edge weight -/

/-- The weight of edge e: dinv at its wrapped source times dinv at its wrapped target. -/
theorem nrm_value (x1 : (⟨S2x16000000, .i32⟩ : BufTy).Contents (Elt Ideal)) (e : Fin 16500000) :
    val_main_v29 (F := Ideal) x1 (ix1 e)
      = val_main_v14 (F := Ideal) x1 (ix1 (lookupRow (val_main_v20 (F := Ideal) x1) e))
        * val_main_v14 (F := Ideal) x1 (ix1 (lookupRow (val_main_v27 (F := Ideal) x1) e)) := by
  rw [val_main_v29_apply, Ideal.mulf_def]
  unfold val_main_v21 val_main_v28
  rw [gather_flat, gather_flat]

/-- The second layer's spelling of the column of wrapped source nodes is the first layer's. -/
theorem v54_eq (x1 : (⟨S2x16000000, .i32⟩ : BufTy).Contents (Elt Ideal)) : val_main_v54 (F := Ideal) x1 = val_main_v36 (F := Ideal) x1 := rfl

/-- The second layer's spelling of the column of raw target nodes is the first layer's. -/
theorem v60_eq (x1 : (⟨S2x16000000, .i32⟩ : BufTy).Contents (Elt Ideal)) : val_main_v60 (F := Ideal) x1 = val_main_v42 (F := Ideal) x1 := rfl

/-! ## The first layer -/

/-- The first dense transform is the specification's. -/
theorem v30_eq (x0 : (⟨S500000x5, .f32⟩ : BufTy).Contents (Elt Ideal)) (x2 : (⟨S5x5, .f32⟩ : BufTy).Contents (Elt Ideal)) : val_main_v30 (F := Ideal) x0 x2 = dense x0 x2 := by
  funext i
  rw [val_main_v30_apply]
  unfold dense
  refine Finset.sum_congr rfl fun k _ => ?_
  have el : lidx_main_v30 i k = ix2 (row i) k :=
    funext fun a => Fin.ext (by match a with | ⟨0, _⟩ => rfl | ⟨1, _⟩ => rfl)
  have er : ridx_main_v30 i k = ix2 k (col i) :=
    funext fun a => Fin.ext (by match a with | ⟨0, _⟩ => rfl | ⟨1, _⟩ => rfl)
  rw [el, er]

/-- The first layer's message along edge e, column c. -/
theorem v40_apply (x0 : (⟨S500000x5, .f32⟩ : BufTy).Contents (Elt Ideal)) (x1 : (⟨S2x16000000, .i32⟩ : BufTy).Contents (Elt Ideal)) (x2 : (⟨S5x5, .f32⟩ : BufTy).Contents (Elt Ideal)) (e : Fin 16500000) (c : Fin 5) :
    val_main_v40 (F := Ideal) x0 x1 x2 (ix2 e c)
      = dense x0 x2 (ix2 (lookupRow (val_main_v36 (F := Ideal) x1) e) c) * val_main_v29 (F := Ideal) x1 (ix1 e) := by
  have e39 : idx_main_v38 (idx_main_v39 (ix2 e c)) = ix1 e :=
    funext fun a => Fin.ext (by match a with | ⟨0, _⟩ => rfl)
  rw [val_main_v40_apply, val_main_v39_apply, val_main_v38_apply, e39, Ideal.mulf_def, ← v30_eq]
  unfold val_main_v37
  rw [gather_rows5]

/-- The zeros the first layer's messages are added into. -/
theorem v41_zero (i : S500000x5.Idx) : val_main_v41 (F := Ideal) i = 0 := by
  rw [val_main_v41_apply, val_main_cst_8_apply]
  exact Ideal.ofBits_zero_f32

/-- The first layer's summed messages. -/
theorem v43_eq (x0 : (⟨S500000x5, .f32⟩ : BufTy).Contents (Elt Ideal)) (x1 : (⟨S2x16000000, .i32⟩ : BufTy).Contents (Elt Ideal)) (x2 : (⟨S5x5, .f32⟩ : BufTy).Contents (Elt Ideal)) : val_main_v43 (F := Ideal) x0 x1 x2 = gatherSumW (dense x0 x2) (val_main_v36 (F := Ideal) x1) (val_main_v42 (F := Ideal) x1) (fun e => val_main_v29 (F := Ideal) x1 (ix1 e)) := by
  funext i
  obtain ⟨n, c, rfl⟩ : ∃ (n : Fin 500000) (c : Fin 5), i = ix2 n c := ⟨i 0, i 1, eq_ix2 i⟩
  unfold val_main_v43
  exact scatter_messages5 (val_main_v41 (F := Ideal)) v41_zero (val_main_v42 (F := Ideal) x1) (val_main_v40 (F := Ideal) x0 x1 x2)
    (dense x0 x2) (val_main_v36 (F := Ideal) x1) (fun e => val_main_v29 (F := Ideal) x1 (ix1 e)) (v40_apply x0 x1 x2) n c

/-- The hidden activation: summed messages plus bias, cut at 0. -/
theorem v47_eq (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) : val_main_v47 (F := Ideal) x0 x1 x2 x3 = (fun j : (⟨2, ![500000, 5]⟩ : Shape).Idx => max (gatherSumW (dense x0 x2) (val_main_v36 (F := Ideal) x1) (val_main_v42 (F := Ideal) x1) (fun e => val_main_v29 (F := Ideal) x1 (ix1 e)) j + x3 (ix1 (col j))) 0) := by
  funext j
  have e45 : idx_main_v44 (idx_main_v45 j) = ix1 (col j) :=
    funext fun a => Fin.ext (by match a with | ⟨0, _⟩ => rfl)
  rw [val_main_v47_apply, val_main_v46_apply, val_main_v45_apply, val_main_v44_apply, e45, val_main_call1_v0_apply,
    val_main_call1_cst_apply, v43_eq, Ideal.maximumf_def, Ideal.addf_def, Ideal.ofBits_def, Ideal.ofBits_zero_f32]

/-! ## The second layer -/

/-- The second dense transform is the specification's. -/
theorem v48_eq (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) (x4 : (⟨S5x8, .f32⟩ : BufTy).Contents (Elt Ideal)) :
    val_main_v48 (F := Ideal) x0 x1 x2 x3 x4 = dense (val_main_v47 (F := Ideal) x0 x1 x2 x3) x4 := by
  funext i
  rw [val_main_v48_apply]
  unfold dense
  refine Finset.sum_congr rfl fun k _ => ?_
  have el : lidx_main_v48 i k = ix2 (row i) k :=
    funext fun a => Fin.ext (by match a with | ⟨0, _⟩ => rfl | ⟨1, _⟩ => rfl)
  have er : ridx_main_v48 i k = ix2 k (col i) :=
    funext fun a => Fin.ext (by match a with | ⟨0, _⟩ => rfl | ⟨1, _⟩ => rfl)
  rw [el, er]

/-- The second layer's message along edge e, column c. -/
theorem v58_apply (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) (x4 : (⟨S5x8, .f32⟩ : BufTy).Contents (Elt Ideal)) (e : Fin 16500000) (c : Fin 8) :
    val_main_v58 (F := Ideal) x0 x1 x2 x3 x4 (ix2 e c)
      = dense (val_main_v47 (F := Ideal) x0 x1 x2 x3) x4 (ix2 (lookupRow (val_main_v36 (F := Ideal) x1) e) c) * val_main_v29 (F := Ideal) x1 (ix1 e) := by
  have e57 : idx_main_v56 (idx_main_v57 (ix2 e c)) = ix1 e :=
    funext fun a => Fin.ext (by match a with | ⟨0, _⟩ => rfl)
  rw [val_main_v58_apply, val_main_v57_apply, val_main_v56_apply, e57, Ideal.mulf_def, ← v48_eq, ← v54_eq]
  unfold val_main_v55
  rw [gather_rows8]

/-- The zeros the second layer's messages are added into. -/
theorem v59_zero (i : S500000x8.Idx) : val_main_v59 (F := Ideal) i = 0 := by
  rw [val_main_v59_apply, val_main_cst_11_apply]
  exact Ideal.ofBits_zero_f32

/-- The second layer's summed messages. -/
theorem v61_eq (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) (x4 : (⟨S5x8, .f32⟩ : BufTy).Contents (Elt Ideal)) :
    val_main_v61 (F := Ideal) x0 x1 x2 x3 x4
      = gatherSumW (dense (val_main_v47 (F := Ideal) x0 x1 x2 x3) x4) (val_main_v36 (F := Ideal) x1) (val_main_v42 (F := Ideal) x1) (fun e => val_main_v29 (F := Ideal) x1 (ix1 e)) := by
  funext i
  obtain ⟨n, c, rfl⟩ : ∃ (n : Fin 500000) (c : Fin 8), i = ix2 n c := ⟨i 0, i 1, eq_ix2 i⟩
  unfold val_main_v61
  rw [v60_eq]
  exact scatter_messages8 (val_main_v59 (F := Ideal)) v59_zero (val_main_v42 (F := Ideal) x1) (val_main_v58 (F := Ideal) x0 x1 x2 x3 x4)
    (dense (val_main_v47 (F := Ideal) x0 x1 x2 x3) x4) (val_main_v36 (F := Ideal) x1) (fun e => val_main_v29 (F := Ideal) x1 (ix1 e)) (v58_apply x0 x1 x2 x3 x4) n c

/-- The logits at (n, k): summed messages plus bias. -/
theorem v64_apply (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) (x4 : (⟨S5x8, .f32⟩ : BufTy).Contents (Elt Ideal)) (x5 : (⟨S8, .f32⟩ : BufTy).Contents (Elt Ideal)) (n : Fin 500000) (k : Fin 8) :
    val_main_v64 (F := Ideal) x0 x1 x2 x3 x4 x5 (ix2 n k) = gatherSumW (dense (fun j : (⟨2, ![500000, 5]⟩ : Shape).Idx => max (gatherSumW (dense x0 x2) (val_main_v36 (F := Ideal) x1) (val_main_v42 (F := Ideal) x1) (fun e => val_main_v29 (F := Ideal) x1 (ix1 e)) j + x3 (ix1 (col j))) 0) x4) (val_main_v36 (F := Ideal) x1) (val_main_v42 (F := Ideal) x1) (fun e => val_main_v29 (F := Ideal) x1 (ix1 e)) (ix2 n k) + x5 (ix1 k) := by
  have e63 : idx_main_v62 (idx_main_v63 (ix2 n k)) = ix1 k :=
    funext fun a => Fin.ext (by match a with | ⟨0, _⟩ => rfl)
  rw [val_main_v64_apply, val_main_v63_apply, val_main_v62_apply, e63, v61_eq, v47_eq, Ideal.addf_def]

/-! ## The result -/

/-- The reference's result is the per-edge arrangement, with the edge weights, the column of wrapped source nodes and the
    column of raw target nodes the reference computes. -/
theorem ref_value (x0 : (⟨S500000x5, .f32⟩ : BufTy).Contents (Elt Ideal)) (x1 : (⟨S2x16000000, .i32⟩ : BufTy).Contents (Elt Ideal)) (x2 : (⟨S5x5, .f32⟩ : BufTy).Contents (Elt Ideal)) (x3 : (⟨S5, .f32⟩ : BufTy).Contents (Elt Ideal)) (x4 : (⟨S5x8, .f32⟩ : BufTy).Contents (Elt Ideal)) (x5 : (⟨S8, .f32⟩ : BufTy).Contents (Elt Ideal)) :
    val_main_v65 (F := Ideal) x0 x1 x2 x3 x4 x5
      = perEdge x0 x2 x3 x4 x5 (fun e => val_main_v29 (F := Ideal) x1 (ix1 e)) (val_main_v36 (F := Ideal) x1) (val_main_v42 (F := Ideal) x1) := by
  funext i
  obtain ⟨n, c, rfl⟩ : ∃ (n : Fin 500000) (c : Fin 8), i = ix2 n c := ⟨i 0, i 1, eq_ix2 i⟩
  rw [Cert.ReferenceIdeal.RefLogSoftmax.v65_apply, perEdge_apply]
  refine congrArg (fun z => logSoftmax z c) (funext fun k => ?_)
  exact v64_apply x0 x1 x2 x3 x4 x5 n k

end Cert.ReferenceIdeal.RefValue

end
-- ==== Proof.LibGraphSum.lean ====
/-
  Sums over the edges into a node, on the extended reals.

  * A factor `D` with `0 ≤ D` and `D ≠ ⊤` distributes over any finite sum of extended reals — infinite summands of both
    signs included: multiplying by such a factor keeps every sign, so no `⊤ + ⊥` is created or destroyed.
  * Hence a sum of messages `h e · (d e · D' e)` whose second weight `D' e` is one and the same `D` for every edge of the sum
    is the sum of the messages `h e · d e`, times `D`: the normalisation by the target's degree may be applied per edge or
    once per node.
  * `1/√(max x 1)` is such a factor for EVERY extended real `x` (it is `0` at `x = ⊤`, and `(√r)⁻¹` with `r ≥ 1` otherwise).
-/
import Mathlib.Data.EReal.Operations
import Mathlib.Data.EReal.Inv
import Idealize.ShloMosaic.PureOps.Ideal

open scoped BigOperators
open Idealize.ShloMosaic

noncomputable section

namespace Cert.LibGraphSum

/-- A nonnegative factor other than `⊤` distributes over a finite sum of extended reals. -/
theorem sum_mul_of_nonneg_of_ne_top {ι : Type*} (S : Finset ι) (f : ι → EReal) {D : EReal} (h0 : 0 ≤ D) (ht : D ≠ ⊤) :
    (∑ e ∈ S, f e) * D = ∑ e ∈ S, f e * D := by
  classical
  refine Finset.induction_on S (by simp) (fun a S ha ih => ?_)
  rw [Finset.sum_insert ha, Finset.sum_insert ha, EReal.right_distrib_of_nonneg_of_ne_top h0 ht, ih]

/-- Messages weighted per edge by `d e · D' e`, the second weight being the same `D` on every edge of the sum: the sum is
    the sum of the messages weighted by `d e` alone, times `D`. (Both sums start from `0`, as a scatter into zeros does.) -/
theorem weighted_sum_factor {ι : Type*} (S : Finset ι) (h d D' : ι → EReal) {D : EReal} (h0 : 0 ≤ D) (ht : D ≠ ⊤)
    (hD : ∀ e ∈ S, D' e = D) :
    0 + ∑ e ∈ S, h e * (d e * D' e) = (0 + ∑ e ∈ S, h e * d e) * D := by
  rw [zero_add, zero_add, sum_mul_of_nonneg_of_ne_top S _ h0 ht]
  refine Finset.sum_congr rfl fun e he => ?_
  rw [hD e he, mul_assoc]

/-- `1/√r` of a real `r ≥ 1` is a nonnegative real. -/
theorem rsqrt_coe_of_one_le (r : ℝ) (hr : 1 ≤ r) :
    0 ≤ Ideal.rsqrt ((r : ℝ) : EReal) ∧ Ideal.rsqrt ((r : ℝ) : EReal) ≠ ⊤ := by
  have hr0 : ¬ r < 0 := by linarith
  have hr1 : ¬ r = 0 := fun h => by rw [h] at hr; norm_num at hr
  rw [Ideal.rsqrt_coe, if_neg hr0, if_neg hr1]
  exact ⟨EReal.coe_nonneg.mpr (inv_nonneg.mpr (Real.sqrt_nonneg r)), EReal.coe_ne_top _⟩

/-- `1/√(max x 1)` is nonnegative and not `⊤`, whatever the extended real `x`. -/
theorem rsqrt_max_one (x : EReal) : 0 ≤ Ideal.rsqrt (max x 1) ∧ Ideal.rsqrt (max x 1) ≠ ⊤ := by
  induction x using EReal.rec with
  | bot =>
    rw [max_eq_right bot_le, ← EReal.coe_one]
    exact rsqrt_coe_of_one_le 1 le_rfl
  | coe r =>
    rcases le_total ((r : ℝ) : EReal) 1 with h | h
    · rw [max_eq_right h, ← EReal.coe_one]
      exact rsqrt_coe_of_one_le 1 le_rfl
    · rw [max_eq_left h]
      exact rsqrt_coe_of_one_le r (by exact_mod_cast h)
  | top =>
    rw [max_eq_left le_top, Ideal.rsqrt_top]
    exact ⟨le_rfl, EReal.zero_ne_top⟩

end Cert.LibGraphSum

end
-- ==== Proof.Algebra.lean ====
/-
  The two arrangements of the two-layer graph convolution are one function.

  Fix a node `n`. Every edge `e` into `n` carries the weight `dv (src e) · dv (dst e)`, and its second factor is the same
  `D = dv n` for all of them. A factor `D` with `0 ≤ D` and `D ≠ ⊤` distributes over any finite sum of extended reals, so
  the weighted sum of the messages into `n` is `D` times the sum of the messages weighted by `dv (src e)` alone: scaling the
  rows by their own factor before they are looked up, and the sums by the target's factor afterwards, gives the same
  layer. Applied twice, with the bias, the cut at `0` and the log-softmax carried along unchanged.
-/
import proofs.«118445_j34368328302938_2_alg».proof.Proof.Spec
import proofs.«118445_j34368328302938_2_alg».proof.Proof.LibGraphSum

open scoped BigOperators

noncomputable section

namespace Cert.Gcn

open Idealize.ShloMosaic Idealize.ShloMosaic.ValueIdx

/-- One layer's lookup-and-sum: with rows pre-scaled by their own factor and the sum scaled by the target's factor, it is
    the per-edge weighted sum. `tw` is the column through which the per-edge weight looks the target's factor up; on the
    edges into `n` it names `n`. -/
theorem scaled_gatherSum {f : ℕ} (h : Mat 500000 f) (dv : Vct 500000)
    (hnn : ∀ n : Fin 500000, 0 ≤ dv (ix1 n) ∧ dv (ix1 n) ≠ ⊤)
    (s t tw : EdgeCol) (htw : ∀ (e : Fin 16500000) (n : Fin 500000), (t (ix2 e (0 : Fin 1))).toInt = (n.val : Int) → lookupRow tw e = n)
    (nrm : Fin 16500000 → EReal) (hnrm : ∀ e, nrm e = dv (ix1 (lookupRow s e)) * dv (ix1 (lookupRow tw e)))
    (n : Fin 500000) (c : Fin f) :
    dv (ix1 n) * gatherSum (fun j => h j * dv (ix1 (row j))) s t (ix2 n c) = gatherSumW h s t nrm (ix2 n c) := by
  unfold gatherSum gatherSumW
  rw [mul_comm]
  refine (LibGraphSum.weighted_sum_factor (edgesInto t n) (fun e => h (ix2 (lookupRow s e) c))
    (fun e => dv (ix1 (lookupRow s e))) (fun e => dv (ix1 (lookupRow tw e))) (hnn n).1 (hnn n).2 ?_).symm.trans ?_
  · intro e he
    have he' : (t (ix2 e (0 : Fin 1))).toInt = (n.val : Int) := (Finset.mem_filter.mp he).2
    rw [htw e n he']
  · refine congrArg (0 + ·) (Finset.sum_congr rfl fun e _ => ?_)
    rw [hnrm e]
    rfl

/-- The per-node arrangement is the per-edge arrangement. `d` is the factor as a column, `dv` as a vector; `b1row`,
    `b2row` are the biases as rows. -/
theorem perNode_eq_perEdge (x : Mat 500000 5) (w1 : Mat 5 5) (b1 : Vct 5) (w2 : Mat 5 8) (b2 : Vct 8)
    (b1row : Mat 1 5) (b2row : Mat 1 8) (hb1 : ∀ k : Fin 5, b1row (ix2 0 k) = b1 (ix1 k)) (hb2 : ∀ k : Fin 8, b2row (ix2 0 k) = b2 (ix1 k))
    (d : Mat 500000 1) (dv : Vct 500000) (hd : ∀ n : Fin 500000, d (ix2 n 0) = dv (ix1 n))
    (hnn : ∀ n : Fin 500000, 0 ≤ dv (ix1 n) ∧ dv (ix1 n) ≠ ⊤)
    (s t tw : EdgeCol) (htw : ∀ (e : Fin 16500000) (n : Fin 500000), (t (ix2 e (0 : Fin 1))).toInt = (n.val : Int) → lookupRow tw e = n)
    (nrm : Fin 16500000 → EReal) (hnrm : ∀ e, nrm e = dv (ix1 (lookupRow s e)) * dv (ix1 (lookupRow tw e))) :
    perNode x w1 b1row w2 b2row d s t = perEdge x w1 b1 w2 b2 nrm s t := by
  -- the first stage is the dense transform with each row scaled by its own factor
  have h0 : stage0 x d w1 = fun j => dense x w1 j * dv (ix1 (row j)) := by
    funext j
    show (∑ k : Fin 5, x (ix2 (row j) k) * w1 (ix2 k (col j))) * d (ix2 (row j) 0) = _
    rw [hd]; rfl
  -- the hidden activation of the per-node arrangement is the per-edge layer's output, cut at 0
  have h1 : ∀ (r : Fin 500000) (k : Fin 5), hidden (gatherSum (stage0 x d w1) s t) d b1row r k
      = max (gatherSumW (dense x w1) s t nrm (ix2 r k) + b1 (ix1 k)) 0 := by
    intro r k
    unfold hidden
    rw [hd, hb1, h0, scaled_gatherSum (dense x w1) dv hnn s t tw htw nrm hnrm r k]
  -- the second stage is the dense transform of the hidden rows, each scaled by its own factor
  have h2 : stage1 (gatherSum (stage0 x d w1) s t) d b1row w2
      = fun j => dense (fun j' : (⟨2, ![500000, 5]⟩ : Shape).Idx =>
          max (gatherSumW (dense x w1) s t nrm j' + b1 (ix1 (col j'))) 0) w2 j * dv (ix1 (row j)) := by
    funext j
    show (∑ k : Fin 5, hidden (gatherSum (stage0 x d w1) s t) d b1row (row j) k * w2 (ix2 k (col j))) * d (ix2 (row j) 0) = _
    rw [hd]
    refine congrArg (· * dv (ix1 (row j))) (Finset.sum_congr rfl fun k _ => ?_)
    rw [h1]
  funext i
  unfold perNode perEdge stage2
  refine congrArg (fun z => logSoftmax z (col i)) (funext fun c => ?_)
  unfold logits
  rw [hd, hb2, h2, scaled_gatherSum _ dv hnn s t tw htw nrm hnrm (row i) c]

end Cert.Gcn

end
-- ==== Proof.LibNodeFactor.lean ====
/-
  Two facts about the graph's bookkeeping values, over the library only.

  * The normalising factor `if x > 0 then 1/√x else 0` of an extended real `x` is never negative and never `⊤`: for a
    positive real it is the real `(√x)⁻¹`, at `⊤` it is `0`, and where `x` is not positive it is the `0` of the other branch.
  * A 32-bit node number that, read as a signed integer, is a node `n < 500 000` is not negative, so "count a negative
    number from the end" leaves it alone, and clamping it into `[0, 499 999]` gives `n` again.
-/
import Mathlib.Data.EReal.Operations
import Idealize.ShloMosaic.PureOps.Ideal
import Idealize.ShloMosaic.PureOps.Ideal.Laws

noncomputable section

namespace Cert.LibNodeFactor

open Idealize.ShloMosaic

/-- `1/√x` of an extended real `x > 0` is nonnegative and not `⊤`. -/
theorem rsqrt_bounds_of_pos (x : EReal) (hx : 0 < x) : 0 ≤ Ideal.rsqrt x ∧ Ideal.rsqrt x ≠ ⊤ := by
  induction x using EReal.rec with
  | bot => exact absurd hx (not_lt.mpr bot_le)
  | coe r =>
    have hr : 0 < r := by exact_mod_cast hx
    rw [Ideal.rsqrt_coe, if_neg (not_lt.mpr hr.le), if_neg hr.ne']
    exact ⟨EReal.coe_nonneg.mpr (inv_nonneg.mpr (Real.sqrt_nonneg r)), EReal.coe_ne_top _⟩
  | top =>
    rw [Ideal.rsqrt_top]
    exact ⟨le_rfl, EReal.zero_ne_top⟩

/-- The normalising factor — `1/√x` where `x` exceeds the zero word, the zero word elsewhere — is nonnegative and not `⊤`. -/
theorem factor_bounds (x : EReal) :
    0 ≤ Scalar.select (Ideal.cmp .ogt x (Ideal.ofBits .f32 0x00000000#32)) (Ideal.rsqrt x) (Ideal.ofBits .f32 0x00000000#32)
    ∧ Scalar.select (Ideal.cmp .ogt x (Ideal.ofBits .f32 0x00000000#32)) (Ideal.rsqrt x) (Ideal.ofBits .f32 0x00000000#32) ≠ ⊤ := by
  rw [Ideal.ofBits_zero_f32]
  unfold Scalar.select Ideal.cmp
  by_cases hx : (0 : EReal) < x
  · have h1 : BitVec.ofBool (decide ((0 : EReal) < x)) = 1 := by rw [decide_eq_true hx]; rfl
    rw [if_pos h1]
    exact rsqrt_bounds_of_pos x hx
  · have h0 : ¬ BitVec.ofBool (decide ((0 : EReal) < x)) = 1 := by rw [decide_eq_false hx]; decide
    rw [if_neg h0]
    exact ⟨le_rfl, EReal.zero_ne_top⟩

/-- A node number that is the node `n` when read signed is left alone by "add 500 000 if negative". -/
theorem wrap_of_toInt_eq (v : BitVec 32) (n : Fin 500000) (hv : v.toInt = (n.val : Int)) :
    Scalar.select (IntOp.cmpi .slt v 0#32) (IntOp.addi v 500000#32) v = v := by
  unfold Scalar.select IntOp.cmpi
  have hns : v.slt 0#32 = false := by
    rw [BitVec.slt_eq_decide]
    have : ¬ v.toInt < (0#32 : BitVec 32).toInt := by
      rw [hv]; show ¬ ((n.val : Int) < 0); omega
    exact decide_eq_false this
  have h0 : ¬ BitVec.ofBool (v.slt 0#32) = 1 := by rw [hns]; decide
  exact if_neg h0

/-- …and clamping it into `[0, 499 999]` gives `n`. -/
theorem clamp_of_toInt_eq (v : BitVec 32) (n : Fin 500000) (hv : v.toInt = (n.val : Int)) :
    min v.toInt.toNat (500000 - 1) = n.val := by
  rw [hv]
  have := n.isLt
  show min (n.val : Int).toNat 499999 = n.val
  rw [Int.toNat_natCast]
  omega

end Cert.LibNodeFactor

end
-- ==== Proof.LibColSum.lean ====
/-
  Over the library only, at the ideal instance: a sum down the columns of an [a, b] matrix. A multi_reduction <add>
  along axis 0 into [b] reads, at column c, the sum over k < a of the entries (k, c) (the accumulator being the zero
  word); the lifted index over c with k inserted on axis 0 is (k, c).
-/
import Idealize.ShloMosaic.PureOps.Ideal.Laws
import Idealize.ShloMosaic.Lib.ValueIdx
import Idealize.ShloMosaic.Lib.Pipeline.Value

noncomputable section

open scoped BigOperators

namespace Cert.LibColSum

open Idealize.ShloMosaic Idealize.ShloMosaic.ValueIdx

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The sum down a column: at `c`, the sum over the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_col h c k))

/-- A [b] vector shape-cast to a [1, b] row reads, at (0, c), the vector's entry c. -/
theorem row_of_vec {b : ℕ} {α : Type} (v : (⟨1, ![b]⟩ : Shape).Idx → α) (h : (⟨1, ![b]⟩ : Shape).ShapeCasts ⟨2, ![1, b]⟩) (c : Fin b) :
    shapeCast ⟨2, ![1, b]⟩ v h (ix2 (0 : Fin 1) c) = v (ix1 c) :=
  (shapeCast_addUnit_apply ![b] v h (ix2 (0 : Fin 1) c)).trans
    (congrArg v (funext fun d => by match d with | ⟨0, _⟩ => rfl))

end Cert.LibColSum

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.Bridge.lean ====
/-
  The idealized kernel and the idealized reference compute one function of the six arguments.

  Both programs build the same bookkeeping values from the edge list by the same operations: the column of source nodes
  (a negative number counted from the end), the column of target nodes, and the normalising factor `dv`. The kernel's
  result is the per-node arrangement of the two-layer graph convolution over these, the reference's the per-edge
  arrangement with the weight `dv (src e) · dv (dst e)` of each edge. The two arrangements agree because
  * `dv n` — `1/√deg` where the degree is positive, `0` elsewhere — is never negative and never `⊤`, so it distributes over
    the sum of the messages into `n`, whatever their values;
  * an edge that the scatter adds into row `n` has, as its target, a number that read signed is `n`: it is not negative, so
    the reference's lookup of the target's factor (count a negative number from the end, clamp into the array) reads `dv n`.
-/
import proofs.«118445_j34368328302938_2_alg».proof.Proof.KValue
import proofs.«118445_j34368328302938_2_alg».proof.Proof.RefValue
import proofs.«118445_j34368328302938_2_alg».proof.Proof.Algebra
import proofs.«118445_j34368328302938_2_alg».proof.Proof.LibNodeFactor
import proofs.«118445_j34368328302938_2_alg».proof.Proof.LibColumn
import proofs.«118445_j34368328302938_2_alg».proof.Proof.LibColSum
import proofs.«118445_j34368328302938_2_alg».proof.Proof.LibHostBroadcast

set_option maxRecDepth 16384

noncomputable section

namespace Cert.Bridge

open Idealize.ShloMosaic Idealize.ShloMosaic.ValueIdx
open Cert.KernelIdeal.HostValue

/-- The edge list's type (the same in both programs). -/
abbrev Edges := (⟨Cert.KernelIdeal.S2x16000000, .i32⟩ : BufTy).Contents (Elt Ideal)

/-! ## The two programs' bookkeeping values are the same terms -/

set_option maxHeartbeats 400000 in
theorem dinv_same (x1 : Edges) : dinvVec (F := Ideal) x1 = Cert.ReferenceIdeal.ReadP.val_main_v14 (F := Ideal) x1 := rfl
set_option maxHeartbeats 400000 in
theorem src_same (x1 : Edges) : srcCol (F := Ideal) x1 = Cert.ReferenceIdeal.ReadP.val_main_v36 (F := Ideal) x1 := rfl
set_option maxHeartbeats 400000 in
theorem src_same' (x1 : Edges) : srcCol (F := Ideal) x1 = Cert.ReferenceIdeal.ReadP.val_main_v20 (F := Ideal) x1 := rfl
set_option maxHeartbeats 400000 in
theorem dst_same (x1 : Edges) : dstCol (F := Ideal) x1 = Cert.ReferenceIdeal.ReadP.val_main_v42 (F := Ideal) x1 := rfl
set_option maxHeartbeats 400000 in
theorem dstw_same (x1 : Edges) : wrapCol (F := Ideal) (dstVec (F := Ideal) x1) = Cert.ReferenceIdeal.ReadP.val_main_v27 (F := Ideal) x1 := rfl

/-! ## The factor's bounds -/

/-- A zero-filled vector reads the zero word everywhere. -/
theorem zeroVec_apply (n : Fin 500000) :
    broadcastInDim Cert.KernelIdeal.S500000 ![] Cert.KernelIdeal.Gen.bcast_S_S500000 (constant (F := Ideal) Cert.KernelIdeal.S_ .f32 0x00000000#32) (ix1 n)
      = Ideal.ofBits .f32 0x00000000#32 :=
  LibHostBroadcast.scalar_to_any _ _ _

/-- The factor's vector read at one position. -/
theorem factor_apply (d z : FVec Ideal Cert.KernelIdeal.S500000 .f32) (i : Cert.KernelIdeal.S500000.Idx) :
    select (cmpf .ogt d z) (Host.rsqrt d) z i = Scalar.select (Ideal.cmp .ogt (d i) (z i)) (Ideal.rsqrt (d i)) (z i) := rfl

set_option maxHeartbeats 400000 in
/-- The normalising factor of a node is nonnegative and not `⊤`. -/
theorem dinv_bounds (x1 : Edges) (n : Fin 500000) :
    0 ≤ dinvVec (F := Ideal) x1 (ix1 n) ∧ dinvVec (F := Ideal) x1 (ix1 n) ≠ ⊤ := by
  unfold dinvVec
  rw [factor_apply, zeroVec_apply]
  exact LibNodeFactor.factor_bounds _

/-! ## The target's lookup -/

/-- A vector of one repeated 32-bit number reads that number everywhere. -/
theorem constVec_apply (w : BitVec 32) (e : Fin 16500000) :
    broadcastInDim Cert.KernelIdeal.S16500000 ![] Cert.KernelIdeal.Gen.bcast_S_S16500000 (constantI Cert.KernelIdeal.S_ 32 w) (ix1 e) = w :=
  LibHostBroadcast.scalar_to_any _ _ _

set_option maxHeartbeats 400000 in
/-- An edge whose target, read signed, is the node `n`: the lookup through the wrapped target column reads row `n`. -/
theorem target_lookup (x1 : Edges) (e : Fin 16500000) (n : Fin 500000)
    (h : (dstCol (F := Ideal) x1 (ix2 e (0 : Fin 1))).toInt = (n.val : Int)) :
    Cert.Gcn.lookupRow (wrapCol (F := Ideal) (dstVec (F := Ideal) x1)) e = n := by
  have ht : dstCol (F := Ideal) x1 (ix2 e (0 : Fin 1)) = dstVec (F := Ideal) x1 (ix1 e) :=
    LibHostBroadcast.vec_to_col _ Cert.KernelIdeal.Gen.bcast_S16500000_S16500000x1_0 e 0
  rw [ht] at h
  have hw : wrapCol (F := Ideal) (dstVec (F := Ideal) x1) (ix2 e (0 : Fin 1)) = dstVec (F := Ideal) x1 (ix1 e) := by
    unfold wrapCol
    rw [LibHostBroadcast.vec_to_col _ Cert.KernelIdeal.Gen.bcast_S16500000_S16500000x1_0 e 0]
    show Scalar.select (IntOp.cmpi .slt (dstVec (F := Ideal) x1 (ix1 e)) (broadcastInDim Cert.KernelIdeal.S16500000 ![] Cert.KernelIdeal.Gen.bcast_S_S16500000 (constantI Cert.KernelIdeal.S_ 32 0#32) (ix1 e)))
        (IntOp.addi (dstVec (F := Ideal) x1 (ix1 e)) (broadcastInDim Cert.KernelIdeal.S16500000 ![] Cert.KernelIdeal.Gen.bcast_S_S16500000 (constantI Cert.KernelIdeal.S_ 32 500000#32) (ix1 e)))
        (dstVec (F := Ideal) x1 (ix1 e)) = _
    rw [constVec_apply, constVec_apply]
    exact LibNodeFactor.wrap_of_toInt_eq _ n h
  apply Fin.ext
  show min (wrapCol (F := Ideal) (dstVec (F := Ideal) x1) (ix2 e (0 : Fin 1))).toInt.toNat (500000 - 1) = n.val
  rw [hw]
  exact LibNodeFactor.clamp_of_toInt_eq _ n h

/-! ## One function -/

/-- The kernel's per-node arrangement over its own bookkeeping values is the reference's result term. -/
theorem kernel_eq_reference (x0 : (⟨Cert.KernelIdeal.S500000x5, .f32⟩ : BufTy).Contents (Elt Ideal)) (x1 : Edges)
    (x2 : (⟨Cert.KernelIdeal.S5x5, .f32⟩ : BufTy).Contents (Elt Ideal)) (x3 : (⟨Cert.KernelIdeal.S5, .f32⟩ : BufTy).Contents (Elt Ideal))
    (x4 : (⟨Cert.KernelIdeal.S5x8, .f32⟩ : BufTy).Contents (Elt Ideal)) (x5 : (⟨Cert.KernelIdeal.S8, .f32⟩ : BufTy).Contents (Elt Ideal)) :
    Cert.Gcn.perNode x0 x2 (shapeCast Cert.KernelIdeal.S1x5 x3 Cert.KernelIdeal.Gen.shapeCasts_S5_S1x5) x4
        (shapeCast Cert.KernelIdeal.S1x8 x5 Cert.KernelIdeal.Gen.shapeCasts_S8_S1x8)
        (dinvCol (F := Ideal) x1) (srcCol (F := Ideal) x1) (dstCol (F := Ideal) x1)
      = Cert.ReferenceIdeal.ReadP.val_main_v65 (F := Ideal) x0 x1 x2 x3 x4 x5 := by
  rw [Cert.ReferenceIdeal.RefValue.ref_value, ← src_same, ← dst_same]
  refine Cert.Gcn.perNode_eq_perEdge x0 x2 x3 x4 x5 _ _ (fun k => LibColSum.row_of_vec x3 _ k) (fun k => LibColSum.row_of_vec x5 _ k)
    (dinvCol (F := Ideal) x1) (dinvVec (F := Ideal) x1) (fun n => LibColumn.shapeCast_a_a1_apply _ _ n 0) (dinv_bounds x1)
    (srcCol (F := Ideal) x1) (dstCol (F := Ideal) x1) (wrapCol (F := Ideal) (dstVec (F := Ideal) x1)) (target_lookup x1) _ (fun e => ?_)
  rw [Cert.ReferenceIdeal.RefValue.nrm_value, ← src_same', ← dstw_same, ← dinv_same]

end Cert.Bridge

end
-- ==== Proof.lean ====
/-
  The certificate: a two-layer graph convolution with symmetric degree normalisation over 500 000 nodes and
  16 500 000 edges (self-loops included), as three row-tiled kernels with host lookups and scatter-adds between them,
  against its plain reference.

  The kernel pulls the target's factor `dv (dst e)` of the edge weight `dv (src e) · dv (dst e)` out of the sum over the
  edges into a node: rows are scaled by their own factor before they are looked up, the sums by the target's factor
  afterwards. On the extended reals this is the reference's per-edge weighting because `dv n` (`1/√deg` where the degree is
  positive, `0` elsewhere) is never negative and never `⊤`, so it distributes over any finite sum. The frames of the two
  kernel programs are the generated ones; the reference's frame is its run with the result dropped; nothing was
  rewritten by the idealisation, so there is nothing to preserve; the algebraic claim puts the two runs side by side:
  the kernel's result buffer ends at the per-node arrangement of the arguments (its regions' outputs and host stretches
  composed), the reference's at the per-edge arrangement (its operations read one at a time), and the two are one
  function of arguments that agree.
-/
import proofs.«118445_j34368328302938_2_alg».proof.Defs
import proofs.«118445_j34368328302938_2_alg».proof.Proof.Gen.Kernel
import proofs.«118445_j34368328302938_2_alg».proof.Proof.Gen.Kernel.Frame
import proofs.«118445_j34368328302938_2_alg».proof.Proof.Gen.KernelIdeal
import proofs.«118445_j34368328302938_2_alg».proof.Proof.Gen.KernelIdeal.Frame
import proofs.«118445_j34368328302938_2_alg».proof.Proof.Gen.ReferenceIdeal
import proofs.«118445_j34368328302938_2_alg».proof.Proof.Gen.Pre_finite_inputs
import proofs.«118445_j34368328302938_2_alg».proof.Proof.KRun
import proofs.«118445_j34368328302938_2_alg».proof.Proof.KValue
import proofs.«118445_j34368328302938_2_alg».proof.Proof.RefWindows
import proofs.«118445_j34368328302938_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Windows.run (F := Ideal) m ρ)

theorem preserves : Cert.preserves_Kernel_KernelIdeal := trivial

/-- From memories agreeing on the arguments both programs run, and the kernel's result buffer (the per-node arrangement of
    its arguments) is the reference's (the per-edge arrangement of the same arguments). -/
theorem algebraic : Cert.algebraic_KernelIdeal_ReferenceIdeal := by
  intro m ρ m' ρ' _ hagree
  refine ⟨fun c => Cert.KernelIdeal.Gen.W8 m ρ c (Proc.devRef .tc Cert.KernelIdeal.main_v40),
    Cert.KernelIdeal.RunValue.run_out m ρ, ?_⟩
  refine (θ_run Cert.ReferenceIdeal.defs _ _).mono (fun _ h c => ⟨(h c).1.trans ?_, (h c).2⟩)
    (Cert.ReferenceIdeal.Windows.run (F := Ideal) m' ρ')
  rw [(hagree c).1, (hagree c).2.1, (hagree c).2.2.1, (hagree c).2.2.2.1, (hagree c).2.2.2.2.1, (hagree c).2.2.2.2.2]
  exact ((Cert.KernelIdeal.KernelValue.result m ρ c).trans (Cert.Bridge.kernel_eq_reference _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
